-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x1024 : Shape := ⟨3, ![64, 8, 1024]⟩
abbrev S64x4096x256 : Shape := ⟨3, ![64, 4096, 256]⟩
abbrev S1024x256 : Shape := ⟨2, ![1024, 256]⟩
abbrev S256 : Shape := ⟨1, ![256]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x1024 : Shape := ⟨2, ![256, 1024]⟩
abbrev S1024 : Shape := ⟨1, ![1024]⟩
abbrev S_ : Shape := ⟨0, ![]⟩

class Facts : Prop where
  bcast_S_S64x8x1024 : S_.BroadcastsInDim S64x8x1024 (![] : Fin 0 → Fin S64x8x1024.rank)
  reducesTo_S64x8x1024_S_d0_1_2 : S64x8x1024.ReducesTo [0, 1, 2] S_
  h_S_ : 0 < S_.numel
  bcast_S_S64x4096x256 : S_.BroadcastsInDim S64x4096x256 (![] : Fin 0 → Fin S64x4096x256.rank)
  reducesTo_S64x4096x256_S_d0_1_2 : S64x4096x256.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S512 .f32) (main_arg8 : FVec F S512x1 .f32) (main_arg9 : FVec F S1 .f32) (main_arg10 : FVec F S256x1024 .f32) (main_arg11 : FVec F S1024 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x1024 .f32 := Host.absf main_arg10
  let main_cst_18 : FVec F S_ .f32 := constant S_ .f32 0x7F800000#32
  let main_v50 : FVec F S256x1024 .f32 := broadcastInDim S256x1024 ![] bcast_S_S256x1024 main_cst_18
  fn_part3 (F := F) main_arg11 main_v48 main_v49 main_v50

def fn_part1 {F : FTy → Type} [FloatOps F] (main_arg4 : FVec F S512 .f32) (main_arg5 : FVec F S512 .f32) (main_arg6 : FVec F S512x512 .f32) (main_arg7 : FVec F S512 .f32) (main_arg8 : FVec F S512x1 .f32) (main_arg9 : FVec F S1 .f32) (main_arg10 : FVec F S256x1024 .f32) (main_arg11 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x8x1024 .f32) (main_arg1 : FVec F S64x4096x256 .f32) (main_arg2 : FVec F S1024x256 .f32) (main_arg3 : FVec F S256 .f32) (main_arg4 : FVec F S512 .f32) (main_arg5 : FVec F S512 .f32) (main_arg6 : FVec F S512x512 .f32) (main_arg7 : FVec F S512 .f32) (main_arg8 : FVec F S512x1 .f32) (main_arg9 : FVec F S1 .f32) (main_arg10 : FVec F S256x1024 .f32) (main_arg11 : FVec F S1024 .f32) : IVec S_ 1 :=
  let main_v0 : FVec F S64x8x1024 .f32 := Host.absf main_arg0
  let main_cst : FVec F S_ .f32 := constant S_ .f32 0x7F800000#32
  let main_v1 : FVec F S64x8x1024 .f32 := broadcastInDim S64x8x1024 ![] bcast_S_S64x8x1024 main_cst
  let main_v2 : IVec S64x8x1024 1 := cmpf .olt main_v0 main_v1
  let main_c : IVec S_ 1 := constantI S_ 1 1#1
  let main_v3 : IVec S_ 1 := (fun x v => Host.reduce IntOp.andi x v reducesTo_S64x8x1024_S_d0_1_2 h_S_) main_v2 main_c
  let main_v4 : FVec F S64x4096x256 .f32 := Host.absf main_arg1
  let main_cst_0 : FVec F S_ .f32 := constant S_ .f32 0x7F800000#32
  let main_v5 : FVec F S64x4096x256 .f32 := broadcastInDim S64x4096x256 ![] bcast_S_S64x4096x256 main_cst_0
  let main_v6 : IVec S64x4096x256 1 := cmpf .olt main_v4 main_v5
  let main_c_1 : IVec S_ 1 := constantI S_ 1 1#1
  let main_v7 : IVec S_ 1 := (fun x v => Host.reduce IntOp.andi x v reducesTo_S64x4096x256_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S64x8x1024 : Shape := ⟨3, ![64, 8, 1024]⟩
abbrev S64x4096x256 : Shape := ⟨3, ![64, 4096, 256]⟩
abbrev S1024x256 : Shape := ⟨2, ![1024, 256]⟩
abbrev S256 : Shape := ⟨1, ![256]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x1024 : Shape := ⟨2, ![256, 1024]⟩
abbrev S1024 : Shape := ⟨1, ![1024]⟩
abbrev S1x256 : Shape := ⟨2, ![1, 256]⟩
abbrev S1x512 : Shape := ⟨2, ![1, 512]⟩
abbrev S1x1 : Shape := ⟨2, ![1, 1]⟩
abbrev S1x1024 : Shape := ⟨2, ![1, 1024]⟩
abbrev S4x8x1024 : Shape := ⟨3, ![4, 8, 1024]⟩
abbrev S4x4096x256 : Shape := ⟨3, ![4, 4096, 256]⟩
abbrev S32x1024 : Shape := ⟨2, ![32, 1024]⟩
abbrev S32x256 : Shape := ⟨2, ![32, 256]⟩
abbrev S8x256 : Shape := ⟨2, ![8, 256]⟩
abbrev S1x4096x256 : Shape := ⟨3, ![1, 4096, 256]⟩
abbrev S4096x256 : Shape := ⟨2, ![4096, 256]⟩
abbrev S8x4096 : Shape := ⟨2, ![8, 4096]⟩
abbrev S8 : Shape := ⟨1, ![8]⟩
abbrev S8x1 : Shape := ⟨2, ![8, 1]⟩
abbrev S32x512 : Shape := ⟨2, ![32, 512]⟩
abbrev S32 : Shape := ⟨1, ![32]⟩
abbrev S32x1 : Shape := ⟨2, ![32, 1]⟩

abbrev nBuf : Space → Nat
  | .hbm => 20
  | .vmem => 16
  | .smem => 0
  | _ => 0

abbrev bufTy : (tb : Table) → Fin (tcTables nBuf tb) → BufTy
  | .hbm, ⟨0, _⟩ => ⟨S64x8x1024, .f32⟩
  | .hbm, ⟨1, _⟩ => ⟨S64x4096x256, .f32⟩
  | .hbm, ⟨2, _⟩ => ⟨S1024x256, .f32⟩
  | .hbm, ⟨3, _⟩ => ⟨S256, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S256x1024, .f32⟩
  | .hbm, ⟨11, _⟩ => ⟨S1024, .f32⟩
  | .hbm, ⟨12, _⟩ => ⟨S1x256, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x1, .f32⟩
  | .hbm, ⟨18, _⟩ => ⟨S1x1024, .f32⟩
  | .hbm, ⟨19, _⟩ => ⟨S64x8x1024, .f32⟩
  | .local _ .vmem, ⟨0, _⟩ => ⟨S4x8x1024, .f32⟩
  | .local _ .vmem, ⟨1, _⟩ => ⟨S4x8x1024, .f32⟩
  | .local _ .vmem, ⟨2, _⟩ => ⟨S4x4096x256, .f32⟩
  | .local _ .vmem, ⟨3, _⟩ => ⟨S4x4096x256, .f32⟩
  | .local _ .vmem, ⟨4, _⟩ => ⟨S1024x256, .f32⟩
  | .local _ .vmem, ⟨5, _⟩ => ⟨S1x256, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S1x1, .f32⟩
  | .local _ .vmem, ⟨12, _⟩ => ⟨S256x1024, .f32⟩
  | .local _ .vmem, ⟨13, _⟩ => ⟨S1x1024, .f32⟩
  | .local _ .vmem, ⟨14, _⟩ => ⟨S4x8x1024, .f32⟩
  | .local _ .vmem, ⟨15, _⟩ => ⟨S4x8x1024, .f32⟩
  | _, _ => ⟨S64x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S256_S1x256 : S256.ShapeCasts S1x256
  shapeCasts_S512_S1x512 : S512.ShapeCasts S1x512
  shapeCasts_S512x1_S1x512 : S512x1.ShapeCasts S1x512
  shapeCasts_S1_S1x1 : S1.ShapeCasts S1x1
  shapeCasts_S1024_S1x1024 : S1024.ShapeCasts S1x1024
  inb_S4x8x1024_S4x8x1024_0_0_0 : ∀ a, (![0, 0, 0] : Fin 3 → Nat) a + S4x8x1024.size a ≤ S4x8x1024.size a
  h_S4x8x1024 : 0 < S4x8x1024.numel
  shapeCasts_S4x8x1024_S32x1024 : S4x8x1024.ShapeCasts S32x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  slices_S32x256_o0_0_S8x256 : S32x256.Slices ![0, 0] S8x256
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  reduces_S8x4096_S8 : S8x4096.Reduces [1] S8
  shapeCasts_S8_S8x1 : S8.ShapeCasts S8x1
  broadcasts_S8x1_S8x256 : S8x1.Broadcasts S8x256
  slices_S32x256_o8_0_S8x256 : S32x256.Slices ![8, 0] S8x256
  inb_S4x4096x256_S1x4096x256_1_0_0 : ∀ a, (![1, 0, 0] : Fin 3 → Nat) a + S1x4096x256.size a ≤ S4x4096x256.size a
  slices_S32x256_o16_0_S8x256 : S32x256.Slices ![16, 0] S8x256
  inb_S4x4096x256_S1x4096x256_2_0_0 : ∀ a, (![2, 0, 0] : Fin 3 → Nat) a + S1x4096x256.size a ≤ S4x4096x256.size a
  slices_S32x256_o24_0_S8x256 : S32x256.Slices ![24, 0] S8x256
  inb_S4x4096x256_S1x4096x256_3_0_0 : ∀ a, (![3, 0, 0] : Fin 3 → Nat) a + S1x4096x256.size a ≤ S4x4096x256.size a
  concatenates_S8x256_S8x256_S8x256_S8x256_S32x256_d0 : Shape.Concatenates [S8x256, S8x256, S8x256, S8x256] S32x256 0
  concatenates_S32x256_S32x256_S32x512_d1 : Shape.Concatenates [S32x256, S32x256] S32x512 1
  reduces_S32x512_S32 : S32x512.Reduces [1] S32
  shapeCasts_S32_S32x1 : S32.ShapeCasts S32x1
  broadcasts_S32x1_S32x512 : S32x1.Broadcasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  inb_S512x512_S512x512_0_0 : ∀ a, (![0, 0] : Fin 2 → Nat) a + S512x512.size a ≤ S512x512.size a
  h_S512x512 : 0 < S512x512.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  natLt_1_32 : 1 < 32
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  broadcasts_S32x1_S32x1024 : S32x1.Broadcasts S32x1024
  shapeCasts_S32x1024_S4x8x1024 : S32x1024.ShapeCasts S4x8x1024
  dot_S32x1024_S1024x256_S32x256_1_0_0_1_n_n_wf : DotDims.WF S32x1024 S1024x256 S32x256 [1] [0] [0] [1] [] []
  dot_S8x256_S4096x256_S8x4096_1_1_0_0_n_n_wf : DotDims.WF S8x256 S4096x256 S8x4096 [1] [1] [0] [0] [] []
  dot_S8x4096_S4096x256_S8x256_1_0_0_1_n_n_wf : DotDims.WF S8x4096 S4096x256 S8x256 [1] [0] [0] [1] [] []
  dot_S32x512_S512x512_S32x512_1_0_0_1_n_n_wf : DotDims.WF S32x512 S512x512 S32x512 [1] [0] [0] [1] [] []
  dot_S32x256_S256x1024_S32x1024_1_0_0_1_n_n_wf : DotDims.WF S32x256 S256x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x1024.size a ≤ S64x8x1024.size a
  hwx0_0 : ∀ i : grid0.Coords, EltTy.bits .f32 = 32 ∨ (Rect.block (s := S64x8x1024) S4x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4096x256.size a ≤ S64x4096x256.size a
  hwx0_1 : ∀ i : grid0.Coords, EltTy.bits .f32 = 32 ∨ (Rect.block (s := S64x4096x256) S4x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S256x1024.size a
  hwx0_10 : ∀ i : grid0.Coords, EltTy.bits .f32 = 32 ∨ (Rect.block (s := S256x1024) S256x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x8x1024.size a ≤ S64x8x1024.size a
  hwx0_12 : ∀ i : grid0.Coords, EltTy.bits .f32 = 32 ∨ (Rect.block (s := S64x8x1024) S4x8x1024.size (cc0_transform_12 i) (hinb0_12 i)).WholeWords (EltTy.packing .f32)

variable [Facts₀]

def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S8x256_S4096x256_S8x4096_1_1_0_0_n_n : DotDims S8x256 S4096x256 S8x4096 where
  lhsContracting := [1]
  rhsContracting := [1]
  lhsNonContracting := [0]
  rhsNonContracting := [0]
  lhsBatch := []
  rhsBatch := []
  wf := dot_S8x256_S4096x256_S8x4096_1_1_0_0_n_n_wf
def dot_S8x4096_S4096x256_S8x256_1_0_0_1_n_n : DotDims S8x4096 S4096x256 S8x256 where
  lhsContracting := [1]
  rhsContracting := [0]
  lhsNonContracting := [0]
  rhsNonContracting := [1]
  lhsBatch := []
  rhsBatch := []
  wf := dot_S8x4096_S4096x256_S8x256_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf

abbrev win0_0 : Pipeline.Window sig grid0 :=
  Pipeline.Window.ofSpec (Memref.whole main_arg0) S4x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S4x8x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S64x8x1024 : Shape := ⟨3, ![64, 8, 1024]⟩
abbrev S64x4096x256 : Shape := ⟨3, ![64, 4096, 256]⟩
abbrev S1024x256 : Shape := ⟨2, ![1024, 256]⟩
abbrev S256 : Shape := ⟨1, ![256]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x1024 : Shape := ⟨2, ![256, 1024]⟩
abbrev S1024 : Shape := ⟨1, ![1024]⟩
abbrev S64x8x256 : Shape := ⟨3, ![64, 8, 256]⟩
abbrev S1x1x256 : Shape := ⟨3, ![1, 1, 256]⟩
abbrev S64x8x4096 : Shape := ⟨3, ![64, 8, 4096]⟩
abbrev S_ : Shape := ⟨0, ![]⟩
abbrev S64x8 : Shape := ⟨2, ![64, 8]⟩
abbrev S64x8x1 : Shape := ⟨3, ![64, 8, 1]⟩
abbrev S64x8x512 : Shape := ⟨3, ![64, 8, 512]⟩
abbrev S1x1x512 : Shape := ⟨3, ![1, 1, 512]⟩
abbrev S1x1x1 : Shape := ⟨3, ![1, 1, 1]⟩
abbrev S1x1x1024 : Shape := ⟨3, ![1, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S64x8x1024, .f32⟩
  | .hbm, ⟨1, _⟩ => ⟨S64x4096x256, .f32⟩
  | .hbm, ⟨2, _⟩ => ⟨S1024x256, .f32⟩
  | .hbm, ⟨3, _⟩ => ⟨S256, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S256x1024, .f32⟩
  | .hbm, ⟨11, _⟩ => ⟨S1024, .f32⟩
  | .hbm, ⟨12, _⟩ => ⟨S64x8x256, .f32⟩
  | .hbm, ⟨13, _⟩ => ⟨S1x1x256, .f32⟩
  | .hbm, ⟨14, _⟩ => ⟨S64x8x256, .f32⟩
  | .hbm, ⟨15, _⟩ => ⟨S64x8x256, .f32⟩
  | .hbm, ⟨16, _⟩ => ⟨S64x8x4096, .f32⟩
  | .hbm, ⟨17, _⟩ => ⟨S_, .f32⟩
  | .hbm, ⟨18, _⟩ => ⟨S64x8x4096, .f32⟩
  | .hbm, ⟨19, _⟩ => ⟨S64x8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64x8x4096, .f32⟩
  | .hbm, ⟨24, _⟩ => ⟨S64x8x4096, .f32⟩
  | .hbm, ⟨25, _⟩ => ⟨S_, .f32⟩
  | .hbm, ⟨26, _⟩ => ⟨S64x8x4096, .f32⟩
  | .hbm, ⟨27, _⟩ => ⟨S64x8x4096, .f32⟩
  | .hbm, ⟨28, _⟩ => ⟨S_, .f32⟩
  | .hbm, ⟨29, _⟩ => ⟨S64x8, .f32⟩
  | .hbm, ⟨30, _⟩ => ⟨S_, .f32⟩
  | .hbm, ⟨31, _⟩ => ⟨S64x8, .f32⟩
  | .hbm, ⟨32, _⟩ => ⟨S64x8, .f32⟩
  | .hbm, ⟨33, _⟩ => ⟨S64x8x1, .f32⟩
  | .hbm, ⟨34, _⟩ => ⟨S64x8x4096, .f32⟩
  | .hbm, ⟨35, _⟩ => ⟨S64x8x4096, .f32⟩
  | .hbm, ⟨36, _⟩ => ⟨S64x8x4096, .f32⟩
  | .hbm, ⟨37, _⟩ => ⟨S_, .f32⟩
  | .hbm, ⟨38, _⟩ => ⟨S64x8, .f32⟩
  | .hbm, ⟨39, _⟩ => ⟨S64x8x1, .f32⟩
  | .hbm, ⟨40, _⟩ => ⟨S64x8x4096, .f32⟩
  | .hbm, ⟨41, _⟩ => ⟨S64x8x4096, .f32⟩
  | .hbm, ⟨42, _⟩ => ⟨S64x8x256, .f32⟩
  | .hbm, ⟨43, _⟩ => ⟨S64x8x512, .f32⟩
  | .hbm, ⟨44, _⟩ => ⟨S_, .f32⟩
  | .hbm, ⟨45, _⟩ => ⟨S64x8, .f32⟩
  | .hbm, ⟨46, _⟩ => ⟨S64x8x1, .f32⟩
  | .hbm, ⟨47, _⟩ => ⟨S_, .f32⟩
  | .hbm, ⟨48, _⟩ => ⟨S64x8x1, .f32⟩
  | .hbm, ⟨49, _⟩ => ⟨S64x8x1, .f32⟩
  | .hbm, ⟨50, _⟩ => ⟨S_, .i32⟩
  | .hbm, ⟨51, _⟩ => ⟨S_, .f32⟩
  | .hbm, ⟨52, _⟩ => ⟨S64x8, .f32⟩
  | .hbm, ⟨53, _⟩ => ⟨S64x8x1, .f32⟩
  | .hbm, ⟨54, _⟩ => ⟨S_, .f32⟩
  | .hbm, ⟨55, _⟩ => ⟨S64x8x1, .f32⟩
  | .hbm, ⟨56, _⟩ => ⟨S64x8x1, .f32⟩
  | .hbm, ⟨57, _⟩ => ⟨S64x8x512, .f32⟩
  | .hbm, ⟨58, _⟩ => ⟨S64x8x512, .f32⟩
  | .hbm, ⟨59, _⟩ => ⟨S64x8x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S64x8, .f32⟩
  | .hbm, ⟨65, _⟩ => ⟨S64x8x1, .f32⟩
  | .hbm, ⟨66, _⟩ => ⟨S64x8x1, .f32⟩
  | .hbm, ⟨67, _⟩ => ⟨S64x8x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S64x8x1, .f32⟩
  | .hbm, ⟨73, _⟩ => ⟨S64x8x1, .f32⟩
  | .hbm, ⟨74, _⟩ => ⟨S64x8x512, .f32⟩
  | .hbm, ⟨75, _⟩ => ⟨S64x8x512, .f32⟩
  | .hbm, ⟨76, _⟩ => ⟨S1x1x512, .f32⟩
  | .hbm, ⟨77, _⟩ => ⟨S64x8x512, .f32⟩
  | .hbm, ⟨78, _⟩ => ⟨S64x8x512, .f32⟩
  | .hbm, ⟨79, _⟩ => ⟨S_, .f32⟩
  | .hbm, ⟨80, _⟩ => ⟨S64x8x1, .f32⟩
  | .hbm, ⟨81, _⟩ => ⟨S64x8x1, .f32⟩
  | .hbm, ⟨82, _⟩ => ⟨S64x8x1, .f32⟩
  | .hbm, ⟨83, _⟩ => ⟨S64x8x512, .f32⟩
  | .hbm, ⟨84, _⟩ => ⟨S64x8x512, .f32⟩
  | .hbm, ⟨85, _⟩ => ⟨S1x1x512, .f32⟩
  | .hbm, ⟨86, _⟩ => ⟨S64x8x512, .f32⟩
  | .hbm, ⟨87, _⟩ => ⟨S64x8x512, .f32⟩
  | .hbm, ⟨88, _⟩ => ⟨S64x8x512, .f32⟩
  | .hbm, ⟨89, _⟩ => ⟨S1x1x512, .f32⟩
  | .hbm, ⟨90, _⟩ => ⟨S64x8x512, .f32⟩
  | .hbm, ⟨91, _⟩ => ⟨S64x8x512, .f32⟩
  | .hbm, ⟨92, _⟩ => ⟨S64x8x512, .f32⟩
  | .hbm, ⟨93, _⟩ => ⟨S64x8x512, .f32⟩
  | .hbm, ⟨94, _⟩ => ⟨S_, .f32⟩
  | .hbm, ⟨95, _⟩ => ⟨S64x8x512, .f32⟩
  | .hbm, ⟨96, _⟩ => ⟨S64x8x512, .f32⟩
  | .hbm, ⟨97, _⟩ => ⟨S_, .f32⟩
  | .hbm, ⟨98, _⟩ => ⟨S64x8x512, .f32⟩
  | .hbm, ⟨99, _⟩ => ⟨S64x8x512, .f32⟩
  | .hbm, ⟨100, _⟩ => ⟨S64x8x512, .f32⟩
  | .hbm, ⟨101, _⟩ => ⟨S64x8x1, .f32⟩
  | .hbm, ⟨102, _⟩ => ⟨S1x1x1, .f32⟩
  | .hbm, ⟨103, _⟩ => ⟨S64x8x1, .f32⟩
  | .hbm, ⟨104, _⟩ => ⟨S64x8x1, .f32⟩
  | .hbm, ⟨105, _⟩ => ⟨S64x8x1, .f32⟩
  | .hbm, ⟨106, _⟩ => ⟨S64x8x1, .f32⟩
  | .hbm, ⟨107, _⟩ => ⟨S_, .f32⟩
  | .hbm, ⟨108, _⟩ => ⟨S64x8x1, .f32⟩
  | .hbm, ⟨109, _⟩ => ⟨S64x8x1, .f32⟩
  | .hbm, ⟨110, _⟩ => ⟨S_, .f32⟩
  | .hbm, ⟨111, _⟩ => ⟨S64x8x1, .f32⟩
  | .hbm, ⟨112, _⟩ => ⟨S64x8x1, .f32⟩
  | .hbm, ⟨113, _⟩ => ⟨S_, .f32⟩
  | .hbm, ⟨114, _⟩ => ⟨S64x8x1, .f32⟩
  | .hbm, ⟨115, _⟩ => ⟨S64x8x1, .i1⟩
  | .hbm, ⟨116, _⟩ => ⟨S64x8x1, .f32⟩
  | .hbm, ⟨117, _⟩ => ⟨S64x8x1024, .f32⟩
  | .hbm, ⟨118, _⟩ => ⟨S1x1x1024, .f32⟩
  | .hbm, ⟨119, _⟩ => ⟨S64x8x1024, .f32⟩
  | .hbm, ⟨120, _⟩ => ⟨S64x8x1024, .f32⟩
  | .hbm, ⟨121, _⟩ => ⟨S64x8x1024, .f32⟩
  | .hbm, ⟨122, _⟩ => ⟨S64x8x1024, .f32⟩
  | .hbm, ⟨123, _⟩ => ⟨S64x8x1024, .f32⟩
  | _, _ => ⟨S64x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_7 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_cst_9 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_10 : Ref sig .tc := ⟨.hbm, 107, rfl⟩
abbrev main_v56 : Ref sig .tc := ⟨.hbm, 108, rfl⟩
abbrev main_v57 : Ref sig .tc := ⟨.hbm, 109, rfl⟩
abbrev main_cst_11 : Ref sig .tc := ⟨.hbm, 110, rfl⟩
abbrev main_v58 : Ref sig .tc := ⟨.hbm, 111, rfl⟩
abbrev main_v59 : Ref sig .tc := ⟨.hbm, 112, rfl⟩
abbrev main_cst_12 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x8x256_0_1_2 : S1x1x256.BroadcastsInDim S64x8x256 (![0, 1, 2] : Fin 3 → Fin S64x8x256.rank)
  bcast_S_S64x8x4096 : S_.BroadcastsInDim S64x8x4096 (![] : Fin 0 → Fin S64x8x4096.rank)
  reducesTo_S64x8x4096_S64x8_d2 : S64x8x4096.ReducesTo [2] S64x8
  h_S_ : 0 < S_.numel
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x4096_0_1_2 : S64x8x1.BroadcastsInDim S64x8x4096 (![0, 1, 2] : Fin 3 → Fin S64x8x4096.rank)
  concatenates_S64x8x256_S64x8x256_S64x8x512_d2 : Shape.Concatenates [S64x8x256, S64x8x256] S64x8x512 2
  reducesTo_S64x8x512_S64x8_d2 : S64x8x512.ReducesTo [2] S64x8
  bcast_S_S64x8x1 : S_.BroadcastsInDim S64x8x1 (![] : Fin 0 → Fin S64x8x1.rank)
  bcast_S64x8x1_S64x8x512_0_1_2 : S64x8x1.BroadcastsInDim S64x8x512 (![0, 1, 2] : Fin 3 → Fin S64x8x512.rank)
  bcast_S512_S1x1x512_2 : S512.BroadcastsInDim S1x1x512 (![2] : Fin 1 → Fin S1x1x512.rank)
  bcast_S1x1x512_S64x8x512_0_1_2 : S1x1x512.BroadcastsInDim S64x8x512 (![0, 1, 2] : Fin 3 → Fin S64x8x512.rank)
  bcast_S_S64x8x512 : S_.BroadcastsInDim S64x8x512 (![] : Fin 0 → Fin S64x8x512.rank)
  bcast_S1_S1x1x1_2 : S1.BroadcastsInDim S1x1x1 (![2] : Fin 1 → Fin S1x1x1.rank)
  bcast_S1x1x1_S64x8x1_0_1_2 : S1x1x1.BroadcastsInDim S64x8x1 (![0, 1, 2] : Fin 3 → Fin S64x8x1.rank)
  bcast_S1024_S1x1x1024_2 : S1024.BroadcastsInDim S1x1x1024 (![2] : Fin 1 → Fin S1x1x1024.rank)
  bcast_S1x1x1024_S64x8x1024_0_1_2 : S1x1x1024.BroadcastsInDim S64x8x1024 (![0, 1, 2] : Fin 3 → Fin S64x8x1024.rank)
  bcast_S64x8x1_S64x8x1024_0_1_2 : S64x8x1.BroadcastsInDim S64x8x1024 (![0, 1, 2] : Fin 3 → Fin S64x8x1024.rank)
  dot_S64x8x1024_S1024x256_S64x8x256_2_0_01_1_n_n_wf : DotDims.WF S64x8x1024 S1024x256 S64x8x256 [2] [0] [0, 1] [1] [] []
  dot_S64x8x256_S64x4096x256_S64x8x4096_2_2_1_1_0_0_wf : DotDims.WF S64x8x256 S64x4096x256 S64x8x4096 [2] [2] [1] [1] [0] [0]
  dot_S64x8x4096_S64x4096x256_S64x8x256_2_1_1_2_0_0_wf : DotDims.WF S64x8x4096 S64x4096x256 S64x8x256 [2] [1] [1] [2] [0] [0]
  dot_S64x8x512_S512x512_S64x8x512_2_0_01_1_n_n_wf : DotDims.WF S64x8x512 S512x512 S64x8x512 [2] [0] [0, 1] [1] [] []
  dot_S64x8x512_S512x1_S64x8x1_2_0_01_1_n_n_wf : DotDims.WF S64x8x512 S512x1 S64x8x1 [2] [0] [0, 1] [1] [] []
  dot_S64x8x256_S256x1024_S64x8x1024_2_0_01_1_n_n_wf : DotDims.WF S64x8x256 S256x1024 S64x8x1024 [2] [0] [0, 1] [1] [] []

variable [Facts₀]

def dot_S64x8x1024_S1024x256_S64x8x256_2_0_01_1_n_n : DotDims S64x8x1024 S1024x256 S64x8x256 where
  lhsContracting := [2]
  rhsContracting := [0]
  lhsNonContracting := [0, 1]
  rhsNonContracting := [1]
  lhsBatch := []
  rhsBatch := []
  wf := dot_S64x8x1024_S1024x256_S64x8x256_2_0_01_1_n_n_wf
def dot_S64x8x256_S64x4096x256_S64x8x4096_2_2_1_1_0_0 : DotDims S64x8x256 S64x4096x256 S64x8x4096 where
  lhsContracting := [2]
  rhsContracting := [2]
  lhsNonContracting := [1]
  rhsNonContracting := [1]
  lhsBatch := [0]
  rhsBatch := [0]
  wf := dot_S64x8x256_S64x4096x256_S64x8x4096_2_2_1_1_0_0_wf
def dot_S64x8x4096_S64x4096x256_S64x8x256_2_1_1_2_0_0 : DotDims S64x8x4096 S64x4096x256 S64x8x256 where
  lhsContracting := [2]
  rhsContracting := [1]
  lhsNonContracting := [1]
  rhsNonContracting := [2]
  lhsBatch := [0]
  rhsBatch := [0]
  wf := dot_S64x8x4096_S64x4096x256_S64x8x256_2_1_1_2_0_0_wf
def dot_S64x8x512_S512x512_S64x8x512_2_0_01_1_n_n : DotDims S64x8x512 S512x512 S64x8x512 where
  lhsContracting := [2]
  rhsContracting := [0]
  lhsNonContracting := [0, 1]
  rhsNonContracting := [1]
  lhsBatch := []
  rhsBatch := []
  wf := dot_S64x8x512_S512x512_S64x8x512_2_0_01_1_n_n_wf
def dot_S64x8x512_S512x1_S64x8x1_2_0_01_1_n_n : DotDims S64x8x512 S512x1 S64x8x1 where
  lhsContracting := [2]
  rhsContracting := [0]
  lhsNonContracting := [0, 1]
  rhsNonContracting := [1]
  lhsBatch := []
  rhsBatch := []
  wf := dot_S64x8x512_S512x1_S64x8x1_2_0_01_1_n_n_wf
def dot_S64x8x256_S256x1024_S64x8x1024_2_0_01_1_n_n : DotDims S64x8x256 S256x1024 S64x8x1024 where
  lhsContracting := [2]
  rhsContracting := [0]
  lhsNonContracting := [0, 1]
  rhsNonContracting := [1]
  lhsBatch := []
  rhsBatch := []
  wf := dot_S64x8x256_S256x1024_S64x8x1024_2_0_01_1_n_n_wf

class Facts : Prop extends Facts₀ where

variable [Facts]
-- ==== Proof.Spec.lean ====
/-
  The memory router's READ step for ONE row, as plain functions of `Fin`-indexed rows and tables.

  For a batch `b` and a sequence position `s` the step takes the row `x[b, s, ·]` (1024 entries) and the batch's cache
  `cache[b, ·, ·]` (4096 memories of 256 entries) and computes
    q      = x-row · W_to + b_to                                  (256)
    score  = q · cache-rowᵀ                                        (4096)
    weight = softmax over the memories of clip (score / 16, −20, 20)
    ctx    = Σ_m weight m · cache m                                (256)
    h      = LayerNorm (q ++ ctx) · W1 + b1 ;  logit = silu h · W2 + b2
    out    = x-row + [gate] · (ctx · W_from + b_from),  gate = 1 when the logit passes, else 0.
  Two spellings of the same row are stated here. The first normalises AFTER the context sum, scales the scores by the
  dyadic 1/16, and opens the gate when `logit > 0`. The second divides the scores by 16, subtracts the row maximum
  inside the exponential and normalises each weight BEFORE the context sum, guards the variance by `N − 0 > 0`,
  and opens the gate when `1 / (1 + e^(−logit)) > 1/2`. `rowR_eq_rowK` (in SpecLaws) says they are one function.
-/
import Idealize.ShloMosaic.PureOps.Ideal
import Idealize.ShloMosaic.PureOps.Ideal.Laws
import Idealize.ShloMosaic.Lib.ValueIdx

noncomputable section

open scoped BigOperators

namespace Cert.Router

open Idealize.ShloMosaic Idealize.ShloMosaic.ValueIdx

/-! ## The float literals of the two programs, as the extended reals their patterns denote -/

abbrev kScale : EReal := Ideal.ofBits .f32 0x3D800000#32   -- 0.0625
abbrev kDiv : EReal := Ideal.ofBits .f32 0x41800000#32     -- 16
abbrev kLo : EReal := Ideal.ofBits .f32 0xC1A00000#32      -- -20
abbrev kHi : EReal := Ideal.ofBits .f32 0x41A00000#32      -- 20
abbrev kN : EReal := Ideal.ofBits .f32 0x44000000#32       -- 512
abbrev kEps : EReal := Ideal.ofBits .f32 0x3727C5AC#32     -- f32 (1e-5)
abbrev kOne : EReal := Ideal.ofBits .f32 0x3F800000#32     -- 1
abbrev kHalf : EReal := Ideal.ofBits .f32 0x3F000000#32    -- 0.5
abbrev kZero : EReal := Ideal.ofBits .f32 0x00000000#32    -- 0
abbrev kNegInf : EReal := Ideal.ofBits .f32 0xFF800000#32  -- -inf
abbrev kNaN : EReal := Ideal.ofBits .f32 0x7FC00000#32     -- the pattern of a NaN (never selected)

/-! ## Shared pieces -/

/-- The query: a row of `x` through `W_to`, plus the bias. -/
def proj (xr : Fin 1024 → EReal) (Wto : Fin 1024 → Fin 256 → EReal) (bto : Fin 256 → EReal) (c : Fin 256) : EReal :=
  (∑ d : Fin 1024, xr d * Wto d c) + bto c

/-- The raw attention score of the query against memory `m`. -/
def score (q : Fin 256 → EReal) (cb : Fin 4096 → Fin 256 → EReal) (m : Fin 4096) : EReal :=
  ∑ c : Fin 256, q c * cb m c

/-- The LayerNorm input: the query followed by the context. -/
def comb (q ctx : Fin 256 → EReal) (j : Fin 512) : EReal :=
  if h : j.val < 256 then q ⟨j.val, h⟩ else ctx ⟨j.val - 256, by have := j.isLt; omega⟩

def mean (v : Fin 512 → EReal) : EReal := Ideal.div (∑ j : Fin 512, v j) kN

def var (v : Fin 512 → EReal) : EReal := Ideal.div (∑ j : Fin 512, (v j - mean v) * (v j - mean v)) kN

/-- The variance as jnp.var spells it: divided by `N − ddof` with `ddof = 0` an integer converted to a float, and guarded by
    `N − ddof > 0` (else a NaN). -/
def varR (v : Fin 512 → EReal) : EReal :=
  Scalar.select (Ideal.cmp .ogt (kN - FloatOps.sitofp (F := Ideal) .f32 (0#32 : BitVec 32)) kZero)
    (Ideal.div (∑ j : Fin 512, (v j - mean v) * (v j - mean v)) (kN - FloatOps.sitofp (F := Ideal) .f32 (0#32 : BitVec 32)))
    kNaN

def lnormWith (vr : EReal) (v g bb : Fin 512 → EReal) (j : Fin 512) : EReal :=
  Ideal.div (g j * (v j - mean v)) (Ideal.sqrt (vr + kEps)) + bb j

def hidden (h : Fin 512 → EReal) (W1 : Fin 512 → Fin 512 → EReal) (b1 : Fin 512 → EReal) (k : Fin 512) : EReal :=
  (∑ j : Fin 512, h j * W1 j k) + b1 k

def siluK (z : EReal) : EReal := z * Ideal.logistic z
def siluR (z : EReal) : EReal := z * Ideal.div kOne (kOne + Ideal.exp (-z))

def logitWith (act : EReal → EReal) (h1 : Fin 512 → EReal) (W2 : Fin 512 → EReal) (b2 : EReal) : EReal :=
  (∑ k : Fin 512, act (h1 k) * W2 k) + b2

/-- The hard gate as the kernel spells it: `logit > 0`, the bit widened to 32 and converted. -/
def gateK (l : EReal) : EReal := FloatOps.sitofp (F := Ideal) .f32 ((Ideal.cmp .ogt l kZero).setWidth 32)
/-- The hard gate as the reference spells it: `1 / (1 + e^(−logit)) > 1/2`, the bit converted. -/
def gateR (l : EReal) : EReal :=
  FloatOps.uitofp (F := Ideal) .f32 (Ideal.cmp .ogt (Ideal.div kOne (kOne + Ideal.exp (-l))) kHalf)

def outRow (xr : Fin 1024 → EReal) (ctx : Fin 256 → EReal) (gate : EReal) (Wf : Fin 256 → Fin 1024 → EReal)
    (bf : Fin 1024 → EReal) (d : Fin 1024) : EReal :=
  xr d + gate * ((∑ c : Fin 256, ctx c * Wf c d) + bf d)

/-! ## The context, normalised after the sum (scores scaled by 1/16) -/

def wK (sc : Fin 4096 → EReal) (m : Fin 4096) : EReal := Ideal.exp (min kHi (max kLo (sc m * kScale)))

def ctxK (sc : Fin 4096 → EReal) (cb : Fin 4096 → Fin 256 → EReal) (c : Fin 256) : EReal :=
  Ideal.div (∑ m : Fin 4096, wK sc m * cb m c) (∑ m : Fin 4096, wK sc m)

/-! ## The context, each weight normalised first (scores divided by 16, the row maximum subtracted) -/

def aR (sc : Fin 4096 → EReal) (m : Fin 4096) : EReal := min kHi (max kLo (Ideal.div (sc m) kDiv))

def mxR (sc : Fin 4096 → EReal) : EReal := max kNegInf ((Finset.univ : Finset (Fin 4096)).fold max kNegInf (aR sc))

def eR (sc : Fin 4096 → EReal) (m : Fin 4096) : EReal := Ideal.exp (aR sc m - mxR sc)

def ctxR (sc : Fin 4096 → EReal) (cb : Fin 4096 → Fin 256 → EReal) (c : Fin 256) : EReal :=
  ∑ m : Fin 4096, Ideal.div (eR sc m) (∑ m' : Fin 4096, eR sc m') * cb m c

/-! ## The whole row, in the two spellings -/

def rowK (xr : Fin 1024 → EReal) (cb : Fin 4096 → Fin 256 → EReal) (Wto : Fin 1024 → Fin 256 → EReal) (bto : Fin 256 → EReal)
    (g bb : Fin 512 → EReal) (W1 : Fin 512 → Fin 512 → EReal) (b1 : Fin 512 → EReal) (W2 : Fin 512 → EReal) (b2 : EReal)
    (Wf : Fin 256 → Fin 1024 → EReal) (bf : Fin 1024 → EReal) : Fin 1024 → EReal :=
  outRow xr (ctxK (score (proj xr Wto bto) cb) cb)
    (gateK (logitWith siluK
      (hidden (lnormWith (var (comb (proj xr Wto bto) (ctxK (score (proj xr Wto bto) cb) cb)))
        (comb (proj xr Wto bto) (ctxK (score (proj xr Wto bto) cb) cb)) g bb) W1 b1) W2 b2))
    Wf bf

def rowR (xr : Fin 1024 → EReal) (cb : Fin 4096 → Fin 256 → EReal) (Wto : Fin 1024 → Fin 256 → EReal) (bto : Fin 256 → EReal)
    (g bb : Fin 512 → EReal) (W1 : Fin 512 → Fin 512 → EReal) (b1 : Fin 512 → EReal) (W2 : Fin 512 → EReal) (b2 : EReal)
    (Wf : Fin 256 → Fin 1024 → EReal) (bf : Fin 1024 → EReal) : Fin 1024 → EReal :=
  outRow xr (ctxR (score (proj xr Wto bto) cb) cb)
    (gateR (logitWith siluR
      (hidden (lnormWith (varR (comb (proj xr Wto bto) (ctxR (score (proj xr Wto bto) cb) cb)))
        (comb (proj xr Wto bto) (ctxR (score (proj xr Wto bto) cb) cb)) g bb) W1 b1) W2 b2))
    Wf bf

/-! ## The whole result array: row (b, s) of the output is the row function of row (b, s) of `x` and batch `b` of the cache -/

def G (x : (⟨3, ![64, 8, 1024]⟩ : Shape).Idx → EReal) (cache : (⟨3, ![64, 4096, 256]⟩ : Shape).Idx → EReal)
    (Wto : (⟨2, ![1024, 256]⟩ : Shape).Idx → EReal) (bto : (⟨1, ![256]⟩ : Shape).Idx → EReal)
    (g bb : (⟨1, ![512]⟩ : Shape).Idx → EReal) (W1 : (⟨2, ![512, 512]⟩ : Shape).Idx → EReal)
    (b1 : (⟨1, ![512]⟩ : Shape).Idx → EReal) (W2 : (⟨2, ![512, 1]⟩ : Shape).Idx → EReal) (b2 : (⟨1, ![1]⟩ : Shape).Idx → EReal)
    (Wf : (⟨2, ![256, 1024]⟩ : Shape).Idx → EReal) (bf : (⟨1, ![1024]⟩ : Shape).Idx → EReal) :
    (⟨3, ![64, 8, 1024]⟩ : Shape).Idx → EReal := fun i =>
  rowK (fun d => x (ix3 (n0 := 64) (n1 := 8) (n2 := 1024) (i 0) (i 1) d))
    (fun m c => cache (ix3 (n0 := 64) (n1 := 4096) (n2 := 256) (i 0) m c))
    (fun d c => Wto (ix2 d c)) (fun c => bto (ix1 c)) (fun j => g (ix1 j)) (fun j => bb (ix1 j))
    (fun j k => W1 (ix2 j k)) (fun k => b1 (ix1 k)) (fun k => W2 (ix2 k (0 : Fin 1))) (b2 (ix1 (0 : Fin 1)))
    (fun c d => Wf (ix2 c d)) (fun d => bf (ix1 d)) (i 2)

theorem G_apply (x : (⟨3, ![64, 8, 1024]⟩ : Shape).Idx → EReal) (cache : (⟨3, ![64, 4096, 256]⟩ : Shape).Idx → EReal)
    (Wto : (⟨2, ![1024, 256]⟩ : Shape).Idx → EReal) (bto : (⟨1, ![256]⟩ : Shape).Idx → EReal)
    (g bb : (⟨1, ![512]⟩ : Shape).Idx → EReal) (W1 : (⟨2, ![512, 512]⟩ : Shape).Idx → EReal)
    (b1 : (⟨1, ![512]⟩ : Shape).Idx → EReal) (W2 : (⟨2, ![512, 1]⟩ : Shape).Idx → EReal) (b2 : (⟨1, ![1]⟩ : Shape).Idx → EReal)
    (Wf : (⟨2, ![256, 1024]⟩ : Shape).Idx → EReal) (bf : (⟨1, ![1024]⟩ : Shape).Idx → EReal)
    (b : Fin 64) (s : Fin 8) (d : Fin 1024) :
    G x cache Wto bto g bb W1 b1 W2 b2 Wf bf (ix3 b s d)
      = rowK (fun d => x (ix3 b s d)) (fun m c => cache (ix3 b m c))
          (fun d c => Wto (ix2 d c)) (fun c => bto (ix1 c)) (fun j => g (ix1 j)) (fun j => bb (ix1 j))
          (fun j k => W1 (ix2 j k)) (fun k => b1 (ix1 k)) (fun k => W2 (ix2 k (0 : Fin 1))) (b2 (ix1 (0 : Fin 1)))
          (fun c d => Wf (ix2 c d)) (fun d => bf (ix1 d)) d := rfl

end Cert.Router

end
-- ==== Proof.LibScaledSum.lean ====
/-
  Moving a nonnegative real factor across a finite sum of extended reals, and the fact that an
  inverse-square-root degree normaliser is a nonnegative real.

  In the extended reals multiplication does not distribute over addition in general
  (`⊥ + ⊤ = ⊥`), but multiplication by a NONNEGATIVE REAL does: for `0 ≤ r`, `r < ⊤`,
  `(y + z) * r = y * r + z * r` whatever `y` and `z` are. By induction the same holds for every finite sum.
-/
import Idealize.ShloMosaic.Lib.ValueIdx

noncomputable section

open scoped BigOperators

namespace Cert.Lib

open Idealize.ShloMosaic Idealize.ShloMosaic.ValueIdx

/-- Multiplication by a nonnegative real distributes over a binary sum of extended reals. -/
theorem add_mul_coe (y z : EReal) (r : ℝ) (hr : 0 ≤ r) :
    (y + z) * (r : EReal) = y * (r : EReal) + z * (r : EReal) :=
  EReal.right_distrib_of_nonneg_of_ne_top (EReal.coe_nonneg.mpr hr) (EReal.coe_ne_top r) y z

/-- A finite sum of extended reals times a nonnegative real is the sum of the products. -/
theorem sum_mul_coe {ι : Type*} [DecidableEq ι] (S : Finset ι) (u : ι → EReal) (r : ℝ) (hr : 0 ≤ r) :
    (∑ j ∈ S, u j) * (r : EReal) = ∑ j ∈ S, u j * (r : EReal) := by
  induction S using Finset.induction_on with
  | empty => simp
  | insert a s ha ih =>
    rw [Finset.sum_insert ha, Finset.sum_insert ha, add_mul_coe _ _ r hr, ih]

/-- A starting value plus a finite sum, times a nonnegative real: the factor goes onto every term. No
    finiteness of the terms is assumed. -/
theorem mul_coe_sum {ι : Type*} [DecidableEq ι] (S : Finset ι) (u : ι → EReal) (x0 : EReal) (r : ℝ) (hr : 0 ≤ r) :
    (x0 + ∑ j ∈ S, u j) * (r : EReal) = x0 * (r : EReal) + ∑ j ∈ S, u j * (r : EReal) := by
  rw [add_mul_coe _ _ r hr, sum_mul_coe S u r hr]

/-- The same from the starting value `0`. -/
theorem mul_coe_sum_zero {ι : Type*} [DecidableEq ι] (S : Finset ι) (u : ι → EReal) (r : ℝ) (hr : 0 ≤ r) :
    (0 + ∑ j ∈ S, u j) * (r : EReal) = 0 + ∑ j ∈ S, u j * (r : EReal) := by
  rw [mul_coe_sum S u 0 r hr, zero_mul]

/-- Congruence form: if on `S` every `c j` is the nonnegative real `r` and `u' j = u j * c j`, the
    scaled sum is the sum of the `u'`. -/
theorem mul_coe_sum_zero_congr {ι : Type*} [DecidableEq ι] (S : Finset ι) (u u' c : ι → EReal) (r : ℝ) (hr : 0 ≤ r)
    (hc : ∀ j ∈ S, c j = (r : EReal)) (hu : ∀ j ∈ S, u' j = u j * c j) :
    (0 + ∑ j ∈ S, u j) * (r : EReal) = 0 + ∑ j ∈ S, u' j := by
  rw [mul_coe_sum_zero S u r hr]
  congr 1
  exact Finset.sum_congr rfl fun j hj => by rw [hu j hj, hc j hj]

/-- Multiplication of extended reals is associative. -/
theorem ereal_mul_assoc (a b c : EReal) : (a * b) * c = a * (b * c) := mul_assoc a b c

/-- Multiplication of extended reals is commutative. -/
theorem ereal_mul_comm (a b : EReal) : a * b = b * a := mul_comm a b

/-- The inverse square root of an extended real above `0` is a nonnegative real: `⊤ ↦ 0`, a positive real
    `y ↦ (√y)⁻¹`. -/
theorem rsqrt_nonneg_real (y : EReal) (hy : 0 < y) : ∃ r : ℝ, 0 ≤ r ∧ Ideal.rsqrt y = (r : EReal) := by
  induction y using EReal.rec with
  | bot => exact absurd hy (not_lt_bot)
  | top => exact ⟨0, le_refl 0, by simp⟩
  | coe y =>
    have hy' : 0 < y := EReal.coe_pos.mp hy
    refine ⟨(Real.sqrt y)⁻¹, inv_nonneg.mpr (Real.sqrt_nonneg y), ?_⟩
    rw [Ideal.rsqrt_coe, if_neg (not_lt.mpr hy'.le), if_neg hy'.ne']

/-- The degree normaliser `if deg > 0 then rsqrt (max deg eps) else 0` is a nonnegative real. -/
theorem dinv_nonneg_real (deg eps z : EReal) (hz : z = 0) :
    ∃ r : ℝ, 0 ≤ r ∧ Scalar.select (Ideal.cmp .ogt deg z) (Ideal.rsqrt (max deg eps)) z = (r : EReal) := by
  subst hz
  by_cases h : (0 : EReal) < deg
  · have hc : Ideal.cmp .ogt deg 0 = 1#1 := by
      simp [Ideal.cmp, h]
    rw [hc, select_one]
    exact rsqrt_nonneg_real _ (lt_of_lt_of_le h (le_max_left deg eps))
  · have hc : Ideal.cmp .ogt deg 0 = 0#1 := by
      simp [Ideal.cmp, h]
    rw [hc, select_zero]
    exact ⟨0, le_refl 0, by simp⟩

end Cert.Lib
-- ==== Proof.SpecLaws.lean ====
/-
  The two spellings of the memory router's row are one function of extended-real inputs.

  The pieces: the float literals as the reals they denote; division by 16 is multiplication by 1/16; the clipped scores
  are reals in [-20, 20], so the softmax weights are ratios of positive reals and subtracting the row maximum cancels;
  a nonnegative real factor moves across a sum of arbitrary extended reals; the variance guard 512 - 0 > 0 holds; the
  two sigmoid spellings coincide; and 1 / (1 + e^(-l)) > 1/2 exactly when l > 0.
-/
import proofs.«150437_g8143257993987_cont_9to1c4b_560_12_alg».proof.Proof.Spec
import proofs.«150437_g8143257993987_cont_9to1c4b_560_12_alg».proof.Proof.LibScaledSum

noncomputable section

open scoped BigOperators

namespace Cert.Router

open Idealize.ShloMosaic Idealize.ShloMosaic.ValueIdx

/-! ## The literals -/

theorem kScale_eq : kScale = ((1 / 16 : ℝ) : EReal) := by
  simp [kScale, Ideal.ofBits, Ideal.ieee, -EReal.coe_mul]; norm_num

theorem kDiv_eq : kDiv = ((16 : ℝ) : EReal) := by
  simp [kDiv, Ideal.ofBits, Ideal.ieee, -EReal.coe_mul]; norm_num

theorem kLo_eq : kLo = ((-20 : ℝ) : EReal) := by
  simp [kLo, Ideal.ofBits, Ideal.ieee, -EReal.coe_mul]; norm_num

theorem kHi_eq : kHi = ((20 : ℝ) : EReal) := by
  simp [kHi, Ideal.ofBits, Ideal.ieee, -EReal.coe_mul]; norm_num

theorem kN_eq : kN = ((512 : ℝ) : EReal) := by
  simp [kN, Ideal.ofBits, Ideal.ieee, -EReal.coe_mul]; norm_num

theorem kOne_eq : kOne = 1 := by
  simp [kOne, Ideal.ofBits, Ideal.ieee, -EReal.coe_mul]; norm_num

theorem kHalf_eq : kHalf = ((1 / 2 : ℝ) : EReal) := by
  simp [kHalf, Ideal.ofBits, Ideal.ieee, -EReal.coe_mul]; norm_num

theorem kZero_eq : kZero = 0 := by
  simp [kZero, Ideal.ofBits, Ideal.ieee]

theorem kNegInf_eq : kNegInf = ⊥ := by
  simp [kNegInf, Ideal.ofBits, Ideal.ieee]

/-! ## Coerced sums -/

/-- The coercion of a finite sum of reals is the sum of the coercions. -/
theorem coe_sum {ι : Type*} [DecidableEq ι] (S : Finset ι) (f : ι → ℝ) :
    ((∑ i ∈ S, f i : ℝ) : EReal) = ∑ i ∈ S, (f i : EReal) := by
  induction S using Finset.induction_on with
  | empty => simp
  | insert a s ha ih => rw [Finset.sum_insert ha, Finset.sum_insert ha, EReal.coe_add, ih]

/-! ## The clipped scores are reals in [-20, 20] -/

theorem clip_le (x : EReal) : min kHi (max kLo x) ≤ ((20 : ℝ) : EReal) := by
  rw [kHi_eq]; exact min_le_left _ _

theorem le_clip (x : EReal) : ((-20 : ℝ) : EReal) ≤ min kHi (max kLo x) := by
  rw [kHi_eq, kLo_eq]
  exact le_min (by exact_mod_cast (by norm_num : (-20 : ℝ) ≤ 20)) (le_max_left _ _)

theorem clip_ne_top (x : EReal) : min kHi (max kLo x) ≠ ⊤ :=
  ne_of_lt (lt_of_le_of_lt (clip_le x) (EReal.coe_lt_top 20))

theorem clip_ne_bot (x : EReal) : min kHi (max kLo x) ≠ ⊥ :=
  ne_of_gt (lt_of_lt_of_le (EReal.bot_lt_coe (-20)) (le_clip x))

/-- Dividing by 16 is multiplying by 1/16, at the infinities too. -/
theorem aR_eq (sc : Fin 4096 → EReal) (m : Fin 4096) : aR sc m = min kHi (max kLo (sc m * kScale)) := by
  unfold aR
  rw [kDiv_eq, Ideal.div_coe (by norm_num : (16 : ℝ) ≠ 0), ← kScale_eq]

/-- The clipped, scaled score of memory `m` as a real. -/
def rr (sc : Fin 4096 → EReal) (m : Fin 4096) : ℝ := (aR sc m).toReal

theorem coe_rr (sc : Fin 4096 → EReal) (m : Fin 4096) : ((rr sc m : ℝ) : EReal) = aR sc m :=
  EReal.coe_toReal (by rw [aR_eq]; exact clip_ne_top _) (by rw [aR_eq]; exact clip_ne_bot _)

theorem mxR_eq_fold (sc : Fin 4096 → EReal) :
    mxR sc = (Finset.univ : Finset (Fin 4096)).fold max ⊥ (aR sc) := by
  unfold mxR
  rw [kNegInf_eq, max_eq_right bot_le]

theorem mxR_ne_top (sc : Fin 4096 → EReal) : mxR sc ≠ ⊤ := by
  rw [mxR_eq_fold]
  have h : (Finset.univ : Finset (Fin 4096)).fold max ⊥ (aR sc) ≤ ((20 : ℝ) : EReal) :=
    (Finset.fold_max_le _).mpr ⟨bot_le, fun m _ => by rw [aR_eq]; exact clip_le _⟩
  exact ne_of_lt (lt_of_le_of_lt h (EReal.coe_lt_top 20))

theorem mxR_ne_bot (sc : Fin 4096 → EReal) : mxR sc ≠ ⊥ := by
  rw [mxR_eq_fold]
  have h : ((-20 : ℝ) : EReal) ≤ (Finset.univ : Finset (Fin 4096)).fold max ⊥ (aR sc) :=
    (Finset.le_fold_max _).mpr (Or.inr ⟨⟨0, by norm_num⟩, Finset.mem_univ _, by rw [aR_eq]; exact le_clip _⟩)
  exact ne_of_gt (lt_of_lt_of_le (EReal.bot_lt_coe (-20)) h)

/-- The row maximum of the clipped scores as a real. -/
def tt (sc : Fin 4096 → EReal) : ℝ := (mxR sc).toReal

theorem coe_tt (sc : Fin 4096 → EReal) : ((tt sc : ℝ) : EReal) = mxR sc :=
  EReal.coe_toReal (mxR_ne_top sc) (mxR_ne_bot sc)

theorem eR_eq (sc : Fin 4096 → EReal) (m : Fin 4096) :
    eR sc m = ((Real.exp (rr sc m - tt sc) : ℝ) : EReal) := by
  unfold eR
  rw [← coe_rr, ← coe_tt, ← EReal.coe_sub, Ideal.exp_coe]

theorem wK_eq (sc : Fin 4096 → EReal) (m : Fin 4096) : wK sc m = ((Real.exp (rr sc m) : ℝ) : EReal) := by
  unfold wK
  rw [← aR_eq, ← coe_rr, Ideal.exp_coe]

/-! ## The two contexts agree -/

theorem ctxR_eq_ctxK (sc : Fin 4096 → EReal) (cb : Fin 4096 → Fin 256 → EReal) : ctxR sc cb = ctxK sc cb := by
  funext c
  unfold ctxR ctxK
  have hD : 0 < ∑ m : Fin 4096, Real.exp (rr sc m - tt sc) :=
    Finset.sum_pos (fun m _ => Real.exp_pos _) Finset.univ_nonempty
  have hU : 0 < ∑ m : Fin 4096, Real.exp (rr sc m) :=
    Finset.sum_pos (fun m _ => Real.exp_pos _) Finset.univ_nonempty
  have hDs : ∑ m : Fin 4096, eR sc m = ((∑ m : Fin 4096, Real.exp (rr sc m - tt sc) : ℝ) : EReal) := by
    rw [coe_sum]; exact Finset.sum_congr rfl fun m _ => eR_eq sc m
  have hUs : ∑ m : Fin 4096, wK sc m = ((∑ m : Fin 4096, Real.exp (rr sc m) : ℝ) : EReal) := by
    rw [coe_sum]; exact Finset.sum_congr rfl fun m _ => wK_eq sc m
  have hDU : ∑ m : Fin 4096, Real.exp (rr sc m - tt sc) = (∑ m : Fin 4096, Real.exp (rr sc m)) / Real.exp (tt sc) := by
    rw [Finset.sum_div]; exact Finset.sum_congr rfl fun m _ => Real.exp_sub _ _
  rw [hDs, hUs, Ideal.div_coe hU.ne', Cert.Lib.sum_mul_coe _ _ _ (by positivity)]
  refine Finset.sum_congr rfl fun m _ => ?_
  rw [Ideal.div_coe hD.ne', eR_eq, wK_eq, ← EReal.coe_mul, mul_assoc, mul_comm (cb m c), ← mul_assoc, ← EReal.coe_mul]
  congr 2
  rw [hDU, Real.exp_sub]
  have ht := Real.exp_pos (tt sc)
  field_simp

/-! ## The guarded variance -/

theorem varR_eq_var (v : Fin 512 → EReal) : varR v = var v := by
  unfold varR var
  have h0 : FloatOps.sitofp (F := Ideal) .f32 (0#32 : BitVec 32) = (0 : EReal) := by
    show (((0#32 : BitVec 32).toInt : ℝ) : EReal) = 0
    simp
  have hc : Ideal.cmp .ogt (kN - (0 : EReal)) kZero = 1#1 := by
    rw [sub_zero, kN_eq, kZero_eq]
    have h : (0 : EReal) < ((512 : ℝ) : EReal) := by exact_mod_cast (by norm_num : (0 : ℝ) < 512)
    simp [Ideal.cmp, h]
  rw [h0, hc, select_one, sub_zero]

/-! ## The two sigmoid-weighted units -/

theorem siluR_eq_siluK : siluR = siluK := by
  funext z
  unfold siluR siluK Ideal.logistic
  rw [kOne_eq]

/-! ## The two hard gates -/

/-- The logistic function passes one half exactly on the positive half-line (with `⊥ ↦ 0` and `⊤ ↦ 1`). -/
theorem half_lt_logistic_iff (l : EReal) : kHalf < Ideal.logistic l ↔ (0 : EReal) < l := by
  rw [kHalf_eq]
  induction l using EReal.rec with
  | bot =>
    rw [Ideal.logistic_bot]
    constructor
    · intro h
      exact absurd h (not_lt.mpr (by exact_mod_cast (by norm_num : (0 : ℝ) ≤ 1 / 2)))
    · intro h
      exact absurd h not_lt_bot
  | top =>
    rw [Ideal.logistic_top]
    constructor
    · intro _
      exact EReal.zero_lt_top
    · intro _
      exact_mod_cast (by norm_num : (1 / 2 : ℝ) < 1)
  | coe r =>
    rw [Ideal.logistic_coe, EReal.coe_lt_coe_iff, ← EReal.coe_zero, EReal.coe_lt_coe_iff]
    have hp : 0 < 1 + Real.exp (-r) := by positivity
    rw [show (1 / 2 : ℝ) = (2 : ℝ)⁻¹ by norm_num, inv_lt_inv₀ (by norm_num) hp]
    constructor
    · intro h
      have h1 : Real.exp (-r) < 1 := by linarith
      have := Real.exp_lt_one_iff.mp h1
      linarith
    · intro h
      have h1 : Real.exp (-r) < 1 := Real.exp_lt_one_iff.mpr (by linarith)
      linarith

theorem gate_bit (b : Bool) :
    (((BitVec.ofBool b).toNat : ℝ) : EReal) = ((((BitVec.ofBool b).setWidth 32).toInt : ℝ) : EReal) := by
  cases b <;> simp

theorem gateR_eq_gateK : gateR = gateK := by
  funext l
  unfold gateR gateK
  have hl : Ideal.div kOne (kOne + Ideal.exp (-l)) = Ideal.logistic l := by
    unfold Ideal.logistic; rw [kOne_eq]
  rw [hl, kZero_eq]
  have hd : decide (kHalf < Ideal.logistic l) = decide ((0 : EReal) < l) :=
    decide_eq_decide.mpr (half_lt_logistic_iff l)
  show (((Ideal.cmp .ogt (Ideal.logistic l) kHalf).toNat : ℝ) : EReal)
      = ((((Ideal.cmp .ogt l 0).setWidth 32).toInt : ℝ) : EReal)
  unfold Ideal.cmp
  simp only [hd]
  exact gate_bit _

/-! ## The whole row -/

theorem rowR_eq_rowK (xr : Fin 1024 → EReal) (cb : Fin 4096 → Fin 256 → EReal) (Wto : Fin 1024 → Fin 256 → EReal) (bto : Fin 256 → EReal)
    (g bb : Fin 512 → EReal) (W1 : Fin 512 → Fin 512 → EReal) (b1 : Fin 512 → EReal) (W2 : Fin 512 → EReal) (b2 : EReal)
    (Wf : Fin 256 → Fin 1024 → EReal) (bf : Fin 1024 → EReal) :
    rowR xr cb Wto bto g bb W1 b1 W2 b2 Wf bf = rowK xr cb Wto bto g bb W1 b1 W2 b2 Wf bf := by
  unfold rowR rowK
  rw [ctxR_eq_ctxK, varR_eq_var, siluR_eq_siluK, gateR_eq_gateK]

end Cert.Router

end
-- ==== Proof.KerLayout.lean ====
/-
  Layout facts of the router kernel's block computation, read at an index.

  The kernel flattens its block of four batches of eight rows to 32 rows (row 8·i + s is row s of batch i), keeps its
  per-row statistics as columns [n, 1], and multiplies plain matrices [M, K] · [K, N] (once against the transpose,
  [M, K] · [N, K]ᵀ). Each lemma says what one such re-layout or product holds at a coordinate.
-/
import proofs.«150437_g8143257993987_cont_9to1c4b_560_12_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Lay

open Idealize.ShloMosaic Idealize.ShloMosaic.ValueIdx Cert.KernelIdeal Cert.KernelIdeal.Gen

variable {α : Type}

/-- Four batches of eight rows flattened to 32 rows: row `8 i + s` is row `s` of batch `i`. -/
theorem cast_48_32 (x : S4x8x1024.Idx → α) (h : S4x8x1024.ShapeCasts S32x1024) (i : Fin 4) (s : Fin 8) (d : Fin 1024)
    (r : Fin 32) (hr : r.val = 8 * i.val + s.val) : shapeCast S32x1024 x h (ix2 r d) = x (ix3 i s d) :=
  shapeCast_apply x h _ _ (by
    rw [Shape.rowMajor_val_three, Shape.rowMajor_val_two]
    show (i.val * 8 + s.val) * 1024 + d.val = r.val * 1024 + d.val
    omega)

/-- …and back: row `s` of batch `i` is row `8 i + s` of the 32. -/
theorem cast_32_48 (y : S32x1024.Idx → α) (h : S32x1024.ShapeCasts S4x8x1024) (i : Fin 4) (s : Fin 8) (d : Fin 1024)
    (r : Fin 32) (hr : r.val = 8 * i.val + s.val) : shapeCast S4x8x1024 y h (ix3 i s d) = y (ix2 r d) :=
  shapeCast_apply y h _ _ (by
    rw [Shape.rowMajor_val_two, Shape.rowMajor_val_three]
    show r.val * 1024 + d.val = (i.val * 8 + s.val) * 1024 + d.val
    omega)

/-- A vector `[a]` written as a column `[a, 1]`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast along the rows to `[a, b]`: entry `(p, c)` is the column's entry `p`. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix products at an entry -/

/-- The query projection's product: entry (p, q) sums the row of the left factor against the column of the right. -/
theorem mm_proj (l : FVec Ideal S32x1024 .f32) (r : FVec Ideal S1024x256 .f32) (p : Fin 32) (q : Fin 256) :
    matmul dot_S32x1024_S1024x256_S32x256_1_0_0_1_n_n none l r (constant S32x256 .f32 0x00000000#32) (ix2 p q)
      = ∑ k : Fin 1024, l (ix2 p k) * r (ix2 k q) := by
  refine (Ideal.matmul_constant_zero_apply dot_S32x1024_S1024x256_S32x256_1_0_0_1_n_n none l r (ix2 p q)).trans ?_
  rw [← Equiv.sum_comp (contrEquiv1 dot_S32x1024_S1024x256_S32x256_1_0_0_1_n_n 1024 rfl rfl).symm]
  refine Finset.sum_congr rfl fun k _ => ?_
  have hk := contrEquiv1_symm_val dot_S32x1024_S1024x256_S32x256_1_0_0_1_n_n 1024 rfl rfl k
  have el : dot_S32x1024_S1024x256_S32x256_1_0_0_1_n_n.lhsIdx (ix2 p q)
      ((contrEquiv1 dot_S32x1024_S1024x256_S32x256_1_0_0_1_n_n 1024 rfl rfl).symm k) = ix2 p k :=
    funext fun a => Fin.ext (by
      match a with
      | ⟨0, _⟩ => rfl
      | ⟨1, _⟩ => exact (dot_S32x1024_S1024x256_S32x256_1_0_0_1_n_n.lhsIdx_val_of_single rfl _ _).trans hk)
  have er : dot_S32x1024_S1024x256_S32x256_1_0_0_1_n_n.rhsIdx (ix2 p q)
      ((contrEquiv1 dot_S32x1024_S1024x256_S32x256_1_0_0_1_n_n 1024 rfl rfl).symm k) = ix2 k q :=
    funext fun a => Fin.ext (by
      match a with
      | ⟨0, _⟩ => exact (dot_S32x1024_S1024x256_S32x256_1_0_0_1_n_n.rhsIdx_val_of_single rfl _ _).trans hk
      | ⟨1, _⟩ => rfl)
  rw [el, er]

/-- The score product contracts the SECOND axis of both factors: entry (p, q) is row p of the queries against row q of the memories. -/
theorem mm_score (l : FVec Ideal S8x256 .f32) (r : FVec Ideal S4096x256 .f32) (p : Fin 8) (q : Fin 4096) :
    matmul dot_S8x256_S4096x256_S8x4096_1_1_0_0_n_n none l r (constant S8x4096 .f32 0x00000000#32) (ix2 p q)
      = ∑ k : Fin 256, l (ix2 p k) * r (ix2 q k) := by
  refine (Ideal.matmul_constant_zero_apply dot_S8x256_S4096x256_S8x4096_1_1_0_0_n_n none l r (ix2 p q)).trans ?_
  rw [← Equiv.sum_comp (contrEquiv1 dot_S8x256_S4096x256_S8x4096_1_1_0_0_n_n 256 rfl rfl).symm]
  refine Finset.sum_congr rfl fun k _ => ?_
  have hk := contrEquiv1_symm_val dot_S8x256_S4096x256_S8x4096_1_1_0_0_n_n 256 rfl rfl k
  have el : dot_S8x256_S4096x256_S8x4096_1_1_0_0_n_n.lhsIdx (ix2 p q)
      ((contrEquiv1 dot_S8x256_S4096x256_S8x4096_1_1_0_0_n_n 256 rfl rfl).symm k) = ix2 p k :=
    funext fun a => Fin.ext (by
      match a with
      | ⟨0, _⟩ => rfl
      | ⟨1, _⟩ => exact (dot_S8x256_S4096x256_S8x4096_1_1_0_0_n_n.lhsIdx_val_of_single rfl _ _).trans hk)
  have er : dot_S8x256_S4096x256_S8x4096_1_1_0_0_n_n.rhsIdx (ix2 p q)
      ((contrEquiv1 dot_S8x256_S4096x256_S8x4096_1_1_0_0_n_n 256 rfl rfl).symm k) = ix2 q k :=
    funext fun a => Fin.ext (by
      match a with
      | ⟨0, _⟩ => rfl
      | ⟨1, _⟩ => exact (dot_S8x256_S4096x256_S8x4096_1_1_0_0_n_n.rhsIdx_val_of_single rfl _ _).trans hk)
  rw [el, er]

/-- The context product: the weights of row p against column q of the memories. -/
theorem mm_ctx (l : FVec Ideal S8x4096 .f32) (r : FVec Ideal S4096x256 .f32) (p : Fin 8) (q : Fin 256) :
    matmul dot_S8x4096_S4096x256_S8x256_1_0_0_1_n_n none l r (constant S8x256 .f32 0x00000000#32) (ix2 p q)
      = ∑ k : Fin 4096, l (ix2 p k) * r (ix2 k q) := by
  refine (Ideal.matmul_constant_zero_apply dot_S8x4096_S4096x256_S8x256_1_0_0_1_n_n none l r (ix2 p q)).trans ?_
  rw [← Equiv.sum_comp (contrEquiv1 dot_S8x4096_S4096x256_S8x256_1_0_0_1_n_n 4096 rfl rfl).symm]
  refine Finset.sum_congr rfl fun k _ => ?_
  have hk := contrEquiv1_symm_val dot_S8x4096_S4096x256_S8x256_1_0_0_1_n_n 4096 rfl rfl k
  have el : dot_S8x4096_S4096x256_S8x256_1_0_0_1_n_n.lhsIdx (ix2 p q)
      ((contrEquiv1 dot_S8x4096_S4096x256_S8x256_1_0_0_1_n_n 4096 rfl rfl).symm k) = ix2 p k :=
    funext fun a => Fin.ext (by
      match a with
      | ⟨0, _⟩ => rfl
      | ⟨1, _⟩ => exact (dot_S8x4096_S4096x256_S8x256_1_0_0_1_n_n.lhsIdx_val_of_single rfl _ _).trans hk)
  have er : dot_S8x4096_S4096x256_S8x256_1_0_0_1_n_n.rhsIdx (ix2 p q)
      ((contrEquiv1 dot_S8x4096_S4096x256_S8x256_1_0_0_1_n_n 4096 rfl rfl).symm k) = ix2 k q :=
    funext fun a => Fin.ext (by
      match a with
      | ⟨0, _⟩ => exact (dot_S8x4096_S4096x256_S8x256_1_0_0_1_n_n.rhsIdx_val_of_single rfl _ _).trans hk
      | ⟨1, _⟩ => rfl)
  rw [el, er]

/-- The gate's hidden layer product. -/
theorem mm_hidden (l : FVec Ideal S32x512 .f32) (r : FVec Ideal S512x512 .f32) (p : Fin 32) (q : Fin 512) :
    matmul dot_S32x512_S512x512_S32x512_1_0_0_1_n_n none l r (constant S32x512 .f32 0x00000000#32) (ix2 p q)
      = ∑ k : Fin 512, l (ix2 p k) * r (ix2 k q) := by
  refine (Ideal.matmul_constant_zero_apply dot_S32x512_S512x512_S32x512_1_0_0_1_n_n none l r (ix2 p q)).trans ?_
  rw [← Equiv.sum_comp (contrEquiv1 dot_S32x512_S512x512_S32x512_1_0_0_1_n_n 512 rfl rfl).symm]
  refine Finset.sum_congr rfl fun k _ => ?_
  have hk := contrEquiv1_symm_val dot_S32x512_S512x512_S32x512_1_0_0_1_n_n 512 rfl rfl k
  have el : dot_S32x512_S512x512_S32x512_1_0_0_1_n_n.lhsIdx (ix2 p q)
      ((contrEquiv1 dot_S32x512_S512x512_S32x512_1_0_0_1_n_n 512 rfl rfl).symm k) = ix2 p k :=
    funext fun a => Fin.ext (by
      match a with
      | ⟨0, _⟩ => rfl
      | ⟨1, _⟩ => exact (dot_S32x512_S512x512_S32x512_1_0_0_1_n_n.lhsIdx_val_of_single rfl _ _).trans hk)
  have er : dot_S32x512_S512x512_S32x512_1_0_0_1_n_n.rhsIdx (ix2 p q)
      ((contrEquiv1 dot_S32x512_S512x512_S32x512_1_0_0_1_n_n 512 rfl rfl).symm k) = ix2 k q :=
    funext fun a => Fin.ext (by
      match a with
      | ⟨0, _⟩ => exact (dot_S32x512_S512x512_S32x512_1_0_0_1_n_n.rhsIdx_val_of_single rfl _ _).trans hk
      | ⟨1, _⟩ => rfl)
  rw [el, er]

/-- The output projection's product. -/
theorem mm_out (l : FVec Ideal S32x256 .f32) (r : FVec Ideal S256x1024 .f32) (p : Fin 32) (q : Fin 1024) :
    matmul dot_S32x256_S256x1024_S32x1024_1_0_0_1_n_n none l r (constant S32x1024 .f32 0x00000000#32) (ix2 p q)
      = ∑ k : Fin 256, l (ix2 p k) * r (ix2 k q) := by
  refine (Ideal.matmul_constant_zero_apply dot_S32x256_S256x1024_S32x1024_1_0_0_1_n_n none l r (ix2 p q)).trans ?_
  rw [← Equiv.sum_comp (contrEquiv1 dot_S32x256_S256x1024_S32x1024_1_0_0_1_n_n 256 rfl rfl).symm]
  refine Finset.sum_congr rfl fun k _ => ?_
  have hk := contrEquiv1_symm_val dot_S32x256_S256x1024_S32x1024_1_0_0_1_n_n 256 rfl rfl k
  have el : dot_S32x256_S256x1024_S32x1024_1_0_0_1_n_n.lhsIdx (ix2 p q)
      ((contrEquiv1 dot_S32x256_S256x1024_S32x1024_1_0_0_1_n_n 256 rfl rfl).symm k) = ix2 p k :=
    funext fun a => Fin.ext (by
      match a with
      | ⟨0, _⟩ => rfl
      | ⟨1, _⟩ => exact (dot_S32x256_S256x1024_S32x1024_1_0_0_1_n_n.lhsIdx_val_of_single rfl _ _).trans hk)
  have er : dot_S32x256_S256x1024_S32x1024_1_0_0_1_n_n.rhsIdx (ix2 p q)
      ((contrEquiv1 dot_S32x256_S256x1024_S32x1024_1_0_0_1_n_n 256 rfl rfl).symm k) = ix2 k q :=
    funext fun a => Fin.ext (by
      match a with
      | ⟨0, _⟩ => exact (dot_S32x256_S256x1024_S32x1024_1_0_0_1_n_n.rhsIdx_val_of_single rfl _ _).trans hk
      | ⟨1, _⟩ => rfl)
  rw [el, er]

/-! ## Row sums -/

/-- The sum over the 4096 memories of row `s` of an [8, 4096] array. -/
theorem rowsum8 (v : FVec Ideal S8x4096 .f32) (hφ : FKind.Formats .f32) (hacc : (0x00000000#32 : BitVec 32) = FKind.add.neutral .f32 hφ)
    (s : Fin 8) :
    multiReduction .add [1] S8 v 0x00000000#32 reduces_S8x4096_S8 hφ hacc (ix1 s) = ∑ m : Fin 4096, v (ix2 s m) := by
  refine (Ideal.multiReduction_add_single v 0x00000000#32 reduces_S8x4096_S8 hφ hacc (ix1 s)).trans ?_
  exact Finset.sum_congr rfl fun k _ => congrArg v (funext fun a => Fin.ext (by
    match a with
    | ⟨0, _⟩ => rfl
    | ⟨1, _⟩ => rfl))

/-- The sum over the 512 features of row `r` of a [32, 512] array. -/
theorem rowsum32 (v : FVec Ideal S32x512 .f32) (hφ : FKind.Formats .f32) (hacc : (0x00000000#32 : BitVec 32) = FKind.add.neutral .f32 hφ)
    (r : Fin 32) :
    multiReduction .add [1] S32 v 0x00000000#32 reduces_S32x512_S32 hφ hacc (ix1 r) = ∑ j : Fin 512, v (ix2 r j) := by
  refine (Ideal.multiReduction_add_single v 0x00000000#32 reduces_S32x512_S32 hφ hacc (ix1 r)).trans ?_
  exact Finset.sum_congr rfl fun k _ => congrArg v (funext fun a => Fin.ext (by
    match a with
    | ⟨0, _⟩ => rfl
    | ⟨1, _⟩ => rfl))

/-! ## The two concatenations -/

/-- Four [8, 256] pieces stacked along the rows: row `8 k + s` of the stack is row `s` of piece `k`. -/
theorem cat4_0 (a b c d : S8x256.Idx → α) (h : Shape.Concatenates [S8x256, S8x256, S8x256, S8x256] S32x256 0)
    (s : Fin 8) (col : Fin 256) (r : Fin 32) (hr : r.val = 0 + s.val) :
    concatenate S32x256 0 [⟨S8x256, a⟩, ⟨S8x256, b⟩, ⟨S8x256, c⟩, ⟨S8x256, d⟩] h (ix2 r col) = a (ix2 s col) :=
  concatenate_apply_piece (t := S32x256) (0 : Fin 2) [⟨S8x256, a⟩, ⟨S8x256, b⟩, ⟨S8x256, c⟩, ⟨S8x256, d⟩] h (ix2 r col) 0 (show 0 < 4 by omega) S8x256 a rfl rfl 0 rfl (ix2 s col)
    (fun bx hb => by
      match bx with
      | ⟨0, _⟩ => exact absurd rfl hb
      | ⟨1, _⟩ => rfl)
    (by show 0 + s.val = r.val; omega)

theorem cat4_1 (a b c d : S8x256.Idx → α) (h : Shape.Concatenates [S8x256, S8x256, S8x256, S8x256] S32x256 0)
    (s : Fin 8) (col : Fin 256) (r : Fin 32) (hr : r.val = 8 + s.val) :
    concatenate S32x256 0 [⟨S8x256, a⟩, ⟨S8x256, b⟩, ⟨S8x256, c⟩, ⟨S8x256, d⟩] h (ix2 r col) = b (ix2 s col) :=
  concatenate_apply_piece (t := S32x256) (0 : Fin 2) [⟨S8x256, a⟩, ⟨S8x256, b⟩, ⟨S8x256, c⟩, ⟨S8x256, d⟩] h (ix2 r col) 1 (show 1 < 4 by omega) S8x256 b rfl rfl 8 rfl (ix2 s col)
    (fun bx hb => by
      match bx with
      | ⟨0, _⟩ => exact absurd rfl hb
      | ⟨1, _⟩ => rfl)
    (by show 8 + s.val = r.val; omega)

theorem cat4_2 (a b c d : S8x256.Idx → α) (h : Shape.Concatenates [S8x256, S8x256, S8x256, S8x256] S32x256 0)
    (s : Fin 8) (col : Fin 256) (r : Fin 32) (hr : r.val = 16 + s.val) :
    concatenate S32x256 0 [⟨S8x256, a⟩, ⟨S8x256, b⟩, ⟨S8x256, c⟩, ⟨S8x256, d⟩] h (ix2 r col) = c (ix2 s col) :=
  concatenate_apply_piece (t := S32x256) (0 : Fin 2) [⟨S8x256, a⟩, ⟨S8x256, b⟩, ⟨S8x256, c⟩, ⟨S8x256, d⟩] h (ix2 r col) 2 (show 2 < 4 by omega) S8x256 c rfl rfl 16 rfl (ix2 s col)
    (fun bx hb => by
      match bx with
      | ⟨0, _⟩ => exact absurd rfl hb
      | ⟨1, _⟩ => rfl)
    (by show 16 + s.val = r.val; omega)

theorem cat4_3 (a b c d : S8x256.Idx → α) (h : Shape.Concatenates [S8x256, S8x256, S8x256, S8x256] S32x256 0)
    (s : Fin 8) (col : Fin 256) (r : Fin 32) (hr : r.val = 24 + s.val) :
    concatenate S32x256 0 [⟨S8x256, a⟩, ⟨S8x256, b⟩, ⟨S8x256, c⟩, ⟨S8x256, d⟩] h (ix2 r col) = d (ix2 s col) :=
  concatenate_apply_piece (t := S32x256) (0 : Fin 2) [⟨S8x256, a⟩, ⟨S8x256, b⟩, ⟨S8x256, c⟩, ⟨S8x256, d⟩] h (ix2 r col) 3 (show 3 < 4 by omega) S8x256 d rfl rfl 24 rfl (ix2 s col)
    (fun bx hb => by
      match bx with
      | ⟨0, _⟩ => exact absurd rfl hb
      | ⟨1, _⟩ => rfl)
    (by show 24 + s.val = r.val; omega)

/-- Two [32, 256] pieces side by side: column `j` of the result is column `j` of the first below 256, column `j − 256` of
    the second from 256 on. -/
theorem cat2_cols (a b : S32x256.Idx → α) (h : Shape.Concatenates [S32x256, S32x256] S32x512 1) (r : Fin 32) (j : Fin 512) :
    concatenate S32x512 1 [⟨S32x256, a⟩, ⟨S32x256, b⟩] h (ix2 r j)
      = if hj : j.val < 256 then a (ix2 r ⟨j.val, hj⟩) else b (ix2 r ⟨j.val - 256, by have := j.isLt; omega⟩) := by
  by_cases hj : j.val < 256
  · rw [dif_pos hj]
    exact concatenate_pair_apply_left (1 : Fin 2) a b h (ix2 r j) rfl (ix2 r ⟨j.val, hj⟩) (fun bx => by
      match bx with
      | ⟨0, _⟩ => rfl
      | ⟨1, _⟩ => rfl)
  · rw [dif_neg hj]
    exact concatenate_pair_apply_right (1 : Fin 2) a b h (ix2 r j) rfl rfl (ix2 r ⟨j.val - 256, by have := j.isLt; omega⟩)
      (fun bx hb => by
        match bx with
        | ⟨0, _⟩ => rfl
        | ⟨1, _⟩ => exact absurd rfl hb)
      (by show (j.val - 256) + 256 = j.val; omega)

end Cert.KernelIdeal.Lay

end
-- ==== Proof.KerAttn.lean ====
/-
  The kernel's attention block read at an entry.

  For each of the four batches of a grid step the kernel multiplies eight queries [8, 256] against the batch's memories
  [4096, 256] (contracting the feature axis of both), scales by 1/16, clips to [−20, 20], exponentiates, multiplies the
  weights back against the memories and divides each row by the row's weight total. `attnW` and `attnCtx` name that
  term once; `attn_apply` says entry (s, c) of the result is the context `ctxK` of row s's scores.
-/
import proofs.«150437_g8143257993987_cont_9to1c4b_560_12_alg».proof.Proof.KerLayout
import proofs.«150437_g8143257993987_cont_9to1c4b_560_12_alg».proof.Proof.Gen.KernelIdeal.Frame
import proofs.«150437_g8143257993987_cont_9to1c4b_560_12_alg».proof.Proof.Spec

noncomputable section

open scoped BigOperators

namespace Cert.KernelIdeal.Attn

open Idealize.ShloMosaic Idealize.ShloMosaic.ValueIdx Cert.KernelIdeal Cert.KernelIdeal.Gen Cert.KernelIdeal.Lay Cert.Router

/-- The unnormalised weights of eight queries against one batch's memories. -/
def attnW (q8 : FVec Ideal S8x256 .f32) (c10 : FVec Ideal S4096x256 .f32) : FVec Ideal S8x4096 .f32 :=
  exp (minimumf (broadcast S8x4096 (Scalar.ofBits .f32 0x41A00000#32))
    (maximumf (broadcast S8x4096 (Scalar.ofBits .f32 0xC1A00000#32))
      (mulf (matmul dot_S8x256_S4096x256_S8x4096_1_1_0_0_n_n none q8 c10 (constant S8x4096 .f32 0x00000000#32))
        (broadcast S8x4096 (Scalar.ofBits .f32 0x3D800000#32)))))

/-- The weights against the memories, each row divided by its weight total. -/
def attnCtx (w : FVec Ideal S8x4096 .f32) (c10 : FVec Ideal S4096x256 .f32) : FVec Ideal S8x256 .f32 :=
  divf (matmul dot_S8x4096_S4096x256_S8x256_1_0_0_1_n_n none w c10 (constant S8x256 .f32 0x00000000#32))
    (broadcastTo S8x256 (shapeCast S8x1 (multiReduction .add [1] S8 w 0x00000000#32 reduces_S8x4096_S8 (.inl rfl) rfl)
      shapeCasts_S8_S8x1) broadcasts_S8x1_S8x256)

theorem attnW_apply (q8 : FVec Ideal S8x256 .f32) (c10 : FVec Ideal S4096x256 .f32) (s : Fin 8) (m : Fin 4096) :
    attnW q8 c10 (ix2 s m) = wK (score (fun c => q8 (ix2 s c)) (fun m c => c10 (ix2 m c))) m := by
  show Ideal.exp (min (Ideal.ofBits .f32 0x41A00000#32) (max (Ideal.ofBits .f32 0xC1A00000#32)
    (matmul dot_S8x256_S4096x256_S8x4096_1_1_0_0_n_n none q8 c10 (constant S8x4096 .f32 0x00000000#32) (ix2 s m)
      * Ideal.ofBits .f32 0x3D800000#32))) = _
  rw [mm_score]
  rfl

theorem attnCtx_apply (w : FVec Ideal S8x4096 .f32) (c10 : FVec Ideal S4096x256 .f32) (s : Fin 8) (c : Fin 256) :
    attnCtx w c10 (ix2 s c) = Ideal.div (∑ m : Fin 4096, w (ix2 s m) * c10 (ix2 m c)) (∑ m : Fin 4096, w (ix2 s m)) := by
  show Ideal.div (matmul dot_S8x4096_S4096x256_S8x256_1_0_0_1_n_n none w c10 (constant S8x256 .f32 0x00000000#32) (ix2 s c))
    (broadcastTo S8x256 (shapeCast S8x1 (multiReduction .add [1] S8 w 0x00000000#32 reduces_S8x4096_S8 (.inl rfl) rfl)
      shapeCasts_S8_S8x1) broadcasts_S8x1_S8x256 (ix2 s c)) = _
  refine congrArg₂ Ideal.div (mm_ctx w c10 s c) ?_
  refine (bcast_a1_ab _ broadcasts_S8x1_S8x256 s c).trans ?_
  refine (cast_a_a1 _ shapeCasts_S8_S8x1 s 0).trans ?_
  exact rowsum8 w _ _ s

/-- Entry (s, c) of a batch's context block is the context of row s's scores against the batch's memories. -/
theorem attn_apply (q8 : FVec Ideal S8x256 .f32) (c10 : FVec Ideal S4096x256 .f32) (s : Fin 8) (c : Fin 256) :
    attnCtx (attnW q8 c10) c10 (ix2 s c)
      = ctxK (score (fun c => q8 (ix2 s c)) (fun m c => c10 (ix2 m c))) (fun m c => c10 (ix2 m c)) c := by
  rw [attnCtx_apply]
  simp only [attnW_apply]
  rfl

/-! ## The printed pieces are that term -/

theorem pay4_eq (v0 : FVec Ideal S4x8x1024 .f32) (v2 : FVec Ideal S1024x256 .f32) (v4 : FVec Ideal S1x256 .f32) (v9 : FVec Ideal S1x4096x256 .f32) :
    k0_pay4 (F := Ideal) v0 v2 v4 v9
      = attnCtx (attnW (extractStridedSlice S8x256 ![0, 0] (k0_pay3 (F := Ideal) v0 v2 v4) slices_S32x256_o0_0_S8x256)
          (shapeCast S4096x256 v9 shapeCasts_S1x4096x256_S4096x256)) (shapeCast S4096x256 v9 shapeCasts_S1x4096x256_S4096x256) := rfl

theorem pay6_eq (v0 : FVec Ideal S4x8x1024 .f32) (v2 : FVec Ideal S1024x256 .f32) (v4 : FVec Ideal S1x256 .f32) (v25 : FVec Ideal S1x4096x256 .f32) :
    k0_pay6 (F := Ideal) v0 v2 v4 v25
      = attnW (extractStridedSlice S8x256 ![8, 0] (k0_pay3 (F := Ideal) v0 v2 v4) slices_S32x256_o8_0_S8x256) (k0_pay5 (F := Ideal) v25) := rfl

theorem pay7_eq (v7 : FVec Ideal S32x256 .f32) (v23 : FVec Ideal S8x256 .f32) (v26 : FVec Ideal S4096x256 .f32)
    (v34 : FVec Ideal S8x4096 .f32) (v41 : FVec Ideal S1x4096x256 .f32) (v57 : FVec Ideal S1x4096x256 .f32) :
    k0_pay7 (F := Ideal) v7 v23 v26 v34 v41 v57
      = concatenate S32x256 0 [⟨S8x256, v23⟩, ⟨S8x256, attnCtx v34 v26⟩,
          ⟨S8x256, attnCtx (attnW (extractStridedSlice S8x256 ![16, 0] v7 slices_S32x256_o16_0_S8x256)
            (shapeCast S4096x256 v41 shapeCasts_S1x4096x256_S4096x256)) (shapeCast S4096x256 v41 shapeCasts_S1x4096x256_S4096x256)⟩,
          ⟨S8x256, attnCtx (attnW (extractStridedSlice S8x256 ![24, 0] v7 slices_S32x256_o24_0_S8x256)
            (shapeCast S4096x256 v57 shapeCasts_S1x4096x256_S4096x256)) (shapeCast S4096x256 v57 shapeCasts_S1x4096x256_S4096x256)⟩]
          concatenates_S8x256_S8x256_S8x256_S8x256_S32x256_d0 := rfl

/-! ## The blocks the body loads -/

/-- Batch `k` of the cache block, loaded as a [1, 4096, 256] piece and flattened to [4096, 256]. -/
theorem cacheBlk0 (x1 : FVec Ideal S4x4096x256 .f32) (m : Fin 4096) (c : Fin 256) :
    shapeCast S4096x256 (View.ld (Val := Elt Ideal) (e' := .f32) x1 r0_3) shapeCasts_S1x4096x256_S4096x256 (ix2 m c) = x1 (ix3 (0 : Fin 4) m c) :=
  (shapeCast_1ab_ab_apply _ shapeCasts_S1x4096x256_S4096x256 m c).trans
    (congrArg x1 (funext fun a => Fin.ext (by
      match a with
      | ⟨0, _⟩ => show 0 + 1 * 0 = 0; omega
      | ⟨1, _⟩ => show 0 + 1 * m.val = m.val; omega
      | ⟨2, _⟩ => show 0 + 1 * c.val = c.val; omega)))

theorem cacheBlk1 (x1 : FVec Ideal S4x4096x256 .f32) (m : Fin 4096) (c : Fin 256) :
    shapeCast S4096x256 (View.ld (Val := Elt Ideal) (e' := .f32) x1 r0_4) shapeCasts_S1x4096x256_S4096x256 (ix2 m c) = x1 (ix3 (1 : Fin 4) m c) :=
  (shapeCast_1ab_ab_apply _ shapeCasts_S1x4096x256_S4096x256 m c).trans
    (congrArg x1 (funext fun a => Fin.ext (by
      match a with
      | ⟨0, _⟩ => show 1 + 1 * 0 = 1; omega
      | ⟨1, _⟩ => show 0 + 1 * m.val = m.val; omega
      | ⟨2, _⟩ => show 0 + 1 * c.val = c.val; omega)))

theorem cacheBlk2 (x1 : FVec Ideal S4x4096x256 .f32) (m : Fin 4096) (c : Fin 256) :
    shapeCast S4096x256 (View.ld (Val := Elt Ideal) (e' := .f32) x1 r0_5) shapeCasts_S1x4096x256_S4096x256 (ix2 m c) = x1 (ix3 (2 : Fin 4) m c) :=
  (shapeCast_1ab_ab_apply _ shapeCasts_S1x4096x256_S4096x256 m c).trans
    (congrArg x1 (funext fun a => Fin.ext (by
      match a with
      | ⟨0, _⟩ => show 2 + 1 * 0 = 2; omega
      | ⟨1, _⟩ => show 0 + 1 * m.val = m.val; omega
      | ⟨2, _⟩ => show 0 + 1 * c.val = c.val; omega)))

theorem cacheBlk3 (x1 : FVec Ideal S4x4096x256 .f32) (m : Fin 4096) (c : Fin 256) :
    shapeCast S4096x256 (View.ld (Val := Elt Ideal) (e' := .f32) x1 r0_6) shapeCasts_S1x4096x256_S4096x256 (ix2 m c) = x1 (ix3 (3 : Fin 4) m c) :=
  (shapeCast_1ab_ab_apply _ shapeCasts_S1x4096x256_S4096x256 m c).trans
    (congrArg x1 (funext fun a => Fin.ext (by
      match a with
      | ⟨0, _⟩ => show 3 + 1 * 0 = 3; omega
      | ⟨1, _⟩ => show 0 + 1 * m.val = m.val; omega
      | ⟨2, _⟩ => show 0 + 1 * c.val = c.val; omega)))

/-! ## The query projection at a row of the 32 -/

/-- Row `8 i + s` of the projected block is the projection of row `s` of batch `i`. -/
theorem pay3_apply (v0 : FVec Ideal S4x8x1024 .f32) (v2 : FVec Ideal S1024x256 .f32) (v4 : FVec Ideal S1x256 .f32)
    (i : Fin 4) (s : Fin 8) (c : Fin 256) (r : Fin 32) (hr : r.val = 8 * i.val + s.val) :
    k0_pay3 (F := Ideal) v0 v2 v4 (ix2 r c)
      = proj (fun d => v0 (ix3 i s d)) (fun d c => v2 (ix2 d c)) (fun c => v4 (ix2 (0 : Fin 1) c)) c := by
  show (matmul (F := Ideal) dot_S32x1024_S1024x256_S32x256_1_0_0_1_n_n none (shapeCast S32x1024 v0 shapeCasts_S4x8x1024_S32x1024) v2
      (constant S32x256 .f32 0x00000000#32) (ix2 r c) : EReal)
    + (broadcastTo S32x256 (shapeCast S1x256 v4 shapeCasts_S1x256_S1x256) broadcasts_S1x256_S32x256 (ix2 r c) : EReal) = _
  rw [mm_proj, broadcastTo_1b_ab_apply, shapeCast_self]
  unfold proj
  refine congrArg (· + v4 (ix2 (0 : Fin 1) c)) (Finset.sum_congr rfl fun k _ => ?_)
  rw [cast_48_32 v0 shapeCasts_S4x8x1024_S32x1024 i s k r hr]

end Cert.KernelIdeal.Attn

end
-- ==== Proof.KerGate.lean ====
/-
  The kernel's gate and output, read at an entry.

  On the 32 flattened rows the kernel normalises the 512 features (mean, variance, scale and shift), applies the hidden
  layer and the SiLU, sums against the gate's weight row, adds the bias, and opens the gate where the logit is positive;
  the output row is the input row plus the gate times the projected context. Each stage is named and read at a row.
-/
import proofs.«150437_g8143257993987_cont_9to1c4b_560_12_alg».proof.Proof.KerLayout
import proofs.«150437_g8143257993987_cont_9to1c4b_560_12_alg».proof.Proof.Spec

noncomputable section

open scoped BigOperators

namespace Cert.KernelIdeal.GateRead

open Idealize.ShloMosaic Idealize.ShloMosaic.ValueIdx Cert.KernelIdeal Cert.KernelIdeal.Gen Cert.KernelIdeal.Lay Cert.Router

/-! ## The stages of the normalisation and the gate's logit, as the kernel prints them -/

def meanCol (v : FVec Ideal S32x512 .f32) : FVec Ideal S32x1 .f32 :=
  divf (shapeCast S32x1 (multiReduction .add [1] S32 v 0x00000000#32 reduces_S32x512_S32 (.inl rfl) rfl) shapeCasts_S32_S32x1)
    (broadcast S32x1 (Scalar.ofBits .f32 0x44000000#32))

def cen (v : FVec Ideal S32x512 .f32) : FVec Ideal S32x512 .f32 :=
  subf v (broadcastTo S32x512 (meanCol v) broadcasts_S32x1_S32x512)

def varCol (v : FVec Ideal S32x512 .f32) : FVec Ideal S32x1 .f32 :=
  divf (shapeCast S32x1 (multiReduction .add [1] S32 (mulf (cen v) (cen v)) 0x00000000#32 reduces_S32x512_S32 (.inl rfl) rfl)
      shapeCasts_S32_S32x1)
    (broadcast S32x1 (Scalar.ofBits .f32 0x44000000#32))

def lnormBlk (v : FVec Ideal S32x512 .f32) (g bb : FVec Ideal S1x512 .f32) : FVec Ideal S32x512 .f32 :=
  addf (divf (mulf (broadcastTo S32x512 (shapeCast S1x512 g shapeCasts_S1x512_S1x512) broadcasts_S1x512_S32x512) (cen v))
      (broadcastTo S32x512 (sqrt (addf (varCol v) (broadcast S32x1 (Scalar.ofBits .f32 0x3727C5AC#32)))) broadcasts_S32x1_S32x512))
    (broadcastTo S32x512 (shapeCast S1x512 bb shapeCasts_S1x512_S1x512) broadcasts_S1x512_S32x512)

def hiddenBlk (h : FVec Ideal S32x512 .f32) (W1 : FVec Ideal S512x512 .f32) (b1 : FVec Ideal S1x512 .f32) : FVec Ideal S32x512 .f32 :=
  addf (matmul dot_S32x512_S512x512_S32x512_1_0_0_1_n_n none h W1 (constant S32x512 .f32 0x00000000#32))
    (broadcastTo S32x512 (shapeCast S1x512 b1 shapeCasts_S1x512_S1x512) broadcasts_S1x512_S32x512)

def logitCol (h1 : FVec Ideal S32x512 .f32) (W2 : FVec Ideal S1x512 .f32) : FVec Ideal S32x1 .f32 :=
  shapeCast S32x1 (multiReduction .add [1] S32
      (mulf (mulf h1 (logistic h1)) (broadcastTo S32x512 (shapeCast S1x512 W2 shapeCasts_S1x512_S1x512) broadcasts_S1x512_S32x512))
      0x00000000#32 reduces_S32x512_S32 (.inl rfl) rfl) shapeCasts_S32_S32x1

theorem pay9_eq (v73 : FVec Ideal S32x512 .f32) (v85 v96 : FVec Ideal S1x512 .f32) (v100 : FVec Ideal S512x512 .f32)
    (v102 v108 : FVec Ideal S1x512 .f32) :
    k0_pay9 v73 v85 v96 v100 v102 v108 = logitCol (hiddenBlk (lnormBlk v73 v85 v96) v100 v102) v108 := rfl

/-! ## Each stage at a row -/

theorem meanCol_apply (v : FVec Ideal S32x512 .f32) (r : Fin 32) (u : Fin 1) :
    meanCol v (ix2 r u) = mean (fun j => v (ix2 r j)) := by
  show Ideal.div (shapeCast S32x1 (multiReduction .add [1] S32 v 0x00000000#32 reduces_S32x512_S32 (.inl rfl) rfl)
      shapeCasts_S32_S32x1 (ix2 r u)) (Ideal.ofBits .f32 0x44000000#32) = _
  refine congrArg (Ideal.div · (Ideal.ofBits .f32 0x44000000#32)) ?_
  exact (cast_a_a1 _ shapeCasts_S32_S32x1 r u).trans (rowsum32 v _ _ r)

theorem cen_apply (v : FVec Ideal S32x512 .f32) (r : Fin 32) (j : Fin 512) :
    cen v (ix2 r j) = v (ix2 r j) - mean (fun j => v (ix2 r j)) := by
  show v (ix2 r j) - broadcastTo S32x512 (meanCol v) broadcasts_S32x1_S32x512 (ix2 r j) = _
  rw [bcast_a1_ab (meanCol v) broadcasts_S32x1_S32x512 r j, meanCol_apply]

theorem varCol_apply (v : FVec Ideal S32x512 .f32) (r : Fin 32) (u : Fin 1) :
    varCol v (ix2 r u) = var (fun j => v (ix2 r j)) := by
  show Ideal.div (shapeCast S32x1 (multiReduction .add [1] S32 (mulf (cen v) (cen v)) 0x00000000#32 reduces_S32x512_S32 (.inl rfl) rfl)
      shapeCasts_S32_S32x1 (ix2 r u)) (Ideal.ofBits .f32 0x44000000#32) = _
  refine congrArg (Ideal.div · (Ideal.ofBits .f32 0x44000000#32)) ?_
  refine (cast_a_a1 _ shapeCasts_S32_S32x1 r u).trans ((rowsum32 _ _ _ r).trans ?_)
  refine Finset.sum_congr rfl fun j _ => ?_
  show cen v (ix2 r j) * cen v (ix2 r j) = _
  rw [cen_apply]

theorem lnormBlk_apply (v : FVec Ideal S32x512 .f32) (g bb : FVec Ideal S1x512 .f32) (r : Fin 32) (j : Fin 512) :
    lnormBlk v g bb (ix2 r j)
      = lnormWith (var (fun j => v (ix2 r j))) (fun j => v (ix2 r j)) (fun j => g (ix2 (0 : Fin 1) j)) (fun j => bb (ix2 (0 : Fin 1) j)) j := by
  show Ideal.div (broadcastTo S32x512 (shapeCast S1x512 g shapeCasts_S1x512_S1x512) broadcasts_S1x512_S32x512 (ix2 r j) * cen v (ix2 r j))
      (broadcastTo S32x512 (sqrt (addf (varCol v) (broadcast S32x1 (Scalar.ofBits .f32 0x3727C5AC#32)))) broadcasts_S32x1_S32x512 (ix2 r j))
    + broadcastTo S32x512 (shapeCast S1x512 bb shapeCasts_S1x512_S1x512) broadcasts_S1x512_S32x512 (ix2 r j) = _
  rw [broadcastTo_1b_ab_apply, broadcastTo_1b_ab_apply, shapeCast_self, shapeCast_self, cen_apply,
    bcast_a1_ab _ broadcasts_S32x1_S32x512 r j]
  show Ideal.div _ (Ideal.sqrt (varCol v (ix2 r (0 : Fin 1)) + Ideal.ofBits .f32 0x3727C5AC#32)) + _ = _
  rw [varCol_apply]
  rfl

theorem hiddenBlk_apply (h : FVec Ideal S32x512 .f32) (W1 : FVec Ideal S512x512 .f32) (b1 : FVec Ideal S1x512 .f32) (r : Fin 32) (k : Fin 512) :
    hiddenBlk h W1 b1 (ix2 r k)
      = hidden (fun j => h (ix2 r j)) (fun j k => W1 (ix2 j k)) (fun k => b1 (ix2 (0 : Fin 1) k)) k := by
  show matmul dot_S32x512_S512x512_S32x512_1_0_0_1_n_n none h W1 (constant S32x512 .f32 0x00000000#32) (ix2 r k)
    + broadcastTo S32x512 (shapeCast S1x512 b1 shapeCasts_S1x512_S1x512) broadcasts_S1x512_S32x512 (ix2 r k) = _
  rw [mm_hidden, broadcastTo_1b_ab_apply, shapeCast_self]
  rfl

theorem logitCol_apply (h1 : FVec Ideal S32x512 .f32) (W2 : FVec Ideal S1x512 .f32) (r : Fin 32) (u : Fin 1) :
    logitCol h1 W2 (ix2 r u) = ∑ k : Fin 512, siluK (h1 (ix2 r k)) * W2 (ix2 (0 : Fin 1) k) := by
  refine (cast_a_a1 _ shapeCasts_S32_S32x1 r u).trans ((rowsum32 _ _ _ r).trans ?_)
  refine Finset.sum_congr rfl fun k _ => ?_
  show (h1 (ix2 r k) * Ideal.logistic (h1 (ix2 r k)))
    * broadcastTo S32x512 (shapeCast S1x512 W2 shapeCasts_S1x512_S1x512) broadcasts_S1x512_S32x512 (ix2 r k) = _
  rw [broadcastTo_1b_ab_apply, shapeCast_self]
  rfl

/-- The gate's logit without its bias, at row `r`: the normalised row through the hidden layer and the SiLU, against the
    gate's weights. -/
theorem pay9_apply (v73 : FVec Ideal S32x512 .f32) (v85 v96 : FVec Ideal S1x512 .f32) (v100 : FVec Ideal S512x512 .f32)
    (v102 v108 : FVec Ideal S1x512 .f32) (r : Fin 32) (u : Fin 1) :
    k0_pay9 v73 v85 v96 v100 v102 v108 (ix2 r u)
      = ∑ k : Fin 512, siluK (hidden (lnormWith (var (fun j => v73 (ix2 r j))) (fun j => v73 (ix2 r j))
            (fun j => v85 (ix2 (0 : Fin 1) j)) (fun j => v96 (ix2 (0 : Fin 1) j)))
          (fun j k => v100 (ix2 j k)) (fun k => v102 (ix2 (0 : Fin 1) k)) k) * v108 (ix2 (0 : Fin 1) k) := by
  rw [pay9_eq, logitCol_apply]
  refine Finset.sum_congr rfl fun k _ => ?_
  rw [hiddenBlk_apply]
  simp only [lnormBlk_apply]

/-! ## The output piece -/

/-- Entry (i, s, d) of the stored block: the input row's entry plus the gate (opened by the logit with its bias) times
    the projected context with its bias, all at the flattened row `8 i + s`. -/
theorem pay1_apply (v1 : FVec Ideal S32x1024 .f32) (v72 : FVec Ideal S32x256 .f32) (v113 : FVec Ideal S32x1 .f32)
    (v115 : FVec Ideal S1x1 .f32) (v122 : FVec Ideal S256x1024 .f32) (v124 : FVec Ideal S1x1024 .f32)
    (i : Fin 4) (s : Fin 8) (d : Fin 1024) (r : Fin 32) (hr : r.val = 8 * i.val + s.val) :
    k0_pay1 v1 v72 v113 v115 v122 v124 (ix3 i s d)
      = v1 (ix2 r d) + gateK (v113 (ix2 r (0 : Fin 1)) + v115 (ix2 (0 : Fin 1) (0 : Fin 1)))
          * ((∑ c : Fin 256, v72 (ix2 r c) * v122 (ix2 c d)) + v124 (ix2 (0 : Fin 1) d)) := by
  unfold k0_pay1
  refine (cast_32_48 _ shapeCasts_S32x1024_S4x8x1024 i s d r hr).trans ?_
  show v1 (ix2 r d)
    + broadcastTo S32x1024 (sitofp .f32 (extui 32 (cmpf .ogt (addf v113 (broadcastTo S32x1 v115 broadcasts_S1x1_S32x1))
        (broadcast S32x1 (Scalar.ofBits .f32 0x00000000#32))) natLt_1_32)) broadcasts_S32x1_S32x1024 (ix2 r d)
      * (matmul dot_S32x256_S256x1024_S32x1024_1_0_0_1_n_n none v72 v122 (constant S32x1024 .f32 0x00000000#32) (ix2 r d)
        + broadcastTo S32x1024 (shapeCast S1x1024 v124 shapeCasts_S1x1024_S1x1024) broadcasts_S1x1024_S32x1024 (ix2 r d)) = _
  rw [mm_out, broadcastTo_1b_ab_apply, shapeCast_self, bcast_a1_ab _ broadcasts_S32x1_S32x1024 r d]
  show _ + FloatOps.sitofp (F := Ideal) .f32 ((Ideal.cmp .ogt (v113 (ix2 r (0 : Fin 1))
      + broadcastTo S32x1 v115 broadcasts_S1x1_S32x1 (ix2 r (0 : Fin 1))) (Ideal.ofBits .f32 0x00000000#32)).setWidth 32) * _ = _
  rw [broadcastTo_1b_ab_apply]
  rfl

end Cert.KernelIdeal.GateRead

end
-- ==== Proof.KerRow.lean ====
/-
  One stored entry of the kernel's block is the row function of the spec.

  The body computes on 32 flattened rows; row `8 i + s` belongs to batch `i` of the block, and uses only row (i, s) of
  the `x` block and batch `i` of the cache block. This module reads the 32-row context block and the 32-row
  normalisation input at such a row, and then the stored value at (i, s, d), as `rowK` of those rows.
-/
import proofs.«150437_g8143257993987_cont_9to1c4b_560_12_alg».proof.Proof.KerAttn
import proofs.«150437_g8143257993987_cont_9to1c4b_560_12_alg».proof.Proof.KerGate

noncomputable section

open scoped BigOperators

namespace Cert.KernelIdeal.RowRead

open Idealize.ShloMosaic Idealize.ShloMosaic.ValueIdx Cert.KernelIdeal Cert.KernelIdeal.Gen Cert.KernelIdeal.Lay Cert.Router
open Cert.KernelIdeal.Attn Cert.KernelIdeal.GateRead

variable (x0 : FVec Ideal S4x8x1024 .f32) (x1 : FVec Ideal S4x4096x256 .f32) (x2 : FVec Ideal S1024x256 .f32) (x3 : FVec Ideal S1x256 .f32)

/-- The contexts of the block's 32 rows. -/
def ctx32 : FVec Ideal S32x256 .f32 := k0_pay7 (F := Ideal) (k0_pay3 (F := Ideal) x0 x2 x3) (k0_pay4 (F := Ideal) x0 x2 x3 (View.ld (Val := Elt Ideal) (e' := .f32) x1 r0_3)) (k0_pay5 (F := Ideal) (View.ld (Val := Elt Ideal) (e' := .f32) x1 r0_4)) (k0_pay6 (F := Ideal) x0 x2 x3 (View.ld (Val := Elt Ideal) (e' := .f32) x1 r0_4)) (View.ld (Val := Elt Ideal) (e' := .f32) x1 r0_5) (View.ld (Val := Elt Ideal) (e' := .f32) x1 r0_6)

/-- The normalisation input of the block's 32 rows: the queries beside the contexts. -/
def comb32 : FVec Ideal S32x512 .f32 := k0_pay8 (F := Ideal) (k0_pay3 (F := Ideal) x0 x2 x3) (k0_pay4 (F := Ideal) x0 x2 x3 (View.ld (Val := Elt Ideal) (e' := .f32) x1 r0_3)) (k0_pay5 (F := Ideal) (View.ld (Val := Elt Ideal) (e' := .f32) x1 r0_4)) (k0_pay6 (F := Ideal) x0 x2 x3 (View.ld (Val := Elt Ideal) (e' := .f32) x1 r0_4)) (View.ld (Val := Elt Ideal) (e' := .f32) x1 r0_5) (View.ld (Val := Elt Ideal) (e' := .f32) x1 r0_6)

theorem pay5_eq (v25 : FVec Ideal S1x4096x256 .f32) :
    k0_pay5 (F := Ideal) v25 = shapeCast S4096x256 v25 shapeCasts_S1x4096x256_S4096x256 := rfl

/-- The queries of batch `k`'s eight rows, cut out of the 32. -/
theorem slice_proj (o : Nat) (h : S32x256.Slices ![o, 0] S8x256) (i : Fin 4) (ho : o = 8 * i.val) (s : Fin 8) :
    (fun c => extractStridedSlice S8x256 ![o, 0] (k0_pay3 (F := Ideal) x0 x2 x3) h (ix2 s c))
      = proj (fun d => x0 (ix3 i s d)) (fun d c => x2 (ix2 d c)) (fun c => x3 (ix2 (0 : Fin 1) c)) :=
  funext fun c =>
    (slice2_axis0_apply o _ h s c ⟨8 * i.val + s.val, by have := i.isLt; have := s.isLt; omega⟩ (by show 8 * i.val + s.val = o + s.val; omega)).trans
      (pay3_apply x0 x2 x3 i s c _ rfl)

theorem ctx32_apply0 (s : Fin 8) (c : Fin 256) (r : Fin 32) (hr : r.val = 0 + s.val) :
    ctx32 x0 x1 x2 x3 (ix2 r c)
      = ctxK (score (proj (fun d => x0 (ix3 (0 : Fin 4) s d)) (fun d c => x2 (ix2 d c)) (fun c => x3 (ix2 (0 : Fin 1) c)))
          (fun m c => x1 (ix3 (0 : Fin 4) m c))) (fun m c => x1 (ix3 (0 : Fin 4) m c)) c := by
  unfold ctx32
  rw [pay7_eq]
  refine (cat4_0 _ _ _ _ _ s c r hr).trans ?_
  rw [pay4_eq, attn_apply, slice_proj x0 x2 x3 0 _ (0 : Fin 4) rfl s]
  have hc : (fun m c => shapeCast S4096x256 (View.ld (Val := Elt Ideal) (e' := .f32) x1 r0_3) shapeCasts_S1x4096x256_S4096x256 (ix2 m c))
      = fun m c => x1 (ix3 (0 : Fin 4) m c) := funext fun m => funext fun c => cacheBlk0 x1 m c
  rw [hc]

theorem ctx32_apply1 (s : Fin 8) (c : Fin 256) (r : Fin 32) (hr : r.val = 8 + s.val) :
    ctx32 x0 x1 x2 x3 (ix2 r c)
      = ctxK (score (proj (fun d => x0 (ix3 (1 : Fin 4) s d)) (fun d c => x2 (ix2 d c)) (fun c => x3 (ix2 (0 : Fin 1) c)))
          (fun m c => x1 (ix3 (1 : Fin 4) m c))) (fun m c => x1 (ix3 (1 : Fin 4) m c)) c := by
  unfold ctx32
  rw [pay7_eq]
  refine (cat4_1 _ _ _ _ _ s c r hr).trans ?_
  rw [pay6_eq, pay5_eq, attn_apply, slice_proj x0 x2 x3 8 _ (1 : Fin 4) rfl s]
  have hc : (fun m c => shapeCast S4096x256 (View.ld (Val := Elt Ideal) (e' := .f32) x1 r0_4) shapeCasts_S1x4096x256_S4096x256 (ix2 m c))
      = fun m c => x1 (ix3 (1 : Fin 4) m c) := funext fun m => funext fun c => cacheBlk1 x1 m c
  rw [hc]

theorem ctx32_apply2 (s : Fin 8) (c : Fin 256) (r : Fin 32) (hr : r.val = 16 + s.val) :
    ctx32 x0 x1 x2 x3 (ix2 r c)
      = ctxK (score (proj (fun d => x0 (ix3 (2 : Fin 4) s d)) (fun d c => x2 (ix2 d c)) (fun c => x3 (ix2 (0 : Fin 1) c)))
          (fun m c => x1 (ix3 (2 : Fin 4) m c))) (fun m c => x1 (ix3 (2 : Fin 4) m c)) c := by
  unfold ctx32
  rw [pay7_eq]
  refine (cat4_2 _ _ _ _ _ s c r hr).trans ?_
  rw [attn_apply, slice_proj x0 x2 x3 16 _ (2 : Fin 4) rfl s]
  have hc : (fun m c => shapeCast S4096x256 (View.ld (Val := Elt Ideal) (e' := .f32) x1 r0_5) shapeCasts_S1x4096x256_S4096x256 (ix2 m c))
      = fun m c => x1 (ix3 (2 : Fin 4) m c) := funext fun m => funext fun c => cacheBlk2 x1 m c
  rw [hc]

theorem ctx32_apply3 (s : Fin 8) (c : Fin 256) (r : Fin 32) (hr : r.val = 24 + s.val) :
    ctx32 x0 x1 x2 x3 (ix2 r c)
      = ctxK (score (proj (fun d => x0 (ix3 (3 : Fin 4) s d)) (fun d c => x2 (ix2 d c)) (fun c => x3 (ix2 (0 : Fin 1) c)))
          (fun m c => x1 (ix3 (3 : Fin 4) m c))) (fun m c => x1 (ix3 (3 : Fin 4) m c)) c := by
  unfold ctx32
  rw [pay7_eq]
  refine (cat4_3 _ _ _ _ _ s c r hr).trans ?_
  rw [attn_apply, slice_proj x0 x2 x3 24 _ (3 : Fin 4) rfl s]
  have hc : (fun m c => shapeCast S4096x256 (View.ld (Val := Elt Ideal) (e' := .f32) x1 r0_6) shapeCasts_S1x4096x256_S4096x256 (ix2 m c))
      = fun m c => x1 (ix3 (3 : Fin 4) m c) := funext fun m => funext fun c => cacheBlk3 x1 m c
  rw [hc]

/-- Row `8 i + s` of the context block is the context of row (i, s): its query against batch `i`'s memories. -/
theorem ctx32_apply (i : Fin 4) (s : Fin 8) (c : Fin 256) (r : Fin 32) (hr : r.val = 8 * i.val + s.val) :
    ctx32 x0 x1 x2 x3 (ix2 r c) = ctxK (score (proj (fun d => x0 (ix3 i s d)) (fun d c => x2 (ix2 d c)) (fun c => x3 (ix2 (0 : Fin 1) c))) (fun m c => x1 (ix3 i m c))) (fun m c => x1 (ix3 i m c)) c := by
  match i, hr with
  | ⟨0, _⟩, hr => exact ctx32_apply0 x0 x1 x2 x3 s c r (by simpa using hr)
  | ⟨1, _⟩, hr => exact ctx32_apply1 x0 x1 x2 x3 s c r (by simpa using hr)
  | ⟨2, _⟩, hr => exact ctx32_apply2 x0 x1 x2 x3 s c r (by simpa using hr)
  | ⟨3, _⟩, hr => exact ctx32_apply3 x0 x1 x2 x3 s c r (by simpa using hr)

/-- Row `8 i + s` of the normalisation input is row (i, s)'s query followed by its context. -/
theorem comb32_apply (i : Fin 4) (s : Fin 8) (r : Fin 32) (hr : r.val = 8 * i.val + s.val) :
    (fun j => comb32 x0 x1 x2 x3 (ix2 r j)) = comb (proj (fun d => x0 (ix3 i s d)) (fun d c => x2 (ix2 d c)) (fun c => x3 (ix2 (0 : Fin 1) c))) (ctxK (score (proj (fun d => x0 (ix3 i s d)) (fun d c => x2 (ix2 d c)) (fun c => x3 (ix2 (0 : Fin 1) c))) (fun m c => x1 (ix3 i m c))) (fun m c => x1 (ix3 i m c))) := by
  funext j
  show concatenate S32x512 1 [⟨S32x256, (k0_pay3 (F := Ideal) x0 x2 x3)⟩, ⟨S32x256, ctx32 x0 x1 x2 x3⟩] concatenates_S32x256_S32x256_S32x512_d1 (ix2 r j) = _
  rw [cat2_cols]
  unfold comb
  by_cases hj : j.val < 256
  · rw [dif_pos hj, dif_pos hj]
    exact pay3_apply x0 x2 x3 i s _ r hr
  · rw [dif_neg hj, dif_neg hj]
    exact ctx32_apply x0 x1 x2 x3 i s _ r hr

variable (x4 x5 : FVec Ideal S1x512 .f32) (x6 : FVec Ideal S512x512 .f32) (x7 x8 : FVec Ideal S1x512 .f32) (x9 : FVec Ideal S1x1 .f32)
  (x10 : FVec Ideal S256x1024 .f32) (x11 : FVec Ideal S1x1024 .f32)

/-- Entry (i, s, d) of the value the body stores, from the blocks it loads: the row function of row (i, s) of the `x`
    block, batch `i` of the cache block and the parameter blocks. -/
theorem pay_apply (i : Fin 4) (s : Fin 8) (d : Fin 1024) :
    k0_pay1 (F := Ideal) (k0_pay2 (F := Ideal) x0) (ctx32 x0 x1 x2 x3)
        (k0_pay9 (F := Ideal) (comb32 x0 x1 x2 x3) x4 x5 x6 x7 x8) (k0_pay10 (F := Ideal) x9) x10 x11 (ix3 i s d)
      = rowK (fun d => x0 (ix3 i s d)) (fun m c => x1 (ix3 i m c)) (fun d c => x2 (ix2 d c)) (fun c => x3 (ix2 (0 : Fin 1) c))
          (fun j => x4 (ix2 (0 : Fin 1) j)) (fun j => x5 (ix2 (0 : Fin 1) j)) (fun j k => x6 (ix2 j k)) (fun k => x7 (ix2 (0 : Fin 1) k))
          (fun k => x8 (ix2 (0 : Fin 1) k)) (x9 (ix2 (0 : Fin 1) (0 : Fin 1))) (fun c d => x10 (ix2 c d)) (fun d => x11 (ix2 (0 : Fin 1) d)) d := by
  have hlt : 8 * i.val + s.val < 32 := by have := i.isLt; have := s.isLt; omega
  rw [pay1_apply _ _ _ _ _ _ i s d ⟨8 * i.val + s.val, hlt⟩ rfl, pay9_apply,
    comb32_apply x0 x1 x2 x3 i s ⟨8 * i.val + s.val, hlt⟩ rfl]
  unfold rowK outRow logitWith
  refine congrArg₂ (· + ·) ?_ (congrArg₂ (· * ·) (congrArg gateK (congrArg₂ (· + ·) rfl ?_))
    (congrArg (· + x11 (ix2 (0 : Fin 1) d)) (Finset.sum_congr rfl fun c _ => ?_)))
  · exact cast_48_32 x0 shapeCasts_S4x8x1024_S32x1024 i s d _ rfl
  · show shapeCast S1x1 x9 shapeCasts_S1x1_S1x1 (ix2 (0 : Fin 1) (0 : Fin 1)) = _
    rw [shapeCast_self]
  · rw [ctx32_apply x0 x1 x2 x3 i s c _ rfl]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output window's buffer, at (i, s, d). -/
theorem out_apply (i : Fin 4) (s : Fin 8) (d : Fin 1024) :
    out0_12 (F := Ideal) x0 x1 x2 x3 x4 x5 x6 x7 x8 x9 x10 x11 (ix3 i s d)
      = rowK (fun d => x0 (ix3 i s d)) (fun m c => x1 (ix3 i m c)) (fun d c => x2 (ix2 d c)) (fun c => x3 (ix2 (0 : Fin 1) c))
          (fun j => x4 (ix2 (0 : Fin 1) j)) (fun j => x5 (ix2 (0 : Fin 1) j)) (fun j k => x6 (ix2 j k)) (fun k => x7 (ix2 (0 : Fin 1) k))
          (fun k => x8 (ix2 (0 : Fin 1) k)) (x9 (ix2 (0 : Fin 1) (0 : Fin 1))) (fun c d => x10 (ix2 c d)) (fun d => x11 (ix2 (0 : Fin 1) d)) d := by
  unfold out0_12
  rw [View.canon_unit_zero hz3]
  simp only [View.ld_unit_zero (S := S4x8x1024) hz3, View.ld_unit_zero (S := S1024x256) hz2, View.ld_unit_zero (S := S1x256) hz2,
    View.ld_unit_zero (S := S1x512) hz2, View.ld_unit_zero (S := S512x512) hz2, View.ld_unit_zero (S := S1x1) hz2,
    View.ld_unit_zero (S := S256x1024) hz2, View.ld_unit_zero (S := S1x1024) hz2]
  exact pay_apply x0 x1 x2 x3 x4 x5 x6 x7 x8 x9 x10 x11 i s d

end Cert.KernelIdeal.RowRead

end
-- ==== Proof.KerBlkRead.lean ====
/-
  Each window's block at a grid point, read as the launched arrays: the block of a window at point `t` sits at
  coordinate (block index) × (block size) + (coordinate inside the block) on every axis; the two batched windows move
  with the point (index `t` on the leading axis, blocks of 4), every other window is its whole array at index 0; a
  window over a reshaped vector reads the vector itself.
-/
import proofs.«150437_g8143257993987_cont_9to1c4b_560_12_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.BlkRead

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD) (t : Fin cfg0.N)

/-! ## The printed index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

/-! ## The batched windows -/

theorem blk0 (i : Fin 4) (s : Fin 8) (d : Fin 1024) (b : Fin 64) (hb : b.val = 4 * t.val + i.val) :
    (iblk m c 0 t : S4x8x1024.Idx → EReal) (ix3 i s d) = m ((c : Thread nD τ).loc main_arg0) (ix3 b s d) := by
  obtain ⟨e0, e1, e2⟩ := idx0 t
  rw [← V_main_arg0 m c]
  show V m c main_arg0 (((cfg0.win 0).blk t).view.emb (ix3 i s d)) = V m c main_arg0 (ix3 b s d)
  refine congrArg _ (funext fun a => Fin.ext ?_)
  match a with
  | ⟨0, _⟩ => show win0_0.index t (0 : Fin 3) * 4 + 1 * i.val = b.val; omega
  | ⟨1, _⟩ => show win0_0.index t (1 : Fin 3) * 8 + 1 * s.val = s.val; omega
  | ⟨2, _⟩ => show win0_0.index t (2 : Fin 3) * 1024 + 1 * d.val = d.val; omega

theorem blk2 (d : Fin 1024) (k : Fin 256) :
    (iblk m c 2 t : S1024x256.Idx → EReal) (ix2 d k) = m ((c : Thread nD τ).loc main_arg2) (ix2 d k) := by
  obtain ⟨e0, e1⟩ := idx2 t
  rw [← V_main_arg2 m c]
  show V m c main_arg2 (((cfg0.win 2).blk t).view.emb (ix2 d k)) = V m c main_arg2 (ix2 d k)
  refine congrArg _ (funext fun a => Fin.ext ?_)
  match a with
  | ⟨0, _⟩ => show win0_2.index t (0 : Fin 2) * 1024 + 1 * d.val = d.val; omega
  | ⟨1, _⟩ => show win0_2.index t (1 : Fin 2) * 256 + 1 * k.val = k.val; omega

theorem blk1 (i : Fin 4) (mm : Fin 4096) (cc : Fin 256) (b : Fin 64) (hb : b.val = 4 * t.val + i.val) :
    (iblk m c 1 t : S4x4096x256.Idx → EReal) (ix3 i mm cc) = m ((c : Thread nD τ).loc main_arg1) (ix3 b mm cc) := by
  obtain ⟨e0, e1, e2⟩ := idx1 t
  rw [← V_main_arg1 m c]
  show V m c main_arg1 (((cfg0.win 1).blk t).view.emb (ix3 i mm cc)) = V m c main_arg1 (ix3 b mm cc)
  refine congrArg _ (funext fun a => Fin.ext ?_)
  match a with
  | ⟨0, _⟩ => show win0_1.index t (0 : Fin 3) * 4 + 1 * i.val = b.val; omega
  | ⟨1, _⟩ => show win0_1.index t (1 : Fin 3) * 4096 + 1 * mm.val = mm.val; omega
  | ⟨2, _⟩ => show win0_1.index t (2 : Fin 3) * 256 + 1 * cc.val = cc.val; omega

/-! ## The output window -/

theorem emb12 (i : Fin 4) (s : Fin 8) (d : Fin 1024) (b : Fin 64) (hb : b.val = 4 * t.val + i.val) :
    ((cfg0.win 12).blk t).view.emb (ix3 i s d : S4x8x1024.Idx) = (ix3 b s d : S64x8x1024.Idx) := by
  obtain ⟨e0, e1, e2⟩ := idx12 t
  funext a; apply Fin.ext
  match a with
  | ⟨0, _⟩ => show win0_12.index t (0 : Fin 3) * 4 + 1 * i.val = b.val; omega
  | ⟨1, _⟩ => show win0_12.index t (1 : Fin 3) * 8 + 1 * s.val = s.val; omega
  | ⟨2, _⟩ => show win0_12.index t (2 : Fin 3) * 1024 + 1 * d.val = d.val; omega

/-- An index of the output array is in point `t`'s block iff each coordinate is in the block's range on its axis. -/
theorem mem_blk12 (i : S64x8x1024.Idx) :
    i ∈ ((cfg0.win 12).blk t).view.set ↔ ∀ a : Fin 3, win0_12.index t a * S4x8x1024.size a ≤ (i a).val ∧ (i a).val < win0_12.index t a * S4x8x1024.size a + S4x8x1024.size a := by
  show i ∈ ((View.whole main_v7).slice (win0_12.rect t)).set ↔ _
  rw [View.set_slice_whole, Rect.mem_set_unit]
  exact Iff.rfl

/-! ## The whole-array windows over launched arrays -/

theorem blk6 (j k : Fin 512) :
    (iblk m c 6 t : S512x512.Idx → EReal) (ix2 j k) = m ((c : Thread nD τ).loc main_arg6) (ix2 j k) := by
  obtain ⟨e0, e1⟩ := idx6 t
  rw [← V_main_arg6 m c]
  show V m c main_arg6 (((cfg0.win 6).blk t).view.emb (ix2 j k)) = V m c main_arg6 (ix2 j k)
  refine congrArg _ (funext fun a => Fin.ext ?_)
  match a with
  | ⟨0, _⟩ => show win0_6.index t (0 : Fin 2) * 512 + 1 * j.val = j.val; omega
  | ⟨1, _⟩ => show win0_6.index t (1 : Fin 2) * 512 + 1 * k.val = k.val; omega

theorem blk10 (k : Fin 256) (d : Fin 1024) :
    (iblk m c 10 t : S256x1024.Idx → EReal) (ix2 k d) = m ((c : Thread nD τ).loc main_arg10) (ix2 k d) := by
  obtain ⟨e0, e1⟩ := idx10 t
  rw [← V_main_arg10 m c]
  show V m c main_arg10 (((cfg0.win 10).blk t).view.emb (ix2 k d)) = V m c main_arg10 (ix2 k d)
  refine congrArg _ (funext fun a => Fin.ext ?_)
  match a with
  | ⟨0, _⟩ => show win0_10.index t (0 : Fin 2) * 256 + 1 * k.val = k.val; omega
  | ⟨1, _⟩ => show win0_10.index t (1 : Fin 2) * 1024 + 1 * d.val = d.val; omega

/-! ## The windows over reshaped vectors -/

theorem V_v0 : (V m c main_v0 : S1x256.Idx → EReal) = shapeCast S1x256 (m ((c : Thread nD τ).loc main_arg3)) shapeCasts_S256_S1x256 := by
  dsimp only [Gen.V, Gen.hostOps0]; after_results; rfl

theorem emb3 (k : Fin 256) :
    ((cfg0.win 3).blk t).view.emb (ix2 (0 : Fin 1) k : S1x256.Idx) = (ix2 (0 : Fin 1) k : S1x256.Idx) := by
  obtain ⟨e0, e1⟩ := idx3 t
  funext a; apply Fin.ext
  match a with
  | ⟨0, _⟩ => show win0_3.index t (0 : Fin 2) * 1 + 1 * (0 : Fin 1).val = (0 : Fin 1).val; omega
  | ⟨1, _⟩ => show win0_3.index t (1 : Fin 2) * 256 + 1 * k.val = k.val; omega

theorem blk3 (k : Fin 256) :
    (iblk m c 3 t : S1x256.Idx → EReal) (ix2 (0 : Fin 1) k) = m ((c : Thread nD τ).loc main_arg3) (ix1 k) := by
  show V m c main_v0 (((cfg0.win 3).blk t).view.emb (ix2 (0 : Fin 1) k)) = _
  rw [emb3, V_v0, shapeCast_a_1a_apply]

theorem V_v1 : (V m c main_v1 : S1x512.Idx → EReal) = shapeCast S1x512 (m ((c : Thread nD τ).loc main_arg4)) shapeCasts_S512_S1x512 := by
  dsimp only [Gen.V, Gen.hostOps0]; after_results; rfl

theorem emb4 (k : Fin 512) :
    ((cfg0.win 4).blk t).view.emb (ix2 (0 : Fin 1) k : S1x512.Idx) = (ix2 (0 : Fin 1) k : S1x512.Idx) := by
  obtain ⟨e0, e1⟩ := idx4 t
  funext a; apply Fin.ext
  match a with
  | ⟨0, _⟩ => show win0_4.index t (0 : Fin 2) * 1 + 1 * (0 : Fin 1).val = (0 : Fin 1).val; omega
  | ⟨1, _⟩ => show win0_4.index t (1 : Fin 2) * 512 + 1 * k.val = k.val; omega

theorem blk4 (j : Fin 512) :
    (iblk m c 4 t : S1x512.Idx → EReal) (ix2 (0 : Fin 1) j) = m ((c : Thread nD τ).loc main_arg4) (ix1 j) := by
  show V m c main_v1 (((cfg0.win 4).blk t).view.emb (ix2 (0 : Fin 1) j)) = _
  rw [emb4, V_v1, shapeCast_a_1a_apply]

theorem V_v2 : (V m c main_v2 : S1x512.Idx → EReal) = shapeCast S1x512 (m ((c : Thread nD τ).loc main_arg5)) shapeCasts_S512_S1x512 := by
  dsimp only [Gen.V, Gen.hostOps0]; after_results; rfl

theorem emb5 (k : Fin 512) :
    ((cfg0.win 5).blk t).view.emb (ix2 (0 : Fin 1) k : S1x512.Idx) = (ix2 (0 : Fin 1) k : S1x512.Idx) := by
  obtain ⟨e0, e1⟩ := idx5 t
  funext a; apply Fin.ext
  match a with
  | ⟨0, _⟩ => show win0_5.index t (0 : Fin 2) * 1 + 1 * (0 : Fin 1).val = (0 : Fin 1).val; omega
  | ⟨1, _⟩ => show win0_5.index t (1 : Fin 2) * 512 + 1 * k.val = k.val; omega

theorem blk5 (j : Fin 512) :
    (iblk m c 5 t : S1x512.Idx → EReal) (ix2 (0 : Fin 1) j) = m ((c : Thread nD τ).loc main_arg5) (ix1 j) := by
  show V m c main_v2 (((cfg0.win 5).blk t).view.emb (ix2 (0 : Fin 1) j)) = _
  rw [emb5, V_v2, shapeCast_a_1a_apply]

theorem V_v3 : (V m c main_v3 : S1x512.Idx → EReal) = shapeCast S1x512 (m ((c : Thread nD τ).loc main_arg7)) shapeCasts_S512_S1x512 := by
  dsimp only [Gen.V, Gen.hostOps0]; after_results; rfl

theorem emb7 (k : Fin 512) :
    ((cfg0.win 7).blk t).view.emb (ix2 (0 : Fin 1) k : S1x512.Idx) = (ix2 (0 : Fin 1) k : S1x512.Idx) := by
  obtain ⟨e0, e1⟩ := idx7 t
  funext a; apply Fin.ext
  match a with
  | ⟨0, _⟩ => show win0_7.index t (0 : Fin 2) * 1 + 1 * (0 : Fin 1).val = (0 : Fin 1).val; omega
  | ⟨1, _⟩ => show win0_7.index t (1 : Fin 2) * 512 + 1 * k.val = k.val; omega

theorem blk7 (k : Fin 512) :
    (iblk m c 7 t : S1x512.Idx → EReal) (ix2 (0 : Fin 1) k) = m ((c : Thread nD τ).loc main_arg7) (ix1 k) := by
  show V m c main_v3 (((cfg0.win 7).blk t).view.emb (ix2 (0 : Fin 1) k)) = _
  rw [emb7, V_v3, shapeCast_a_1a_apply]

theorem V_v4 : (V m c main_v4 : S1x512.Idx → EReal) = shapeCast S1x512 (m ((c : Thread nD τ).loc main_arg8)) shapeCasts_S512x1_S1x512 := by
  dsimp only [Gen.V, Gen.hostOps0]; after_results; rfl

theorem emb8 (k : Fin 512) :
    ((cfg0.win 8).blk t).view.emb (ix2 (0 : Fin 1) k : S1x512.Idx) = (ix2 (0 : Fin 1) k : S1x512.Idx) := by
  obtain ⟨e0, e1⟩ := idx8 t
  funext a; apply Fin.ext
  match a with
  | ⟨0, _⟩ => show win0_8.index t (0 : Fin 2) * 1 + 1 * (0 : Fin 1).val = (0 : Fin 1).val; omega
  | ⟨1, _⟩ => show win0_8.index t (1 : Fin 2) * 512 + 1 * k.val = k.val; omega

theorem blk8 (k : Fin 512) :
    (iblk m c 8 t : S1x512.Idx → EReal) (ix2 (0 : Fin 1) k) = m ((c : Thread nD τ).loc main_arg8) (ix2 k (0 : Fin 1)) := by
  show V m c main_v4 (((cfg0.win 8).blk t).view.emb (ix2 (0 : Fin 1) k)) = _
  rw [emb8, V_v4]
  refine shapeCast_apply _ _ _ _ ?_
  show (S512x1.rowMajor (ix2 k (0 : Fin 1))).val = (S1x512.rowMajor (ix2 (0 : Fin 1) k)).val
  rw [Shape.rowMajor_val_two, Shape.rowMajor_val_two]
  show k.val * 1 + (0 : Fin 1).val = (0 : Fin 1).val * 512 + k.val
  simp

theorem V_v5 : (V m c main_v5 : S1x1.Idx → EReal) = shapeCast S1x1 (m ((c : Thread nD τ).loc main_arg9)) shapeCasts_S1_S1x1 := by
  dsimp only [Gen.V, Gen.hostOps0]; after_results; rfl

theorem emb9 (k : Fin 1) :
    ((cfg0.win 9).blk t).view.emb (ix2 (0 : Fin 1) k : S1x1.Idx) = (ix2 (0 : Fin 1) k : S1x1.Idx) := by
  obtain ⟨e0, e1⟩ := idx9 t
  funext a; apply Fin.ext
  match a with
  | ⟨0, _⟩ => show win0_9.index t (0 : Fin 2) * 1 + 1 * (0 : Fin 1).val = (0 : Fin 1).val; omega
  | ⟨1, _⟩ => show win0_9.index t (1 : Fin 2) * 1 + 1 * k.val = k.val; omega

theorem blk9 :
    (iblk m c 9 t : S1x1.Idx → EReal) (ix2 (0 : Fin 1) (0 : Fin 1)) = m ((c : Thread nD τ).loc main_arg9) (ix1 (0 : Fin 1)) := by
  show V m c main_v5 (((cfg0.win 9).blk t).view.emb (ix2 (0 : Fin 1) (0 : Fin 1))) = _
  rw [emb9, V_v5, shapeCast_a_1a_apply]

theorem V_v6 : (V m c main_v6 : S1x1024.Idx → EReal) = shapeCast S1x1024 (m ((c : Thread nD τ).loc main_arg11)) shapeCasts_S1024_S1x1024 := by
  dsimp only [Gen.V, Gen.hostOps0]; after_results; rfl

theorem emb11 (k : Fin 1024) :
    ((cfg0.win 11).blk t).view.emb (ix2 (0 : Fin 1) k : S1x1024.Idx) = (ix2 (0 : Fin 1) k : S1x1024.Idx) := by
  obtain ⟨e0, e1⟩ := idx11 t
  funext a; apply Fin.ext
  match a with
  | ⟨0, _⟩ => show win0_11.index t (0 : Fin 2) * 1 + 1 * (0 : Fin 1).val = (0 : Fin 1).val; omega
  | ⟨1, _⟩ => show win0_11.index t (1 : Fin 2) * 1024 + 1 * k.val = k.val; omega

theorem blk11 (d : Fin 1024) :
    (iblk m c 11 t : S1x1024.Idx → EReal) (ix2 (0 : Fin 1) d) = m ((c : Thread nD τ).loc main_arg11) (ix1 d) := by
  show V m c main_v6 (((cfg0.win 11).blk t).view.emb (ix2 (0 : Fin 1) d)) = _
  rw [emb11, V_v6, shapeCast_a_1a_apply]

end Cert.KernelIdeal.BlkRead

end
-- ==== Proof.KerBlocks.lean ====
/-
  From the blocks each grid point writes to the whole result array.

  Grid point `t` works on batches `4 t … 4 t + 3`: its `x` and cache blocks are those batches of the arrays, every
  parameter window holds its whole (re-laid) array, and the point writes block `t` of the output. Entry (i, s, d) of what
  it writes is the row function of row (4 t + i, s) — so every block is the restriction of ONE function `G` of the
  argument arrays; the sixteen blocks tile the output, hence the array ends as `G`.
-/
import proofs.«150437_g8143257993987_cont_9to1c4b_560_12_alg».proof.Proof.Gen.KernelIdeal.Value
import proofs.«150437_g8143257993987_cont_9to1c4b_560_12_alg».proof.Proof.KerRow
import proofs.«150437_g8143257993987_cont_9to1c4b_560_12_alg».proof.Proof.KerBlkRead

noncomputable section

open scoped BigOperators

namespace Cert.KernelIdeal.KerValue

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.BlkRead Cert.KernelIdeal.RowRead

variable (m : (ℓ : Loc nD τ sig) → Buf (Elt Ideal) ℓ) (ρ : Dev nD → PrngReg)

/-- What grid point `t` writes back is block `t` of `G` of the argument arrays. -/
theorem flushed_eq (c : Dev nD) (t : Fin cfg0.N) :
    (dats m 0 c).flushed 12 t = ((cfg0.win 12).blk t).view.read (Elt Ideal) (Cert.Router.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Cert.KernelIdeal.Value.flushed12]
  refine funext fun (y : S4x8x1024.Idx) => ?_
  obtain ⟨i, s, d, rfl⟩ : ∃ (i : Fin 4) (s : Fin 8) (d : Fin 1024), y = ix3 i s d := ⟨y 0, y 1, y 2, eq_ix3 y⟩
  have ht : t.val < 16 := lt_of_lt_of_eq t.isLt N_0
  have hb : 4 * t.val + i.val < 64 := by have := i.isLt; omega
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 i s d)
    = (Cert.Router.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (((cfg0.win 12).blk t).view.emb (ix3 i s d))
  rw [emb12 t i s d ⟨4 * t.val + i.val, hb⟩ rfl, out_apply, Cert.Router.G_apply]
  have e0 : (fun d => (iblk m c 0 t : S4x8x1024.Idx → EReal) (ix3 i s d)) = fun d => (m ((c : Thread nD τ).loc main_arg0)) (ix3 (⟨4 * t.val + i.val, hb⟩ : Fin 64) s d) :=
    funext fun d => blk0 m c t i s d _ rfl
  have e1 : (fun mm cc => (iblk m c 1 t : S4x4096x256.Idx → EReal) (ix3 i mm cc)) = fun mm cc => (m ((c : Thread nD τ).loc main_arg1)) (ix3 (⟨4 * t.val + i.val, hb⟩ : Fin 64) mm cc) :=
    funext fun mm => funext fun cc => blk1 m c t i mm cc _ rfl
  have e2 : (fun d k => (iblk m c 2 t : S1024x256.Idx → EReal) (ix2 d k)) = fun d k => (m ((c : Thread nD τ).loc main_arg2)) (ix2 d k) :=
    funext fun d => funext fun k => blk2 m c t d k
  have e3 : (fun k => (iblk m c 3 t : S1x256.Idx → EReal) (ix2 (0 : Fin 1) k)) = fun k => (m ((c : Thread nD τ).loc main_arg3)) (ix1 k) := funext fun k => blk3 m c t k
  have e4 : (fun j => (iblk m c 4 t : S1x512.Idx → EReal) (ix2 (0 : Fin 1) j)) = fun j => (m ((c : Thread nD τ).loc main_arg4)) (ix1 j) := funext fun j => blk4 m c t j
  have e5 : (fun j => (iblk m c 5 t : S1x512.Idx → EReal) (ix2 (0 : Fin 1) j)) = fun j => (m ((c : Thread nD τ).loc main_arg5)) (ix1 j) := funext fun j => blk5 m c t j
  have e6 : (fun j k => (iblk m c 6 t : S512x512.Idx → EReal) (ix2 j k)) = fun j k => (m ((c : Thread nD τ).loc main_arg6)) (ix2 j k) :=
    funext fun j => funext fun k => blk6 m c t j k
  have e7 : (fun k => (iblk m c 7 t : S1x512.Idx → EReal) (ix2 (0 : Fin 1) k)) = fun k => (m ((c : Thread nD τ).loc main_arg7)) (ix1 k) := funext fun k => blk7 m c t k
  have e8 : (fun k => (iblk m c 8 t : S1x512.Idx → EReal) (ix2 (0 : Fin 1) k)) = fun k => (m ((c : Thread nD τ).loc main_arg8)) (ix2 k (0 : Fin 1)) := funext fun k => blk8 m c t k
  have e9 : (iblk m c 9 t : S1x1.Idx → EReal) (ix2 (0 : Fin 1) (0 : Fin 1)) = (m ((c : Thread nD τ).loc main_arg9)) (ix1 (0 : Fin 1)) := blk9 m c t
  have e10 : (fun k d => (iblk m c 10 t : S256x1024.Idx → EReal) (ix2 k d)) = fun k d => (m ((c : Thread nD τ).loc main_arg10)) (ix2 k d) :=
    funext fun k => funext fun d => blk10 m c t k d
  have e11 : (fun d => (iblk m c 11 t : S1x1024.Idx → EReal) (ix2 (0 : Fin 1) d)) = fun d => (m ((c : Thread nD τ).loc main_arg11)) (ix1 d) := funext fun d => blk11 m c t d
  rw [e0, e1, e2, e3, e4, e5, e6, e7, e8, e9, e10, e11]

/-- The sixteen blocks tile the output: batch `b` lies in the block of point `b / 4`. -/
theorem cover (c : Dev nD) (i : S64x8x1024.Idx) :
    ∃ t : Fin cfg0.N, (cfg0.win 12).flush t = true ∧ i ∈ ((cfg0.win 12).blk t).view.set := by
  have hi0 : (i 0).val < 64 := (i 0).isLt
  have hi1 : (i 1).val < 8 := (i 1).isLt
  have hi2 : (i 2).val < 1024 := (i 2).isLt
  have hN : cfg0.N = 16 := N_0
  refine ⟨⟨(i 0).val / 4, by rw [hN]; omega⟩, flush0_12 _, ?_⟩
  rw [mem_blk12]
  obtain ⟨q0, q1, q2⟩ := idx12 ⟨(i 0).val / 4, by rw [hN]; omega⟩
  intro a
  match a with
  | ⟨0, _⟩ =>
    show win0_12.index _ (0 : Fin 3) * 4 ≤ (i 0).val ∧ (i 0).val < win0_12.index _ (0 : Fin 3) * 4 + 4
    rw [q0]; show (i 0).val / 4 * 4 ≤ (i 0).val ∧ (i 0).val < (i 0).val / 4 * 4 + 4; omega
  | ⟨1, _⟩ =>
    show win0_12.index _ (1 : Fin 3) * 8 ≤ (i 1).val ∧ (i 1).val < win0_12.index _ (1 : Fin 3) * 8 + 8
    rw [q1]; omega
  | ⟨2, _⟩ =>
    show win0_12.index _ (2 : Fin 3) * 1024 ≤ (i 2).val ∧ (i 2).val < win0_12.index _ (2 : Fin 3) * 1024 + 1024
    rw [q2]; omega

/-- The output array after the run is `G` of the argument arrays. -/
theorem final (c : Dev nD) : (dats m 0 c).arrAt 12 cfg0.N = (Cert.Router.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (dats m 0 c).arrAt_eq_of_cover 12 (Cert.Router.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => flushed_eq m c t) (cover c)

/-- The kernel's run: it terminates with the result array at `G` of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v7) = (Cert.Router.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.KerValue

end
-- ==== Proof.RefTerm.lean ====
/-
  The value of the printed reference program's result, as its operations composed on the twelve argument arrays.

  Every definition below is one value of the printed @main (or of a called body, inlined at its call), named after
  the value it is, and built by exactly the printed pure operation from the earlier values; a definition takes the
  argument arrays its value depends on. `refOut` is the last value, the program's result.
-/
import proofs.«150437_g8143257993987_cont_9to1c4b_560_12_alg».proof.ReferenceIdeal
import Idealize.ShloMosaic.PureOps.Ideal

noncomputable section

namespace Cert.ReferenceIdeal.RefValue

open Idealize.ShloMosaic Cert.ReferenceIdeal

variable [Facts]
open Facts₀ Facts

section stages

variable (a0 : FVec Ideal S64x8x1024 .f32) (a1 : FVec Ideal S64x4096x256 .f32) (a2 : FVec Ideal S1024x256 .f32)
  (a3 : FVec Ideal S256 .f32) (a4 : FVec Ideal S512 .f32) (a5 : FVec Ideal S512 .f32) (a6 : FVec Ideal S512x512 .f32)
  (a7 : FVec Ideal S512 .f32) (a8 : FVec Ideal S512x1 .f32) (a9 : FVec Ideal S1 .f32) (a10 : FVec Ideal S256x1024 .f32)
  (a11 : FVec Ideal S1024 .f32)

/-! ### The query: x · W_to + b_to -/

def st_v0 : FVec Ideal S64x8x256 .f32 := Host.dotGeneral dot_S64x8x1024_S1024x256_S64x8x256_2_0_01_1_n_n none a0 a2
def st_v1 : FVec Ideal S1x1x256 .f32 := broadcastInDim S1x1x256 ![2] bcast_S256_S1x1x256_2 a3
def st_v2 : FVec Ideal S64x8x256 .f32 := broadcastInDim S64x8x256 ![0, 1, 2] bcast_S1x1x256_S64x8x256_0_1_2 (st_v1 a3)
def st_v3 : FVec Ideal S64x8x256 .f32 := addf (st_v0 a0 a2) (st_v2 a3)

/-! ### The scores, divided by 16 and clipped to [-20, 20] -/

def st_v4 : FVec Ideal S64x8x4096 .f32 :=
  Host.dotGeneral dot_S64x8x256_S64x4096x256_S64x8x4096_2_2_1_1_0_0 none (st_v3 a0 a2 a3) a1
def st_cst : FVec Ideal S_ .f32 := constant S_ .f32 0x41800000#32
def st_v5 : FVec Ideal S64x8x4096 .f32 := broadcastInDim S64x8x4096 ![] bcast_S_S64x8x4096 st_cst
def st_v6 : FVec Ideal S64x8x4096 .f32 := Host.divf (st_v4 a0 a1 a2 a3) st_v5
def st_cst_0 : FVec Ideal S_ .f32 := constant S_ .f32 0xC1A00000#32
def st_cst_1 : FVec Ideal S_ .f32 := constant S_ .f32 0x41A00000#32
def st_call0_v0 : FVec Ideal S_ .f32 := id st_cst_0
def st_call0_v1 : FVec Ideal S64x8x4096 .f32 := broadcastInDim S64x8x4096 ![] bcast_S_S64x8x4096 st_call0_v0
def st_call0_v2 : FVec Ideal S64x8x4096 .f32 := maximumf st_call0_v1 (st_v6 a0 a1 a2 a3)
def st_call0_v3 : FVec Ideal S_ .f32 := id st_cst_1
def st_call0_v4 : FVec Ideal S64x8x4096 .f32 := broadcastInDim S64x8x4096 ![] bcast_S_S64x8x4096 st_call0_v3
def st_v7 : FVec Ideal S64x8x4096 .f32 := minimumf st_call0_v4 (st_call0_v2 a0 a1 a2 a3)

/-! ### The softmax over the memories -/

def st_cst_2 : FVec Ideal S_ .f32 := constant S_ .f32 0xFF800000#32
def st_v8 : FVec Ideal S64x8 .f32 :=
  Host.reduce FloatOps.maximumf (st_v7 a0 a1 a2 a3) st_cst_2 reducesTo_S64x8x4096_S64x8_d2 h_S_
def st_cst_3 : FVec Ideal S_ .f32 := constant S_ .f32 0xFF800000#32
def st_v9 : FVec Ideal S64x8 .f32 := broadcastInDim S64x8 ![] bcast_S_S64x8 st_cst_3
def st_v10 : FVec Ideal S64x8 .f32 := maximumf st_v9 (st_v8 a0 a1 a2 a3)
def st_v11 : FVec Ideal S64x8x1 .f32 := broadcastInDim S64x8x1 ![0, 1] bcast_S64x8_S64x8x1_0_1 (st_v10 a0 a1 a2 a3)
def st_v12 : FVec Ideal S64x8x4096 .f32 :=
  broadcastInDim S64x8x4096 ![0, 1, 2] bcast_S64x8x1_S64x8x4096_0_1_2 (st_v11 a0 a1 a2 a3)
def st_v13 : FVec Ideal S64x8x4096 .f32 := subf (st_v7 a0 a1 a2 a3) (st_v12 a0 a1 a2 a3)
def st_v14 : FVec Ideal S64x8x4096 .f32 := Host.exp (st_v13 a0 a1 a2 a3)
def st_cst_4 : FVec Ideal S_ .f32 := constant S_ .f32 0x00000000#32
def st_v15 : FVec Ideal S64x8 .f32 :=
  Host.reduceAdd (st_v14 a0 a1 a2 a3) st_cst_4 reducesTo_S64x8x4096_S64x8_d2 h_S_
def st_v16 : FVec Ideal S64x8x1 .f32 := broadcastInDim S64x8x1 ![0, 1] bcast_S64x8_S64x8x1_0_1 (st_v15 a0 a1 a2 a3)
def st_v17 : FVec Ideal S64x8x4096 .f32 :=
  broadcastInDim S64x8x4096 ![0, 1, 2] bcast_S64x8x1_S64x8x4096_0_1_2 (st_v16 a0 a1 a2 a3)
def st_v18 : FVec Ideal S64x8x4096 .f32 := Host.divf (st_v14 a0 a1 a2 a3) (st_v17 a0 a1 a2 a3)

/-! ### The context and the LayerNorm input -/

def st_v19 : FVec Ideal S64x8x256 .f32 :=
  Host.dotGeneral dot_S64x8x4096_S64x4096x256_S64x8x256_2_1_1_2_0_0 none (st_v18 a0 a1 a2 a3) a1
def st_v20 : FVec Ideal S64x8x512 .f32 :=
  concatenate S64x8x512 2 [⟨S64x8x256, st_v3 a0 a2 a3⟩, ⟨S64x8x256, st_v19 a0 a1 a2 a3⟩]
    concatenates_S64x8x256_S64x8x256_S64x8x512_d2

/-! ### The mean -/

def st_cst_5 : FVec Ideal S_ .f32 := constant S_ .f32 0x00000000#32
def st_v21 : FVec Ideal S64x8 .f32 :=
  Host.reduceAdd (st_v20 a0 a1 a2 a3) st_cst_5 reducesTo_S64x8x512_S64x8_d2 h_S_
def st_v22 : FVec Ideal S64x8x1 .f32 := broadcastInDim S64x8x1 ![0, 1] bcast_S64x8_S64x8x1_0_1 (st_v21 a0 a1 a2 a3)
def st_cst_6 : FVec Ideal S_ .f32 := constant S_ .f32 0x44000000#32
def st_v23 : FVec Ideal S64x8x1 .f32 := broadcastInDim S64x8x1 ![] bcast_S_S64x8x1 st_cst_6
def st_v24 : FVec Ideal S64x8x1 .f32 := Host.divf (st_v22 a0 a1 a2 a3) st_v23
def st_c : IVec S_ 32 := constantI S_ 32 0#32

/-! ### The variance (the called body, with its own mean and its guarded division) -/

def st_call1_cst : FVec Ideal S_ .f32 := constant S_ .f32 0x00000000#32
def st_call1_v0 : FVec Ideal S64x8 .f32 :=
  Host.reduceAdd (st_v20 a0 a1 a2 a3) st_call1_cst reducesTo_S64x8x512_S64x8_d2 h_S_
def st_call1_v1 : FVec Ideal S64x8x1 .f32 :=
  broadcastInDim S64x8x1 ![0, 1] bcast_S64x8_S64x8x1_0_1 (st_call1_v0 a0 a1 a2 a3)
def st_call1_cst_0 : FVec Ideal S_ .f32 := constant S_ .f32 0x44000000#32
def st_call1_v2 : FVec Ideal S64x8x1 .f32 := broadcastInDim S64x8x1 ![] bcast_S_S64x8x1 st_call1_cst_0
def st_call1_v3 : FVec Ideal S64x8x1 .f32 := Host.divf (st_call1_v1 a0 a1 a2 a3) st_call1_v2
def st_call1_v4 : FVec Ideal S64x8x512 .f32 :=
  broadcastInDim S64x8x512 ![0, 1, 2] bcast_S64x8x1_S64x8x512_0_1_2 (st_call1_v3 a0 a1 a2 a3)
def st_call1_v5 : FVec Ideal S64x8x512 .f32 := subf (st_v20 a0 a1 a2 a3) (st_call1_v4 a0 a1 a2 a3)
def st_call1_v6 : FVec Ideal S64x8x512 .f32 := mulf (st_call1_v5 a0 a1 a2 a3) (st_call1_v5 a0 a1 a2 a3)
def st_call1_v7 : FVec Ideal S_ .f32 := sitofp .f32 st_c
def st_call1_cst_1 : FVec Ideal S_ .f32 := constant S_ .f32 0x44000000#32
def st_call1_v8 : FVec Ideal S_ .f32 := subf st_call1_cst_1 st_call1_v7
def st_call1_cst_2 : FVec Ideal S_ .f32 := constant S_ .f32 0x00000000#32
def st_call1_v9 : FVec Ideal S64x8 .f32 :=
  Host.reduceAdd (st_call1_v6 a0 a1 a2 a3) st_call1_cst_2 reducesTo_S64x8x512_S64x8_d2 h_S_
def st_call1_v10 : FVec Ideal S64x8x1 .f32 :=
  broadcastInDim S64x8x1 ![0, 1] bcast_S64x8_S64x8x1_0_1 (st_call1_v9 a0 a1 a2 a3)
def st_call1_v11 : FVec Ideal S64x8x1 .f32 := broadcastInDim S64x8x1 ![] bcast_S_S64x8x1 st_call1_v8
def st_call1_v12 : FVec Ideal S64x8x1 .f32 := Host.divf (st_call1_v10 a0 a1 a2 a3) st_call1_v11
def st_call1_cst_3 : FVec Ideal S_ .f32 := constant S_ .f32 0x00000000#32
def st_call1_v13 : IVec S_ 1 := cmpf .ogt st_call1_v8 st_call1_cst_3
def st_call1_cst_4 : FVec Ideal S_ .f32 := constant S_ .f32 0x7FC00000#32
def st_call1_call0_v0 : FVec Ideal S_ .f32 := id st_call1_cst_4
def st_call1_call0_v1 : FVec Ideal S64x8x1 .f32 := broadcastInDim S64x8x1 ![] bcast_S_S64x8x1 st_call1_call0_v0
def st_v25 : FVec Ideal S64x8x1 .f32 :=
  select (broadcastInDim S64x8x1 ![] bcast_S_S64x8x1 st_call1_v13) (st_call1_v12 a0 a1 a2 a3) st_call1_call0_v1

/-! ### The LayerNorm -/

def st_v26 : FVec Ideal S64x8x512 .f32 :=
  broadcastInDim S64x8x512 ![0, 1, 2] bcast_S64x8x1_S64x8x512_0_1_2 (st_v24 a0 a1 a2 a3)
def st_v27 : FVec Ideal S64x8x512 .f32 := subf (st_v20 a0 a1 a2 a3) (st_v26 a0 a1 a2 a3)
def st_v28 : FVec Ideal S1x1x512 .f32 := broadcastInDim S1x1x512 ![2] bcast_S512_S1x1x512_2 a4
def st_v29 : FVec Ideal S64x8x512 .f32 := broadcastInDim S64x8x512 ![0, 1, 2] bcast_S1x1x512_S64x8x512_0_1_2 (st_v28 a4)
def st_v30 : FVec Ideal S64x8x512 .f32 := mulf (st_v29 a4) (st_v27 a0 a1 a2 a3)
def st_cst_7 : FVec Ideal S_ .f32 := constant S_ .f32 0x3727C5AC#32
def st_v31 : FVec Ideal S64x8x1 .f32 := broadcastInDim S64x8x1 ![] bcast_S_S64x8x1 st_cst_7
def st_v32 : FVec Ideal S64x8x1 .f32 := addf (st_v25 a0 a1 a2 a3) st_v31
def st_v33 : FVec Ideal S64x8x1 .f32 := Host.sqrt (st_v32 a0 a1 a2 a3)
def st_v34 : FVec Ideal S64x8x512 .f32 :=
  broadcastInDim S64x8x512 ![0, 1, 2] bcast_S64x8x1_S64x8x512_0_1_2 (st_v33 a0 a1 a2 a3)
def st_v35 : FVec Ideal S64x8x512 .f32 := Host.divf (st_v30 a0 a1 a2 a3 a4) (st_v34 a0 a1 a2 a3)
def st_v36 : FVec Ideal S1x1x512 .f32 := broadcastInDim S1x1x512 ![2] bcast_S512_S1x1x512_2 a5
def st_v37 : FVec Ideal S64x8x512 .f32 := broadcastInDim S64x8x512 ![0, 1, 2] bcast_S1x1x512_S64x8x512_0_1_2 (st_v36 a5)
def st_v38 : FVec Ideal S64x8x512 .f32 := addf (st_v35 a0 a1 a2 a3 a4) (st_v37 a5)

/-! ### The hidden layer and its SiLU -/

def st_v39 : FVec Ideal S64x8x512 .f32 :=
  Host.dotGeneral dot_S64x8x512_S512x512_S64x8x512_2_0_01_1_n_n none (st_v38 a0 a1 a2 a3 a4 a5) a6
def st_v40 : FVec Ideal S1x1x512 .f32 := broadcastInDim S1x1x512 ![2] bcast_S512_S1x1x512_2 a7
def st_v41 : FVec Ideal S64x8x512 .f32 := broadcastInDim S64x8x512 ![0, 1, 2] bcast_S1x1x512_S64x8x512_0_1_2 (st_v40 a7)
def st_v42 : FVec Ideal S64x8x512 .f32 := addf (st_v39 a0 a1 a2 a3 a4 a5 a6) (st_v41 a7)
def st_v43 : FVec Ideal S64x8x512 .f32 := Host.negf (st_v42 a0 a1 a2 a3 a4 a5 a6 a7)
def st_v44 : FVec Ideal S64x8x512 .f32 := Host.exp (st_v43 a0 a1 a2 a3 a4 a5 a6 a7)
def st_cst_8 : FVec Ideal S_ .f32 := constant S_ .f32 0x3F800000#32
def st_v45 : FVec Ideal S64x8x512 .f32 := broadcastInDim S64x8x512 ![] bcast_S_S64x8x512 st_cst_8
def st_v46 : FVec Ideal S64x8x512 .f32 := addf st_v45 (st_v44 a0 a1 a2 a3 a4 a5 a6 a7)
def st_cst_9 : FVec Ideal S_ .f32 := constant S_ .f32 0x3F800000#32
def st_v47 : FVec Ideal S64x8x512 .f32 := broadcastInDim S64x8x512 ![] bcast_S_S64x8x512 st_cst_9
def st_v48 : FVec Ideal S64x8x512 .f32 := Host.divf st_v47 (st_v46 a0 a1 a2 a3 a4 a5 a6 a7)
def st_v49 : FVec Ideal S64x8x512 .f32 := mulf (st_v42 a0 a1 a2 a3 a4 a5 a6 a7) (st_v48 a0 a1 a2 a3 a4 a5 a6 a7)

/-! ### The gate logit, its sigmoid, and the hard gate -/

def st_v50 : FVec Ideal S64x8x1 .f32 :=
  Host.dotGeneral dot_S64x8x512_S512x1_S64x8x1_2_0_01_1_n_n none (st_v49 a0 a1 a2 a3 a4 a5 a6 a7) a8
def st_v51 : FVec Ideal S1x1x1 .f32 := broadcastInDim S1x1x1 ![2] bcast_S1_S1x1x1_2 a9
def st_v52 : FVec Ideal S64x8x1 .f32 := broadcastInDim S64x8x1 ![0, 1, 2] bcast_S1x1x1_S64x8x1_0_1_2 (st_v51 a9)
def st_v53 : FVec Ideal S64x8x1 .f32 := addf (st_v50 a0 a1 a2 a3 a4 a5 a6 a7 a8) (st_v52 a9)
def st_v54 : FVec Ideal S64x8x1 .f32 := Host.negf (st_v53 a0 a1 a2 a3 a4 a5 a6 a7 a8 a9)
def st_v55 : FVec Ideal S64x8x1 .f32 := Host.exp (st_v54 a0 a1 a2 a3 a4 a5 a6 a7 a8 a9)
def st_cst_10 : FVec Ideal S_ .f32 := constant S_ .f32 0x3F800000#32
def st_v56 : FVec Ideal S64x8x1 .f32 := broadcastInDim S64x8x1 ![] bcast_S_S64x8x1 st_cst_10
def st_v57 : FVec Ideal S64x8x1 .f32 := addf st_v56 (st_v55 a0 a1 a2 a3 a4 a5 a6 a7 a8 a9)
def st_cst_11 : FVec Ideal S_ .f32 := constant S_ .f32 0x3F800000#32
def st_v58 : FVec Ideal S64x8x1 .f32 := broadcastInDim S64x8x1 ![] bcast_S_S64x8x1 st_cst_11
def st_v59 : FVec Ideal S64x8x1 .f32 := Host.divf st_v58 (st_v57 a0 a1 a2 a3 a4 a5 a6 a7 a8 a9)
def st_cst_12 : FVec Ideal S_ .f32 := constant S_ .f32 0x3F000000#32
def st_v60 : FVec Ideal S64x8x1 .f32 := broadcastInDim S64x8x1 ![] bcast_S_S64x8x1 st_cst_12
def st_v61 : IVec S64x8x1 1 := cmpf .ogt (st_v59 a0 a1 a2 a3 a4 a5 a6 a7 a8 a9) st_v60
def st_v62 : FVec Ideal S64x8x1 .f32 := uitofp .f32 (st_v61 a0 a1 a2 a3 a4 a5 a6 a7 a8 a9)

/-! ### The output: x + gate · (context · W_from + b_from) -/

def st_v63 : FVec Ideal S64x8x1024 .f32 :=
  Host.dotGeneral dot_S64x8x256_S256x1024_S64x8x1024_2_0_01_1_n_n none (st_v19 a0 a1 a2 a3) a10
def st_v64 : FVec Ideal S1x1x1024 .f32 := broadcastInDim S1x1x1024 ![2] bcast_S1024_S1x1x1024_2 a11
def st_v65 : FVec Ideal S64x8x1024 .f32 :=
  broadcastInDim S64x8x1024 ![0, 1, 2] bcast_S1x1x1024_S64x8x1024_0_1_2 (st_v64 a11)
def st_v66 : FVec Ideal S64x8x1024 .f32 := addf (st_v63 a0 a1 a2 a3 a10) (st_v65 a11)
def st_v67 : FVec Ideal S64x8x1024 .f32 :=
  broadcastInDim S64x8x1024 ![0, 1, 2] bcast_S64x8x1_S64x8x1024_0_1_2 (st_v62 a0 a1 a2 a3 a4 a5 a6 a7 a8 a9)
def st_v68 : FVec Ideal S64x8x1024 .f32 := mulf (st_v67 a0 a1 a2 a3 a4 a5 a6 a7 a8 a9) (st_v66 a0 a1 a2 a3 a10 a11)
def st_v69 : FVec Ideal S64x8x1024 .f32 := addf a0 (st_v68 a0 a1 a2 a3 a4 a5 a6 a7 a8 a9 a10 a11)

end stages

/-- The value of the result buffer: the printed program's last value on the twelve argument arrays. -/
def refOut (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (a6 : FVec Ideal S512x512 .f32)
    (a7 : FVec Ideal S512 .f32) (a8 : FVec Ideal S512x1 .f32) (a9 : FVec Ideal S1 .f32) (a10 : FVec Ideal S256x1024 .f32)
    (a11 : FVec Ideal S1024 .f32) : FVec Ideal S64x8x1024 .f32 :=
  st_v69 a0 a1 a2 a3 a4 a5 a6 a7 a8 a9 a10 a11

end Cert.ReferenceIdeal.RefValue

end
-- ==== Proof.RefRunOps.lean ====
/-
  The reference program's @main as one straight line of host operations: the printed statements in
  order, each module-local function's body written out at its call site over that call's buffers
  (the clamp of the scores; the variance of the layer normalization with its select inside).
  The line is kept in the program's two windows; the program is their sequencing one after the other,
  and every operation touches tensor-value buffers only.
-/
import proofs.«150437_g8143257993987_cont_9to1c4b_560_12_alg».proof.ReferenceIdeal
import proofs.«150437_g8143257993987_cont_9to1c4b_560_12_alg».proof.Proof.Gen.ReferenceIdeal
import Idealize.ShloMosaic.Lib.StableHlo.Run

noncomputable section

namespace Cert.ReferenceIdeal.RefValue

open Idealize.ShloMosaic Idealize.ShloMosaic.TcCoe Idealize.SL.Sem Cert.ReferenceIdeal Idealize.ShloMosaic.StableHlo
open Cert.ReferenceIdeal.Facts₀ Cert.ReferenceIdeal.Facts

variable [Cert.ReferenceIdeal.Facts]
variable {F : FTy → Type} [FloatOps F]

/-- The first window's 87 operations, in order: its sixty statements with the two calls written out
    (six operations for the clamp; twenty-four for the variance, the last three its select). -/
abbrev ops0 : List (HloOp τ sig (Elt F)) :=
  [ StableHlo.binary main_arg0 main_arg2 main_v0 ((fun l r => Host.dotGeneral dot_S64x8x1024_S1024x256_S64x8x256_2_0_01_1_n_n none l r) : (⟨S64x8x1024, .f32⟩ : BufTy).Contents (Elt F) → (⟨S1024x256, .f32⟩ : BufTy).Contents (Elt F) → (⟨S64x8x256, .f32⟩ : BufTy).Contents (Elt F)),
    StableHlo.unary main_arg3 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S64x8x256 ![0, 1, 2] bcast_S1x1x256_S64x8x256_0_1_2 : (⟨S1x1x256, .f32⟩ : BufTy).Contents (Elt F) → (⟨S64x8x256, .f32⟩ : BufTy).Contents (Elt F)),
    StableHlo.binary main_v0 main_v2 main_v3 (addf : (⟨S64x8x256, .f32⟩ : BufTy).Contents (Elt F) → (⟨S64x8x256, .f32⟩ : BufTy).Contents (Elt F) → (⟨S64x8x256, .f32⟩ : BufTy).Contents (Elt F)),
    StableHlo.binary main_v3 main_arg1 main_v4 ((fun l r => Host.dotGeneral dot_S64x8x256_S64x4096x256_S64x8x4096_2_2_1_1_0_0 none l r) : (⟨S64x8x256, .f32⟩ : BufTy).Contents (Elt F) → (⟨S64x4096x256, .f32⟩ : BufTy).Contents (Elt F) → (⟨S64x8x4096, .f32⟩ : BufTy).Contents (Elt F)),
    StableHlo.nullary main_cst (constant S_ .f32 0x41800000#32),
    StableHlo.unary main_cst main_v5 (broadcastInDim S64x8x4096 ![] bcast_S_S64x8x4096 : (⟨S_, .f32⟩ : BufTy).Contents (Elt F) → (⟨S64x8x4096, .f32⟩ : BufTy).Contents (Elt F)),
    StableHlo.binary main_v4 main_v5 main_v6 (Host.divf : (⟨S64x8x4096, .f32⟩ : BufTy).Contents (Elt F) → (⟨S64x8x4096, .f32⟩ : BufTy).Contents (Elt F) → (⟨S64x8x4096, .f32⟩ : BufTy).Contents (Elt F)),
    StableHlo.nullary main_cst_0 (constant S_ .f32 0xC1A00000#32),
    StableHlo.nullary main_cst_1 (constant S_ .f32 0x41A00000#32),
    StableHlo.TRef.unary (.of main_cst_0 : StableHlo.TRef sig ⟨S_, .f32⟩) main_call0.v0 id,
    StableHlo.TRef.unary main_call0.v0 main_call0.v1 (broadcastInDim S64x8x4096 ![] bcast_S_S64x8x4096),
    StableHlo.TRef.binary main_call0.v1 (.of main_v6 : StableHlo.TRef sig ⟨S64x8x4096, .f32⟩) main_call0.v2 maximumf,
    StableHlo.TRef.unary (.of main_cst_1 : StableHlo.TRef sig ⟨S_, .f32⟩) main_call0.v3 id,
    StableHlo.TRef.unary main_call0.v3 main_call0.v4 (broadcastInDim S64x8x4096 ![] bcast_S_S64x8x4096),
    StableHlo.TRef.binary main_call0.v4 main_call0.v2 main_call0.v5 minimumf,
    StableHlo.nullary main_cst_2 (constant S_ .f32 0xFF800000#32),
    StableHlo.binary main_v7 main_cst_2 main_v8 ((fun x v => Host.reduce FloatOps.maximumf x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    StableHlo.nullary main_cst_3 (constant S_ .f32 0xFF800000#32),
    StableHlo.unary main_cst_3 main_v9 (broadcastInDim S64x8 ![] bcast_S_S64x8 : (⟨S_, .f32⟩ : BufTy).Contents (Elt F) → (⟨S64x8, .f32⟩ : BufTy).Contents (Elt F)),
    StableHlo.binary main_v9 main_v8 main_v10 (maximumf : (⟨S64x8, .f32⟩ : BufTy).Contents (Elt F) → (⟨S64x8, .f32⟩ : BufTy).Contents (Elt F) → (⟨S64x8, .f32⟩ : BufTy).Contents (Elt F)),
    StableHlo.unary main_v10 main_v11 (broadcastInDim S64x8x1 ![0, 1] bcast_S64x8_S64x8x1_0_1 : (⟨S64x8, .f32⟩ : BufTy).Contents (Elt F) → (⟨S64x8x1, .f32⟩ : BufTy).Contents (Elt F)),
    StableHlo.unary main_v11 main_v12 (broadcastInDim S64x8x4096 ![0, 1, 2] bcast_S64x8x1_S64x8x4096_0_1_2 : (⟨S64x8x1, .f32⟩ : BufTy).Contents (Elt F) → (⟨S64x8x4096, .f32⟩ : BufTy).Contents (Elt F)),
    StableHlo.binary main_v7 main_v12 main_v13 (subf : (⟨S64x8x4096, .f32⟩ : BufTy).Contents (Elt F) → (⟨S64x8x4096, .f32⟩ : BufTy).Contents (Elt F) → (⟨S64x8x4096, .f32⟩ : BufTy).Contents (Elt F)),
    StableHlo.unary main_v13 main_v14 (Host.exp : (⟨S64x8x4096, .f32⟩ : BufTy).Contents (Elt F) → (⟨S64x8x4096, .f32⟩ : BufTy).Contents (Elt F)),
    StableHlo.nullary main_cst_4 (constant S_ .f32 0x00000000#32),
    StableHlo.binary main_v14 main_cst_4 main_v15 ((fun x v => Host.reduceAdd x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    StableHlo.unary main_v15 main_v16 (broadcastInDim S64x8x1 ![0, 1] bcast_S64x8_S64x8x1_0_1 : (⟨S64x8, .f32⟩ : BufTy).Contents (Elt F) → (⟨S64x8x1, .f32⟩ : BufTy).Contents (Elt F)),
    StableHlo.unary main_v16 main_v17 (broadcastInDim S64x8x4096 ![0, 1, 2] bcast_S64x8x1_S64x8x4096_0_1_2 : (⟨S64x8x1, .f32⟩ : BufTy).Contents (Elt F) → (⟨S64x8x4096, .f32⟩ : BufTy).Contents (Elt F)),
    StableHlo.binary main_v14 main_v17 main_v18 (Host.divf : (⟨S64x8x4096, .f32⟩ : BufTy).Contents (Elt F) → (⟨S64x8x4096, .f32⟩ : BufTy).Contents (Elt F) → (⟨S64x8x4096, .f32⟩ : BufTy).Contents (Elt F)),
    StableHlo.binary main_v18 main_arg1 main_v19 ((fun l r => Host.dotGeneral dot_S64x8x4096_S64x4096x256_S64x8x256_2_1_1_2_0_0 none l r) : (⟨S64x8x4096, .f32⟩ : BufTy).Contents (Elt F) → (⟨S64x4096x256, .f32⟩ : BufTy).Contents (Elt F) → (⟨S64x8x256, .f32⟩ : BufTy).Contents (Elt F)),
    StableHlo.binary main_v3 main_v19 main_v20 ((fun a b => concatenate S64x8x512 2 [⟨S64x8x256, a⟩, ⟨S64x8x256, b⟩] concatenates_S64x8x256_S64x8x256_S64x8x512_d2) : (⟨S64x8x256, .f32⟩ : BufTy).Contents (Elt F) → (⟨S64x8x256, .f32⟩ : BufTy).Contents (Elt F) → (⟨S64x8x512, .f32⟩ : BufTy).Contents (Elt F)),
    StableHlo.nullary main_cst_5 (constant S_ .f32 0x00000000#32),
    StableHlo.binary main_v20 main_cst_5 main_v21 ((fun x v => Host.reduceAdd x v reducesTo_S64x8x512_S64x8_d2 h_S_) : (⟨S64x8x512, .f32⟩ : BufTy).Contents (Elt F) → (⟨S_, .f32⟩ : BufTy).Contents (Elt F) → (⟨S64x8, .f32⟩ : BufTy).Contents (Elt F)),
    StableHlo.unary main_v21 main_v22 (broadcastInDim S64x8x1 ![0, 1] bcast_S64x8_S64x8x1_0_1 : (⟨S64x8, .f32⟩ : BufTy).Contents (Elt F) → (⟨S64x8x1, .f32⟩ : BufTy).Contents (Elt F)),
    StableHlo.nullary main_cst_6 (constant S_ .f32 0x44000000#32),
    StableHlo.unary main_cst_6 main_v23 (broadcastInDim S64x8x1 ![] bcast_S_S64x8x1 : (⟨S_, .f32⟩ : BufTy).Contents (Elt F) → (⟨S64x8x1, .f32⟩ : BufTy).Contents (Elt F)),
    StableHlo.binary main_v22 main_v23 main_v24 (Host.divf : (⟨S64x8x1, .f32⟩ : BufTy).Contents (Elt F) → (⟨S64x8x1, .f32⟩ : BufTy).Contents (Elt F) → (⟨S64x8x1, .f32⟩ : BufTy).Contents (Elt F)),
    StableHlo.nullary main_c (constantI S_ 32 0#32),
    StableHlo.TRef.nullary main_call1.cst (constant S_ .f32 0x00000000#32),
    StableHlo.TRef.binary (.of main_v20 : StableHlo.TRef sig ⟨S64x8x512, .f32⟩) main_call1.cst main_call1.v0 (fun x v => Host.reduceAdd x v reducesTo_S64x8x512_S64x8_d2 h_S_),
    StableHlo.TRef.unary main_call1.v0 main_call1.v1 (broadcastInDim S64x8x1 ![0, 1] bcast_S64x8_S64x8x1_0_1),
    StableHlo.TRef.nullary main_call1.cst_0 (constant S_ .f32 0x44000000#32),
    StableHlo.TRef.unary main_call1.cst_0 main_call1.v2 (broadcastInDim S64x8x1 ![] bcast_S_S64x8x1),
    StableHlo.TRef.binary main_call1.v1 main_call1.v2 main_call1.v3 Host.divf,
    StableHlo.TRef.unary main_call1.v3 main_call1.v4 (broadcastInDim S64x8x512 ![0, 1, 2] bcast_S64x8x1_S64x8x512_0_1_2),
    StableHlo.TRef.binary (.of main_v20 : StableHlo.TRef sig ⟨S64x8x512, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x44000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S64x8x512_S64x8_d2 h_S_),
    StableHlo.TRef.unary main_call1.v9 main_call1.v10 (broadcastInDim S64x8x1 ![0, 1] bcast_S64x8_S64x8x1_0_1),
    StableHlo.TRef.unary main_call1.v8 main_call1.v11 (broadcastInDim S64x8x1 ![] bcast_S_S64x8x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64x8x1 ![] bcast_S_S64x8x1),
    StableHlo.TRef.ternary main_call1.v13 main_call1.v12 main_call1.call0.v1 main_call1.call0.v2 (fun p a b => select (broadcastInDim S64x8x1 ![] bcast_S_S64x8x1 p) a b),
    StableHlo.unary main_v24 main_v26 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v20 main_v26 main_v27 (subf : (⟨S64x8x512, .f32⟩ : BufTy).Contents (Elt F) → (⟨S64x8x512, .f32⟩ : BufTy).Contents (Elt F) → (⟨S64x8x512, .f32⟩ : BufTy).Contents (Elt F)),
    StableHlo.unary main_arg4 main_v28 (broadcastInDim S1x1x512 ![2] bcast_S512_S1x1x512_2 : (⟨S512, .f32⟩ : BufTy).Contents (Elt F) → (⟨S1x1x512, .f32⟩ : BufTy).Contents (Elt F)),
    StableHlo.unary main_v28 main_v29 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v29 main_v27 main_v30 (mulf : (⟨S64x8x512, .f32⟩ : BufTy).Contents (Elt F) → (⟨S64x8x512, .f32⟩ : BufTy).Contents (Elt F) → (⟨S64x8x512, .f32⟩ : BufTy).Contents (Elt F)),
    StableHlo.nullary main_cst_7 (constant S_ .f32 0x3727C5AC#32),
    StableHlo.unary main_cst_7 main_v31 (broadcastInDim S64x8x1 ![] bcast_S_S64x8x1 : (⟨S_, .f32⟩ : BufTy).Contents (Elt F) → (⟨S64x8x1, .f32⟩ : BufTy).Contents (Elt F)),
    StableHlo.binary main_v25 main_v31 main_v32 (addf : (⟨S64x8x1, .f32⟩ : BufTy).Contents (Elt F) → (⟨S64x8x1, .f32⟩ : BufTy).Contents (Elt F) → (⟨S64x8x1, .f32⟩ : BufTy).Contents (Elt F)),
    StableHlo.unary main_v32 main_v33 (Host.sqrt : (⟨S64x8x1, .f32⟩ : BufTy).Contents (Elt F) → (⟨S64x8x1, .f32⟩ : BufTy).Contents (Elt F)),
    StableHlo.unary main_v33 main_v34 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v30 main_v34 main_v35 (Host.divf : (⟨S64x8x512, .f32⟩ : BufTy).Contents (Elt F) → (⟨S64x8x512, .f32⟩ : BufTy).Contents (Elt F) → (⟨S64x8x512, .f32⟩ : BufTy).Contents (Elt F)),
    StableHlo.unary main_arg5 main_v36 (broadcastInDim S1x1x512 ![2] bcast_S512_S1x1x512_2 : (⟨S512, .f32⟩ : BufTy).Contents (Elt F) → (⟨S1x1x512, .f32⟩ : BufTy).Contents (Elt F)),
    StableHlo.unary main_v36 main_v37 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v35 main_v37 main_v38 (addf : (⟨S64x8x512, .f32⟩ : BufTy).Contents (Elt F) → (⟨S64x8x512, .f32⟩ : BufTy).Contents (Elt F) → (⟨S64x8x512, .f32⟩ : BufTy).Contents (Elt F)),
    StableHlo.binary main_v38 main_arg6 main_v39 ((fun l r => Host.dotGeneral dot_S64x8x512_S512x512_S64x8x512_2_0_01_1_n_n none l r) : (⟨S64x8x512, .f32⟩ : BufTy).Contents (Elt F) → (⟨S512x512, .f32⟩ : BufTy).Contents (Elt F) → (⟨S64x8x512, .f32⟩ : BufTy).Contents (Elt F)),
    StableHlo.unary main_arg7 main_v40 (broadcastInDim S1x1x512 ![2] bcast_S512_S1x1x512_2 : (⟨S512, .f32⟩ : BufTy).Contents (Elt F) → (⟨S1x1x512, .f32⟩ : BufTy).Contents (Elt F)),
    StableHlo.unary main_v40 main_v41 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v39 main_v41 main_v42 (addf : (⟨S64x8x512, .f32⟩ : BufTy).Contents (Elt F) → (⟨S64x8x512, .f32⟩ : BufTy).Contents (Elt F) → (⟨S64x8x512, .f32⟩ : BufTy).Contents (Elt F)),
    StableHlo.unary main_v42 main_v43 (Host.negf : (⟨S64x8x512, .f32⟩ : BufTy).Contents (Elt F) → (⟨S64x8x512, .f32⟩ : BufTy).Contents (Elt F)),
    StableHlo.unary main_v43 main_v44 (Host.exp : (⟨S64x8x512, .f32⟩ : BufTy).Contents (Elt F) → (⟨S64x8x512, .f32⟩ : BufTy).Contents (Elt F)),
    StableHlo.nullary main_cst_8 (constant S_ .f32 0x3F800000#32),
    StableHlo.unary main_cst_8 main_v45 (broadcastInDim S64x8x512 ![] bcast_S_S64x8x512 : (⟨S_, .f32⟩ : BufTy).Contents (Elt F) → (⟨S64x8x512, .f32⟩ : BufTy).Contents (Elt F)),
    StableHlo.binary main_v45 main_v44 main_v46 (addf : (⟨S64x8x512, .f32⟩ : BufTy).Contents (Elt F) → (⟨S64x8x512, .f32⟩ : BufTy).Contents (Elt F) → (⟨S64x8x512, .f32⟩ : BufTy).Contents (Elt F)),
    StableHlo.nullary main_cst_9 (constant S_ .f32 0x3F800000#32),
    StableHlo.unary main_cst_9 main_v47 (broadcastInDim S64x8x512 ![] bcast_S_S64x8x512 : (⟨S_, .f32⟩ : BufTy).Contents (Elt F) → (⟨S64x8x512, .f32⟩ : BufTy).Contents (Elt F)) ]

/-- The second window's 25 operations, in order. -/
abbrev ops1 : List (HloOp τ sig (Elt F)) :=
  [ StableHlo.binary main_v47 main_v46 main_v48 (Host.divf : (⟨S64x8x512, .f32⟩ : BufTy).Contents (Elt F) → (⟨S64x8x512, .f32⟩ : BufTy).Contents (Elt F) → (⟨S64x8x512, .f32⟩ : BufTy).Contents (Elt F)),
    StableHlo.binary main_v42 main_v48 main_v49 (mulf : (⟨S64x8x512, .f32⟩ : BufTy).Contents (Elt F) → (⟨S64x8x512, .f32⟩ : BufTy).Contents (Elt F) → (⟨S64x8x512, .f32⟩ : BufTy).Contents (Elt F)),
    StableHlo.binary main_v49 main_arg8 main_v50 ((fun l r => Host.dotGeneral dot_S64x8x512_S512x1_S64x8x1_2_0_01_1_n_n none l r) : (⟨S64x8x512, .f32⟩ : BufTy).Contents (Elt F) → (⟨S512x1, .f32⟩ : BufTy).Contents (Elt F) → (⟨S64x8x1, .f32⟩ : BufTy).Contents (Elt F)),
    StableHlo.unary main_arg9 main_v51 (broadcastInDim S1x1x1 ![2] bcast_S1_S1x1x1_2 : (⟨S1, .f32⟩ : BufTy).Contents (Elt F) → (⟨S1x1x1, .f32⟩ : BufTy).Contents (Elt F)),
    StableHlo.unary main_v51 main_v52 (broadcastInDim S64x8x1 ![0, 1, 2] bcast_S1x1x1_S64x8x1_0_1_2 : (⟨S1x1x1, .f32⟩ : BufTy).Contents (Elt F) → (⟨S64x8x1, .f32⟩ : BufTy).Contents (Elt F)),
    StableHlo.binary main_v50 main_v52 main_v53 (addf : (⟨S64x8x1, .f32⟩ : BufTy).Contents (Elt F) → (⟨S64x8x1, .f32⟩ : BufTy).Contents (Elt F) → (⟨S64x8x1, .f32⟩ : BufTy).Contents (Elt F)),
    StableHlo.unary main_v53 main_v54 (Host.negf : (⟨S64x8x1, .f32⟩ : BufTy).Contents (Elt F) → (⟨S64x8x1, .f32⟩ : BufTy).Contents (Elt F)),
    StableHlo.unary main_v54 main_v55 (Host.exp : (⟨S64x8x1, .f32⟩ : BufTy).Contents (Elt F) → (⟨S64x8x1, .f32⟩ : BufTy).Contents (Elt F)),
    StableHlo.nullary main_cst_10 (constant S_ .f32 0x3F800000#32),
    StableHlo.unary main_cst_10 main_v56 (broadcastInDim S64x8x1 ![] bcast_S_S64x8x1 : (⟨S_, .f32⟩ : BufTy).Contents (Elt F) → (⟨S64x8x1, .f32⟩ : BufTy).Contents (Elt F)),
    StableHlo.binary main_v56 main_v55 main_v57 (addf : (⟨S64x8x1, .f32⟩ : BufTy).Contents (Elt F) → (⟨S64x8x1, .f32⟩ : BufTy).Contents (Elt F) → (⟨S64x8x1, .f32⟩ : BufTy).Contents (Elt F)),
    StableHlo.nullary main_cst_11 (constant S_ .f32 0x3F800000#32),
    StableHlo.unary main_cst_11 main_v58 (broadcastInDim S64x8x1 ![] bcast_S_S64x8x1 : (⟨S_, .f32⟩ : BufTy).Contents (Elt F) → (⟨S64x8x1, .f32⟩ : BufTy).Contents (Elt F)),
    StableHlo.binary main_v58 main_v57 main_v59 (Host.divf : (⟨S64x8x1, .f32⟩ : BufTy).Contents (Elt F) → (⟨S64x8x1, .f32⟩ : BufTy).Contents (Elt F) → (⟨S64x8x1, .f32⟩ : BufTy).Contents (Elt F)),
    StableHlo.nullary main_cst_12 (constant S_ .f32 0x3F000000#32),
    StableHlo.unary main_cst_12 main_v60 (broadcastInDim S64x8x1 ![] bcast_S_S64x8x1 : (⟨S_, .f32⟩ : BufTy).Contents (Elt F) → (⟨S64x8x1, .f32⟩ : BufTy).Contents (Elt F)),
    StableHlo.binary main_v59 main_v60 main_v61 (cmpf .ogt : (⟨S64x8x1, .f32⟩ : BufTy).Contents (Elt F) → (⟨S64x8x1, .f32⟩ : BufTy).Contents (Elt F) → (⟨S64x8x1, .i1⟩ : BufTy).Contents (Elt F)),
    StableHlo.unary main_v61 main_v62 (uitofp .f32 : (⟨S64x8x1, .i1⟩ : BufTy).Contents (Elt F) → (⟨S64x8x1, .f32⟩ : BufTy).Contents (Elt F)),
    StableHlo.binary main_v19 main_arg10 main_v63 ((fun l r => Host.dotGeneral dot_S64x8x256_S256x1024_S64x8x1024_2_0_01_1_n_n none l r) : (⟨S64x8x256, .f32⟩ : BufTy).Contents (Elt F) → (⟨S256x1024, .f32⟩ : BufTy).Contents (Elt F) → (⟨S64x8x1024, .f32⟩ : BufTy).Contents (Elt F)),
    StableHlo.unary main_arg11 main_v64 (broadcastInDim S1x1x1024 ![2] bcast_S1024_S1x1x1024_2 : (⟨S1024, .f32⟩ : BufTy).Contents (Elt F) → (⟨S1x1x1024, .f32⟩ : BufTy).Contents (Elt F)),
    StableHlo.unary main_v64 main_v65 (broadcastInDim S64x8x1024 ![0, 1, 2] bcast_S1x1x1024_S64x8x1024_0_1_2 : (⟨S1x1x1024, .f32⟩ : BufTy).Contents (Elt F) → (⟨S64x8x1024, .f32⟩ : BufTy).Contents (Elt F)),
    StableHlo.binary main_v63 main_v65 main_v66 (addf : (⟨S64x8x1024, .f32⟩ : BufTy).Contents (Elt F) → (⟨S64x8x1024, .f32⟩ : BufTy).Contents (Elt F) → (⟨S64x8x1024, .f32⟩ : BufTy).Contents (Elt F)),
    StableHlo.unary main_v62 main_v67 (broadcastInDim S64x8x1024 ![0, 1, 2] bcast_S64x8x1_S64x8x1024_0_1_2 : (⟨S64x8x1, .f32⟩ : BufTy).Contents (Elt F) → (⟨S64x8x1024, .f32⟩ : BufTy).Contents (Elt F)),
    StableHlo.binary main_v67 main_v66 main_v68 (mulf : (⟨S64x8x1024, .f32⟩ : BufTy).Contents (Elt F) → (⟨S64x8x1024, .f32⟩ : BufTy).Contents (Elt F) → (⟨S64x8x1024, .f32⟩ : BufTy).Contents (Elt F)),
    StableHlo.binary main_arg0 main_v68 main_v69 (addf : (⟨S64x8x1024, .f32⟩ : BufTy).Contents (Elt F) → (⟨S64x8x1024, .f32⟩ : BufTy).Contents (Elt F) → (⟨S64x8x1024, .f32⟩ : BufTy).Contents (Elt F)) ]

/-- @main's 112 operations: the two windows, one after the other. -/
abbrev ops : List (HloOp τ sig (Elt F)) := ops0 ++ ops1

/-- The contents after two lines run one after the other: the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
set_option maxHeartbeats 1000000 in
/-- The first window is its line: the called bodies unfold at their calls, and sequencing is reassociated
    into one chain of steps. -/
theorem part0_eq (c : Dev nD) : main_part0 (F := F) c = seq ops0 := by
  simp only [main_part0, fn_clip.body, fn_var.body, fn_where.body, seq, bind_assoc, pure_bind]
  rfl

set_option maxRecDepth 8192 in
/-- The second window is its line, by computation. -/
theorem part1_eq (c : Dev nD) : main_part1 (F := F) c = seq ops1 := rfl

/-- @main is the straight line of all its operations. -/
theorem main_eq (c : Dev nD) : main (F := F) c = seq ops := by
  rw [show (ops : List (HloOp τ sig (Elt F))) = ops0 ++ ops1 from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub ..⟩

theorem ops1_sub : (ops1 : List (HloOp τ sig (Elt F))).Forall fun op => op.bufs ⊆ tcRefs τ sig :=
  ⟨binary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., unary_bufs_sub .., binary_bufs_sub ..,
    binary_bufs_sub ..⟩

theorem ops_sub : (ops : List (HloOp τ sig (Elt F))).Forall fun op => op.bufs ⊆ tcRefs τ sig :=
  List.forall_append.mpr ⟨ops0_sub, ops1_sub⟩

end Cert.ReferenceIdeal.RefValue

end
-- ==== Proof.RefRunFlat.lean ====
/-
  The program's operations once more, each over the plain buffers of the call records and with its function
  stated at the buffers' own types (a typed reference made from a literal buffer moves contents along an
  equation that is the identity), cut into three consecutive lines: up to the context; from the concatenation
  of the query and the context up to the hidden layer; the rest. The whole line is their concatenation.
-/
import proofs.«150437_g8143257993987_cont_9to1c4b_560_12_alg».proof.ReferenceIdeal
import proofs.«150437_g8143257993987_cont_9to1c4b_560_12_alg».proof.Proof.Gen.ReferenceIdeal
import proofs.«150437_g8143257993987_cont_9to1c4b_560_12_alg».proof.Proof.RefRunOps
import Idealize.ShloMosaic.Lib.StableHlo.Run

noncomputable section

namespace Cert.ReferenceIdeal.RefValue

open Idealize.ShloMosaic Idealize.ShloMosaic.TcCoe Idealize.SL.Sem Cert.ReferenceIdeal Idealize.ShloMosaic.StableHlo
open Cert.ReferenceIdeal.Facts₀ Cert.ReferenceIdeal.Facts

variable [Cert.ReferenceIdeal.Facts]
variable {F : FTy → Type} [FloatOps F]

/-- The 31 operations up to the context (the query, the clipped scores, the softmax, the weighted sum). -/
abbrev opsA : List (HloOp τ sig (Elt F)) :=
  [ StableHlo.binary main_arg0 main_arg2 main_v0 ((fun l r => Host.dotGeneral dot_S64x8x1024_S1024x256_S64x8x256_2_0_01_1_n_n none l r) : (⟨S64x8x1024, .f32⟩ : BufTy).Contents (Elt F) → (⟨S1024x256, .f32⟩ : BufTy).Contents (Elt F) → (⟨S64x8x256, .f32⟩ : BufTy).Contents (Elt F)),
    StableHlo.unary main_arg3 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S64x8x256 ![0, 1, 2] bcast_S1x1x256_S64x8x256_0_1_2 : (⟨S1x1x256, .f32⟩ : BufTy).Contents (Elt F) → (⟨S64x8x256, .f32⟩ : BufTy).Contents (Elt F)),
    StableHlo.binary main_v0 main_v2 main_v3 (addf : (⟨S64x8x256, .f32⟩ : BufTy).Contents (Elt F) → (⟨S64x8x256, .f32⟩ : BufTy).Contents (Elt F) → (⟨S64x8x256, .f32⟩ : BufTy).Contents (Elt F)),
    StableHlo.binary main_v3 main_arg1 main_v4 ((fun l r => Host.dotGeneral dot_S64x8x256_S64x4096x256_S64x8x4096_2_2_1_1_0_0 none l r) : (⟨S64x8x256, .f32⟩ : BufTy).Contents (Elt F) → (⟨S64x4096x256, .f32⟩ : BufTy).Contents (Elt F) → (⟨S64x8x4096, .f32⟩ : BufTy).Contents (Elt F)),
    StableHlo.nullary main_cst (constant S_ .f32 0x41800000#32),
    StableHlo.unary main_cst main_v5 (broadcastInDim S64x8x4096 ![] bcast_S_S64x8x4096 : (⟨S_, .f32⟩ : BufTy).Contents (Elt F) → (⟨S64x8x4096, .f32⟩ : BufTy).Contents (Elt F)),
    StableHlo.binary main_v4 main_v5 main_v6 (Host.divf : (⟨S64x8x4096, .f32⟩ : BufTy).Contents (Elt F) → (⟨S64x8x4096, .f32⟩ : BufTy).Contents (Elt F) → (⟨S64x8x4096, .f32⟩ : BufTy).Contents (Elt F)),
    StableHlo.nullary main_cst_0 (constant S_ .f32 0xC1A00000#32),
    StableHlo.nullary main_cst_1 (constant S_ .f32 0x41A00000#32),
    StableHlo.unary main_cst_0 main_call0_v0 (id : (⟨S_, .f32⟩ : BufTy).Contents (Elt F) → (⟨S_, .f32⟩ : BufTy).Contents (Elt F)),
    StableHlo.unary main_call0_v0 main_call0_v1 (broadcastInDim S64x8x4096 ![] bcast_S_S64x8x4096 : (⟨S_, .f32⟩ : BufTy).Contents (Elt F) → (⟨S64x8x4096, .f32⟩ : BufTy).Contents (Elt F)),
    StableHlo.binary main_call0_v1 main_v6 main_call0_v2 (maximumf : (⟨S64x8x4096, .f32⟩ : BufTy).Contents (Elt F) → (⟨S64x8x4096, .f32⟩ : BufTy).Contents (Elt F) → (⟨S64x8x4096, .f32⟩ : BufTy).Contents (Elt F)),
    StableHlo.unary main_cst_1 main_call0_v3 (id : (⟨S_, .f32⟩ : BufTy).Contents (Elt F) → (⟨S_, .f32⟩ : BufTy).Contents (Elt F)),
    StableHlo.unary main_call0_v3 main_call0_v4 (broadcastInDim S64x8x4096 ![] bcast_S_S64x8x4096 : (⟨S_, .f32⟩ : BufTy).Contents (Elt F) → (⟨S64x8x4096, .f32⟩ : BufTy).Contents (Elt F)),
    StableHlo.binary main_call0_v4 main_call0_v2 main_v7 (minimumf : (⟨S64x8x4096, .f32⟩ : BufTy).Contents (Elt F) → (⟨S64x8x4096, .f32⟩ : BufTy).Contents (Elt F) → (⟨S64x8x4096, .f32⟩ : BufTy).Contents (Elt F)),
    StableHlo.nullary main_cst_2 (constant S_ .f32 0xFF800000#32),
    StableHlo.binary main_v7 main_cst_2 main_v8 ((fun x v => Host.reduce FloatOps.maximumf x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    StableHlo.nullary main_cst_3 (constant S_ .f32 0xFF800000#32),
    StableHlo.unary main_cst_3 main_v9 (broadcastInDim S64x8 ![] bcast_S_S64x8 : (⟨S_, .f32⟩ : BufTy).Contents (Elt F) → (⟨S64x8, .f32⟩ : BufTy).Contents (Elt F)),
    StableHlo.binary main_v9 main_v8 main_v10 (maximumf : (⟨S64x8, .f32⟩ : BufTy).Contents (Elt F) → (⟨S64x8, .f32⟩ : BufTy).Contents (Elt F) → (⟨S64x8, .f32⟩ : BufTy).Contents (Elt F)),
    StableHlo.unary main_v10 main_v11 (broadcastInDim S64x8x1 ![0, 1] bcast_S64x8_S64x8x1_0_1 : (⟨S64x8, .f32⟩ : BufTy).Contents (Elt F) → (⟨S64x8x1, .f32⟩ : BufTy).Contents (Elt F)),
    StableHlo.unary main_v11 main_v12 (broadcastInDim S64x8x4096 ![0, 1, 2] bcast_S64x8x1_S64x8x4096_0_1_2 : (⟨S64x8x1, .f32⟩ : BufTy).Contents (Elt F) → (⟨S64x8x4096, .f32⟩ : BufTy).Contents (Elt F)),
    StableHlo.binary main_v7 main_v12 main_v13 (subf : (⟨S64x8x4096, .f32⟩ : BufTy).Contents (Elt F) → (⟨S64x8x4096, .f32⟩ : BufTy).Contents (Elt F) → (⟨S64x8x4096, .f32⟩ : BufTy).Contents (Elt F)),
    StableHlo.unary main_v13 main_v14 (Host.exp : (⟨S64x8x4096, .f32⟩ : BufTy).Contents (Elt F) → (⟨S64x8x4096, .f32⟩ : BufTy).Contents (Elt F)),
    StableHlo.nullary main_cst_4 (constant S_ .f32 0x00000000#32),
    StableHlo.binary main_v14 main_cst_4 main_v15 ((fun x v => Host.reduceAdd x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    StableHlo.unary main_v15 main_v16 (broadcastInDim S64x8x1 ![0, 1] bcast_S64x8_S64x8x1_0_1 : (⟨S64x8, .f32⟩ : BufTy).Contents (Elt F) → (⟨S64x8x1, .f32⟩ : BufTy).Contents (Elt F)),
    StableHlo.unary main_v16 main_v17 (broadcastInDim S64x8x4096 ![0, 1, 2] bcast_S64x8x1_S64x8x4096_0_1_2 : (⟨S64x8x1, .f32⟩ : BufTy).Contents (Elt F) → (⟨S64x8x4096, .f32⟩ : BufTy).Contents (Elt F)),
    StableHlo.binary main_v14 main_v17 main_v18 (Host.divf : (⟨S64x8x4096, .f32⟩ : BufTy).Contents (Elt F) → (⟨S64x8x4096, .f32⟩ : BufTy).Contents (Elt F) → (⟨S64x8x4096, .f32⟩ : BufTy).Contents (Elt F)),
    StableHlo.binary main_v18 main_arg1 main_v19 ((fun l r => Host.dotGeneral dot_S64x8x4096_S64x4096x256_S64x8x256_2_1_1_2_0_0 none l r) : (⟨S64x8x4096, .f32⟩ : BufTy).Contents (Elt F) → (⟨S64x4096x256, .f32⟩ : BufTy).Contents (Elt F) → (⟨S64x8x256, .f32⟩ : BufTy).Contents (Elt F)) ]

/-- The 49 operations from the concatenation up to the hidden layer (the mean, the variance, the normalization,
    the first dense layer). -/
abbrev opsB : List (HloOp τ sig (Elt F)) :=
  [ StableHlo.binary main_v3 main_v19 main_v20 ((fun a b => concatenate S64x8x512 2 [⟨S64x8x256, a⟩, ⟨S64x8x256, b⟩] concatenates_S64x8x256_S64x8x256_S64x8x512_d2) : (⟨S64x8x256, .f32⟩ : BufTy).Contents (Elt F) → (⟨S64x8x256, .f32⟩ : BufTy).Contents (Elt F) → (⟨S64x8x512, .f32⟩ : BufTy).Contents (Elt F)),
    StableHlo.nullary main_cst_5 (constant S_ .f32 0x00000000#32),
    StableHlo.binary main_v20 main_cst_5 main_v21 ((fun x v => Host.reduceAdd x v reducesTo_S64x8x512_S64x8_d2 h_S_) : (⟨S64x8x512, .f32⟩ : BufTy).Contents (Elt F) → (⟨S_, .f32⟩ : BufTy).Contents (Elt F) → (⟨S64x8, .f32⟩ : BufTy).Contents (Elt F)),
    StableHlo.unary main_v21 main_v22 (broadcastInDim S64x8x1 ![0, 1] bcast_S64x8_S64x8x1_0_1 : (⟨S64x8, .f32⟩ : BufTy).Contents (Elt F) → (⟨S64x8x1, .f32⟩ : BufTy).Contents (Elt F)),
    StableHlo.nullary main_cst_6 (constant S_ .f32 0x44000000#32),
    StableHlo.unary main_cst_6 main_v23 (broadcastInDim S64x8x1 ![] bcast_S_S64x8x1 : (⟨S_, .f32⟩ : BufTy).Contents (Elt F) → (⟨S64x8x1, .f32⟩ : BufTy).Contents (Elt F)),
    StableHlo.binary main_v22 main_v23 main_v24 (Host.divf : (⟨S64x8x1, .f32⟩ : BufTy).Contents (Elt F) → (⟨S64x8x1, .f32⟩ : BufTy).Contents (Elt F) → (⟨S64x8x1, .f32⟩ : BufTy).Contents (Elt F)),
    StableHlo.nullary main_c (constantI S_ 32 0#32),
    StableHlo.nullary main_call1_cst (constant S_ .f32 0x00000000#32 : (⟨S_, .f32⟩ : BufTy).Contents (Elt F)),
    StableHlo.binary main_v20 main_call1_cst main_call1_v0 ((fun x v => Host.reduceAdd x v reducesTo_S64x8x512_S64x8_d2 h_S_) : (⟨S64x8x512, .f32⟩ : BufTy).Contents (Elt F) → (⟨S_, .f32⟩ : BufTy).Contents (Elt F) → (⟨S64x8, .f32⟩ : BufTy).Contents (Elt F)),
    StableHlo.unary main_call1_v0 main_call1_v1 (broadcastInDim S64x8x1 ![0, 1] bcast_S64x8_S64x8x1_0_1 : (⟨S64x8, .f32⟩ : BufTy).Contents (Elt F) → (⟨S64x8x1, .f32⟩ : BufTy).Contents (Elt F)),
    StableHlo.nullary main_call1_cst_0 (constant S_ .f32 0x44000000#32 : (⟨S_, .f32⟩ : BufTy).Contents (Elt F)),
    StableHlo.unary main_call1_cst_0 main_call1_v2 (broadcastInDim S64x8x1 ![] bcast_S_S64x8x1 : (⟨S_, .f32⟩ : BufTy).Contents (Elt F) → (⟨S64x8x1, .f32⟩ : BufTy).Contents (Elt F)),
    StableHlo.binary main_call1_v1 main_call1_v2 main_call1_v3 (Host.divf : (⟨S64x8x1, .f32⟩ : BufTy).Contents (Elt F) → (⟨S64x8x1, .f32⟩ : BufTy).Contents (Elt F) → (⟨S64x8x1, .f32⟩ : BufTy).Contents (Elt F)),
    StableHlo.unary main_call1_v3 main_call1_v4 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v20 main_call1_v4 main_call1_v5 (subf : (⟨S64x8x512, .f32⟩ : BufTy).Contents (Elt F) → (⟨S64x8x512, .f32⟩ : BufTy).Contents (Elt F) → (⟨S64x8x512, .f32⟩ : BufTy).Contents (Elt F)),
    StableHlo.binary main_call1_v5 main_call1_v5 main_call1_v6 (mulf : (⟨S64x8x512, .f32⟩ : BufTy).Contents (Elt F) → (⟨S64x8x512, .f32⟩ : BufTy).Contents (Elt F) → (⟨S64x8x512, .f32⟩ : BufTy).Contents (Elt F)),
    StableHlo.unary main_c main_call1_v7 (sitofp .f32 : (⟨S_, .i32⟩ : BufTy).Contents (Elt F) → (⟨S_, .f32⟩ : BufTy).Contents (Elt F)),
    StableHlo.nullary main_call1_cst_1 (constant S_ .f32 0x44000000#32 : (⟨S_, .f32⟩ : BufTy).Contents (Elt F)),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32 : (⟨S_, .f32⟩ : BufTy).Contents (Elt F)),
    StableHlo.binary main_call1_v6 main_call1_cst_2 main_call1_v9 ((fun x v => Host.reduceAdd x v reducesTo_S64x8x512_S64x8_d2 h_S_) : (⟨S64x8x512, .f32⟩ : BufTy).Contents (Elt F) → (⟨S_, .f32⟩ : BufTy).Contents (Elt F) → (⟨S64x8, .f32⟩ : BufTy).Contents (Elt F)),
    StableHlo.unary main_call1_v9 main_call1_v10 (broadcastInDim S64x8x1 ![0, 1] bcast_S64x8_S64x8x1_0_1 : (⟨S64x8, .f32⟩ : BufTy).Contents (Elt F) → (⟨S64x8x1, .f32⟩ : BufTy).Contents (Elt F)),
    StableHlo.unary main_call1_v8 main_call1_v11 (broadcastInDim S64x8x1 ![] bcast_S_S64x8x1 : (⟨S_, .f32⟩ : BufTy).Contents (Elt F) → (⟨S64x8x1, .f32⟩ : BufTy).Contents (Elt F)),
    StableHlo.binary main_call1_v10 main_call1_v11 main_call1_v12 (Host.divf : (⟨S64x8x1, .f32⟩ : BufTy).Contents (Elt F) → (⟨S64x8x1, .f32⟩ : BufTy).Contents (Elt F) → (⟨S64x8x1, .f32⟩ : BufTy).Contents (Elt F)),
    StableHlo.nullary main_call1_cst_3 (constant S_ .f32 0x00000000#32 : (⟨S_, .f32⟩ : BufTy).Contents (Elt F)),
    StableHlo.binary main_call1_v8 main_call1_cst_3 main_call1_v13 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32 : (⟨S_, .f32⟩ : BufTy).Contents (Elt F)),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S64x8x1 ![] bcast_S_S64x8x1 : (⟨S_, .f32⟩ : BufTy).Contents (Elt F) → (⟨S64x8x1, .f32⟩ : BufTy).Contents (Elt F)),
    StableHlo.ternary main_call1_v13 main_call1_v12 main_call1_call0_v1 main_v25 ((fun p a b => select (broadcastInDim S64x8x1 ![] bcast_S_S64x8x1 p) a b) : (⟨S_, .i1⟩ : BufTy).Contents (Elt F) → (⟨S64x8x1, .f32⟩ : BufTy).Contents (Elt F) → (⟨S64x8x1, .f32⟩ : BufTy).Contents (Elt F) → (⟨S64x8x1, .f32⟩ : BufTy).Contents (Elt F)),
    StableHlo.unary main_v24 main_v26 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v20 main_v26 main_v27 (subf : (⟨S64x8x512, .f32⟩ : BufTy).Contents (Elt F) → (⟨S64x8x512, .f32⟩ : BufTy).Contents (Elt F) → (⟨S64x8x512, .f32⟩ : BufTy).Contents (Elt F)),
    StableHlo.unary main_arg4 main_v28 (broadcastInDim S1x1x512 ![2] bcast_S512_S1x1x512_2 : (⟨S512, .f32⟩ : BufTy).Contents (Elt F) → (⟨S1x1x512, .f32⟩ : BufTy).Contents (Elt F)),
    StableHlo.unary main_v28 main_v29 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v29 main_v27 main_v30 (mulf : (⟨S64x8x512, .f32⟩ : BufTy).Contents (Elt F) → (⟨S64x8x512, .f32⟩ : BufTy).Contents (Elt F) → (⟨S64x8x512, .f32⟩ : BufTy).Contents (Elt F)),
    StableHlo.nullary main_cst_7 (constant S_ .f32 0x3727C5AC#32),
    StableHlo.unary main_cst_7 main_v31 (broadcastInDim S64x8x1 ![] bcast_S_S64x8x1 : (⟨S_, .f32⟩ : BufTy).Contents (Elt F) → (⟨S64x8x1, .f32⟩ : BufTy).Contents (Elt F)),
    StableHlo.binary main_v25 main_v31 main_v32 (addf : (⟨S64x8x1, .f32⟩ : BufTy).Contents (Elt F) → (⟨S64x8x1, .f32⟩ : BufTy).Contents (Elt F) → (⟨S64x8x1, .f32⟩ : BufTy).Contents (Elt F)),
    StableHlo.unary main_v32 main_v33 (Host.sqrt : (⟨S64x8x1, .f32⟩ : BufTy).Contents (Elt F) → (⟨S64x8x1, .f32⟩ : BufTy).Contents (Elt F)),
    StableHlo.unary main_v33 main_v34 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v30 main_v34 main_v35 (Host.divf : (⟨S64x8x512, .f32⟩ : BufTy).Contents (Elt F) → (⟨S64x8x512, .f32⟩ : BufTy).Contents (Elt F) → (⟨S64x8x512, .f32⟩ : BufTy).Contents (Elt F)),
    StableHlo.unary main_arg5 main_v36 (broadcastInDim S1x1x512 ![2] bcast_S512_S1x1x512_2 : (⟨S512, .f32⟩ : BufTy).Contents (Elt F) → (⟨S1x1x512, .f32⟩ : BufTy).Contents (Elt F)),
    StableHlo.unary main_v36 main_v37 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v35 main_v37 main_v38 (addf : (⟨S64x8x512, .f32⟩ : BufTy).Contents (Elt F) → (⟨S64x8x512, .f32⟩ : BufTy).Contents (Elt F) → (⟨S64x8x512, .f32⟩ : BufTy).Contents (Elt F)),
    StableHlo.binary main_v38 main_arg6 main_v39 ((fun l r => Host.dotGeneral dot_S64x8x512_S512x512_S64x8x512_2_0_01_1_n_n none l r) : (⟨S64x8x512, .f32⟩ : BufTy).Contents (Elt F) → (⟨S512x512, .f32⟩ : BufTy).Contents (Elt F) → (⟨S64x8x512, .f32⟩ : BufTy).Contents (Elt F)),
    StableHlo.unary main_arg7 main_v40 (broadcastInDim S1x1x512 ![2] bcast_S512_S1x1x512_2 : (⟨S512, .f32⟩ : BufTy).Contents (Elt F) → (⟨S1x1x512, .f32⟩ : BufTy).Contents (Elt F)),
    StableHlo.unary main_v40 main_v41 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v39 main_v41 main_v42 (addf : (⟨S64x8x512, .f32⟩ : BufTy).Contents (Elt F) → (⟨S64x8x512, .f32⟩ : BufTy).Contents (Elt F) → (⟨S64x8x512, .f32⟩ : BufTy).Contents (Elt F)) ]

/-- The remaining 32 operations (the activation, the gate, the output). -/
abbrev opsC : List (HloOp τ sig (Elt F)) :=
  [ StableHlo.unary main_v42 main_v43 (Host.negf : (⟨S64x8x512, .f32⟩ : BufTy).Contents (Elt F) → (⟨S64x8x512, .f32⟩ : BufTy).Contents (Elt F)),
    StableHlo.unary main_v43 main_v44 (Host.exp : (⟨S64x8x512, .f32⟩ : BufTy).Contents (Elt F) → (⟨S64x8x512, .f32⟩ : BufTy).Contents (Elt F)),
    StableHlo.nullary main_cst_8 (constant S_ .f32 0x3F800000#32),
    StableHlo.unary main_cst_8 main_v45 (broadcastInDim S64x8x512 ![] bcast_S_S64x8x512 : (⟨S_, .f32⟩ : BufTy).Contents (Elt F) → (⟨S64x8x512, .f32⟩ : BufTy).Contents (Elt F)),
    StableHlo.binary main_v45 main_v44 main_v46 (addf : (⟨S64x8x512, .f32⟩ : BufTy).Contents (Elt F) → (⟨S64x8x512, .f32⟩ : BufTy).Contents (Elt F) → (⟨S64x8x512, .f32⟩ : BufTy).Contents (Elt F)),
    StableHlo.nullary main_cst_9 (constant S_ .f32 0x3F800000#32),
    StableHlo.unary main_cst_9 main_v47 (broadcastInDim S64x8x512 ![] bcast_S_S64x8x512 : (⟨S_, .f32⟩ : BufTy).Contents (Elt F) → (⟨S64x8x512, .f32⟩ : BufTy).Contents (Elt F)),
    StableHlo.binary main_v47 main_v46 main_v48 (Host.divf : (⟨S64x8x512, .f32⟩ : BufTy).Contents (Elt F) → (⟨S64x8x512, .f32⟩ : BufTy).Contents (Elt F) → (⟨S64x8x512, .f32⟩ : BufTy).Contents (Elt F)),
    StableHlo.binary main_v42 main_v48 main_v49 (mulf : (⟨S64x8x512, .f32⟩ : BufTy).Contents (Elt F) → (⟨S64x8x512, .f32⟩ : BufTy).Contents (Elt F) → (⟨S64x8x512, .f32⟩ : BufTy).Contents (Elt F)),
    StableHlo.binary main_v49 main_arg8 main_v50 ((fun l r => Host.dotGeneral dot_S64x8x512_S512x1_S64x8x1_2_0_01_1_n_n none l r) : (⟨S64x8x512, .f32⟩ : BufTy).Contents (Elt F) → (⟨S512x1, .f32⟩ : BufTy).Contents (Elt F) → (⟨S64x8x1, .f32⟩ : BufTy).Contents (Elt F)),
    StableHlo.unary main_arg9 main_v51 (broadcastInDim S1x1x1 ![2] bcast_S1_S1x1x1_2 : (⟨S1, .f32⟩ : BufTy).Contents (Elt F) → (⟨S1x1x1, .f32⟩ : BufTy).Contents (Elt F)),
    StableHlo.unary main_v51 main_v52 (broadcastInDim S64x8x1 ![0, 1, 2] bcast_S1x1x1_S64x8x1_0_1_2 : (⟨S1x1x1, .f32⟩ : BufTy).Contents (Elt F) → (⟨S64x8x1, .f32⟩ : BufTy).Contents (Elt F)),
    StableHlo.binary main_v50 main_v52 main_v53 (addf : (⟨S64x8x1, .f32⟩ : BufTy).Contents (Elt F) → (⟨S64x8x1, .f32⟩ : BufTy).Contents (Elt F) → (⟨S64x8x1, .f32⟩ : BufTy).Contents (Elt F)),
    StableHlo.unary main_v53 main_v54 (Host.negf : (⟨S64x8x1, .f32⟩ : BufTy).Contents (Elt F) → (⟨S64x8x1, .f32⟩ : BufTy).Contents (Elt F)),
    StableHlo.unary main_v54 main_v55 (Host.exp : (⟨S64x8x1, .f32⟩ : BufTy).Contents (Elt F) → (⟨S64x8x1, .f32⟩ : BufTy).Contents (Elt F)),
    StableHlo.nullary main_cst_10 (constant S_ .f32 0x3F800000#32),
    StableHlo.unary main_cst_10 main_v56 (broadcastInDim S64x8x1 ![] bcast_S_S64x8x1 : (⟨S_, .f32⟩ : BufTy).Contents (Elt F) → (⟨S64x8x1, .f32⟩ : BufTy).Contents (Elt F)),
    StableHlo.binary main_v56 main_v55 main_v57 (addf : (⟨S64x8x1, .f32⟩ : BufTy).Contents (Elt F) → (⟨S64x8x1, .f32⟩ : BufTy).Contents (Elt F) → (⟨S64x8x1, .f32⟩ : BufTy).Contents (Elt F)),
    StableHlo.nullary main_cst_11 (constant S_ .f32 0x3F800000#32),
    StableHlo.unary main_cst_11 main_v58 (broadcastInDim S64x8x1 ![] bcast_S_S64x8x1 : (⟨S_, .f32⟩ : BufTy).Contents (Elt F) → (⟨S64x8x1, .f32⟩ : BufTy).Contents (Elt F)),
    StableHlo.binary main_v58 main_v57 main_v59 (Host.divf : (⟨S64x8x1, .f32⟩ : BufTy).Contents (Elt F) → (⟨S64x8x1, .f32⟩ : BufTy).Contents (Elt F) → (⟨S64x8x1, .f32⟩ : BufTy).Contents (Elt F)),
    StableHlo.nullary main_cst_12 (constant S_ .f32 0x3F000000#32),
    StableHlo.unary main_cst_12 main_v60 (broadcastInDim S64x8x1 ![] bcast_S_S64x8x1 : (⟨S_, .f32⟩ : BufTy).Contents (Elt F) → (⟨S64x8x1, .f32⟩ : BufTy).Contents (Elt F)),
    StableHlo.binary main_v59 main_v60 main_v61 (cmpf .ogt : (⟨S64x8x1, .f32⟩ : BufTy).Contents (Elt F) → (⟨S64x8x1, .f32⟩ : BufTy).Contents (Elt F) → (⟨S64x8x1, .i1⟩ : BufTy).Contents (Elt F)),
    StableHlo.unary main_v61 main_v62 (uitofp .f32 : (⟨S64x8x1, .i1⟩ : BufTy).Contents (Elt F) → (⟨S64x8x1, .f32⟩ : BufTy).Contents (Elt F)),
    StableHlo.binary main_v19 main_arg10 main_v63 ((fun l r => Host.dotGeneral dot_S64x8x256_S256x1024_S64x8x1024_2_0_01_1_n_n none l r) : (⟨S64x8x256, .f32⟩ : BufTy).Contents (Elt F) → (⟨S256x1024, .f32⟩ : BufTy).Contents (Elt F) → (⟨S64x8x1024, .f32⟩ : BufTy).Contents (Elt F)),
    StableHlo.unary main_arg11 main_v64 (broadcastInDim S1x1x1024 ![2] bcast_S1024_S1x1x1024_2 : (⟨S1024, .f32⟩ : BufTy).Contents (Elt F) → (⟨S1x1x1024, .f32⟩ : BufTy).Contents (Elt F)),
    StableHlo.unary main_v64 main_v65 (broadcastInDim S64x8x1024 ![0, 1, 2] bcast_S1x1x1024_S64x8x1024_0_1_2 : (⟨S1x1x1024, .f32⟩ : BufTy).Contents (Elt F) → (⟨S64x8x1024, .f32⟩ : BufTy).Contents (Elt F)),
    StableHlo.binary main_v63 main_v65 main_v66 (addf : (⟨S64x8x1024, .f32⟩ : BufTy).Contents (Elt F) → (⟨S64x8x1024, .f32⟩ : BufTy).Contents (Elt F) → (⟨S64x8x1024, .f32⟩ : BufTy).Contents (Elt F)),
    StableHlo.unary main_v62 main_v67 (broadcastInDim S64x8x1024 ![0, 1, 2] bcast_S64x8x1_S64x8x1024_0_1_2 : (⟨S64x8x1, .f32⟩ : BufTy).Contents (Elt F) → (⟨S64x8x1024, .f32⟩ : BufTy).Contents (Elt F)),
    StableHlo.binary main_v67 main_v66 main_v68 (mulf : (⟨S64x8x1024, .f32⟩ : BufTy).Contents (Elt F) → (⟨S64x8x1024, .f32⟩ : BufTy).Contents (Elt F) → (⟨S64x8x1024, .f32⟩ : BufTy).Contents (Elt F)),
    StableHlo.binary main_arg0 main_v68 main_v69 (addf : (⟨S64x8x1024, .f32⟩ : BufTy).Contents (Elt F) → (⟨S64x8x1024, .f32⟩ : BufTy).Contents (Elt F) → (⟨S64x8x1024, .f32⟩ : BufTy).Contents (Elt F)) ]

set_option maxRecDepth 8192 in
set_option maxHeartbeats 1000000 in
/-- The program's line is the three, one after the other. -/
theorem ops_flat : (ops : List (HloOp τ sig (Elt F))) = opsA ++ (opsB ++ opsC) := rfl

end Cert.ReferenceIdeal.RefValue

end
-- ==== Proof.RefRun.lean ====
/-
  The reference program's run, read back: every weakly fair execution of @main terminates with the result
  buffer at the printed operations' composed value of the twelve argument arrays, and the arguments unchanged.
  The value is read off the straight line of operations in three consecutive pieces: the first leaves the
  query and the context; the second, from those, the hidden layer; the third, from the hidden layer and the
  context, the result. A buffer a piece does not write keeps its contents through it.
-/
import proofs.«150437_g8143257993987_cont_9to1c4b_560_12_alg».proof.ReferenceIdeal
import proofs.«150437_g8143257993987_cont_9to1c4b_560_12_alg».proof.Proof.Gen.ReferenceIdeal
import proofs.«150437_g8143257993987_cont_9to1c4b_560_12_alg».proof.Proof.RefTerm
import proofs.«150437_g8143257993987_cont_9to1c4b_560_12_alg».proof.Proof.RefRunOps
import proofs.«150437_g8143257993987_cont_9to1c4b_560_12_alg».proof.Proof.RefRunFlat
import Idealize.ShloMosaic.Lib.StableHlo.Run

noncomputable section

namespace Cert.ReferenceIdeal.RefValue

open Idealize.ShloMosaic Idealize.ShloMosaic.TcCoe Idealize.SL.Sem Cert.ReferenceIdeal Idealize.ShloMosaic.StableHlo
open Cert.ReferenceIdeal.Facts₀ Cert.ReferenceIdeal.Facts

variable [Cert.ReferenceIdeal.Facts]

/-! ## No operation allocates: each determines its results -/

theorem fresh0 : (ops0 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem fresh1 : (ops1 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

theorem fresh : ∀ op ∈ (ops : List (HloOp τ sig (Elt Ideal))), op.fresh = ∅ :=
  List.forall_iff_forall_mem.mp (List.forall_append.mpr ⟨fresh0, fresh1⟩)

/-! ## The arguments: no operation writes an argument's buffer -/

theorem arg0_A (W : Valuation τ sig (Elt Ideal)) :
    after opsA W (Proc.devRef (τ := τ) .tc main_arg0) = W (Proc.devRef (τ := τ) .tc main_arg0) := by after_results_simp
theorem arg1_A (W : Valuation τ sig (Elt Ideal)) :
    after opsA W (Proc.devRef (τ := τ) .tc main_arg1) = W (Proc.devRef (τ := τ) .tc main_arg1) := by after_results_simp
theorem arg2_A (W : Valuation τ sig (Elt Ideal)) :
    after opsA W (Proc.devRef (τ := τ) .tc main_arg2) = W (Proc.devRef (τ := τ) .tc main_arg2) := by after_results_simp
theorem arg3_A (W : Valuation τ sig (Elt Ideal)) :
    after opsA W (Proc.devRef (τ := τ) .tc main_arg3) = W (Proc.devRef (τ := τ) .tc main_arg3) := by after_results_simp
theorem arg4_A (W : Valuation τ sig (Elt Ideal)) :
    after opsA W (Proc.devRef (τ := τ) .tc main_arg4) = W (Proc.devRef (τ := τ) .tc main_arg4) := by after_results_simp
theorem arg5_A (W : Valuation τ sig (Elt Ideal)) :
    after opsA W (Proc.devRef (τ := τ) .tc main_arg5) = W (Proc.devRef (τ := τ) .tc main_arg5) := by after_results_simp
theorem arg6_A (W : Valuation τ sig (Elt Ideal)) :
    after opsA W (Proc.devRef (τ := τ) .tc main_arg6) = W (Proc.devRef (τ := τ) .tc main_arg6) := by after_results_simp
theorem arg7_A (W : Valuation τ sig (Elt Ideal)) :
    after opsA W (Proc.devRef (τ := τ) .tc main_arg7) = W (Proc.devRef (τ := τ) .tc main_arg7) := by after_results_simp
theorem arg8_A (W : Valuation τ sig (Elt Ideal)) :
    after opsA W (Proc.devRef (τ := τ) .tc main_arg8) = W (Proc.devRef (τ := τ) .tc main_arg8) := by after_results_simp
theorem arg9_A (W : Valuation τ sig (Elt Ideal)) :
    after opsA W (Proc.devRef (τ := τ) .tc main_arg9) = W (Proc.devRef (τ := τ) .tc main_arg9) := by after_results_simp
theorem arg10_A (W : Valuation τ sig (Elt Ideal)) :
    after opsA W (Proc.devRef (τ := τ) .tc main_arg10) = W (Proc.devRef (τ := τ) .tc main_arg10) := by after_results_simp
theorem arg11_A (W : Valuation τ sig (Elt Ideal)) :
    after opsA W (Proc.devRef (τ := τ) .tc main_arg11) = W (Proc.devRef (τ := τ) .tc main_arg11) := by after_results_simp

theorem arg0_B (W : Valuation τ sig (Elt Ideal)) :
    after opsB W (Proc.devRef (τ := τ) .tc main_arg0) = W (Proc.devRef (τ := τ) .tc main_arg0) := by after_results_simp
theorem arg1_B (W : Valuation τ sig (Elt Ideal)) :
    after opsB W (Proc.devRef (τ := τ) .tc main_arg1) = W (Proc.devRef (τ := τ) .tc main_arg1) := by after_results_simp
theorem arg2_B (W : Valuation τ sig (Elt Ideal)) :
    after opsB W (Proc.devRef (τ := τ) .tc main_arg2) = W (Proc.devRef (τ := τ) .tc main_arg2) := by after_results_simp
theorem arg3_B (W : Valuation τ sig (Elt Ideal)) :
    after opsB W (Proc.devRef (τ := τ) .tc main_arg3) = W (Proc.devRef (τ := τ) .tc main_arg3) := by after_results_simp
theorem arg4_B (W : Valuation τ sig (Elt Ideal)) :
    after opsB W (Proc.devRef (τ := τ) .tc main_arg4) = W (Proc.devRef (τ := τ) .tc main_arg4) := by after_results_simp
theorem arg5_B (W : Valuation τ sig (Elt Ideal)) :
    after opsB W (Proc.devRef (τ := τ) .tc main_arg5) = W (Proc.devRef (τ := τ) .tc main_arg5) := by after_results_simp
theorem arg6_B (W : Valuation τ sig (Elt Ideal)) :
    after opsB W (Proc.devRef (τ := τ) .tc main_arg6) = W (Proc.devRef (τ := τ) .tc main_arg6) := by after_results_simp
theorem arg7_B (W : Valuation τ sig (Elt Ideal)) :
    after opsB W (Proc.devRef (τ := τ) .tc main_arg7) = W (Proc.devRef (τ := τ) .tc main_arg7) := by after_results_simp
theorem arg8_B (W : Valuation τ sig (Elt Ideal)) :
    after opsB W (Proc.devRef (τ := τ) .tc main_arg8) = W (Proc.devRef (τ := τ) .tc main_arg8) := by after_results_simp
theorem arg9_B (W : Valuation τ sig (Elt Ideal)) :
    after opsB W (Proc.devRef (τ := τ) .tc main_arg9) = W (Proc.devRef (τ := τ) .tc main_arg9) := by after_results_simp
theorem arg10_B (W : Valuation τ sig (Elt Ideal)) :
    after opsB W (Proc.devRef (τ := τ) .tc main_arg10) = W (Proc.devRef (τ := τ) .tc main_arg10) := by after_results_simp
theorem arg11_B (W : Valuation τ sig (Elt Ideal)) :
    after opsB W (Proc.devRef (τ := τ) .tc main_arg11) = W (Proc.devRef (τ := τ) .tc main_arg11) := by after_results_simp

theorem arg0_C (W : Valuation τ sig (Elt Ideal)) :
    after opsC W (Proc.devRef (τ := τ) .tc main_arg0) = W (Proc.devRef (τ := τ) .tc main_arg0) := by after_results_simp
theorem arg1_C (W : Valuation τ sig (Elt Ideal)) :
    after opsC W (Proc.devRef (τ := τ) .tc main_arg1) = W (Proc.devRef (τ := τ) .tc main_arg1) := by after_results_simp
theorem arg2_C (W : Valuation τ sig (Elt Ideal)) :
    after opsC W (Proc.devRef (τ := τ) .tc main_arg2) = W (Proc.devRef (τ := τ) .tc main_arg2) := by after_results_simp
theorem arg3_C (W : Valuation τ sig (Elt Ideal)) :
    after opsC W (Proc.devRef (τ := τ) .tc main_arg3) = W (Proc.devRef (τ := τ) .tc main_arg3) := by after_results_simp
theorem arg4_C (W : Valuation τ sig (Elt Ideal)) :
    after opsC W (Proc.devRef (τ := τ) .tc main_arg4) = W (Proc.devRef (τ := τ) .tc main_arg4) := by after_results_simp
theorem arg5_C (W : Valuation τ sig (Elt Ideal)) :
    after opsC W (Proc.devRef (τ := τ) .tc main_arg5) = W (Proc.devRef (τ := τ) .tc main_arg5) := by after_results_simp
theorem arg6_C (W : Valuation τ sig (Elt Ideal)) :
    after opsC W (Proc.devRef (τ := τ) .tc main_arg6) = W (Proc.devRef (τ := τ) .tc main_arg6) := by after_results_simp
theorem arg7_C (W : Valuation τ sig (Elt Ideal)) :
    after opsC W (Proc.devRef (τ := τ) .tc main_arg7) = W (Proc.devRef (τ := τ) .tc main_arg7) := by after_results_simp
theorem arg8_C (W : Valuation τ sig (Elt Ideal)) :
    after opsC W (Proc.devRef (τ := τ) .tc main_arg8) = W (Proc.devRef (τ := τ) .tc main_arg8) := by after_results_simp
theorem arg9_C (W : Valuation τ sig (Elt Ideal)) :
    after opsC W (Proc.devRef (τ := τ) .tc main_arg9) = W (Proc.devRef (τ := τ) .tc main_arg9) := by after_results_simp
theorem arg10_C (W : Valuation τ sig (Elt Ideal)) :
    after opsC W (Proc.devRef (τ := τ) .tc main_arg10) = W (Proc.devRef (τ := τ) .tc main_arg10) := by after_results_simp
theorem arg11_C (W : Valuation τ sig (Elt Ideal)) :
    after opsC W (Proc.devRef (τ := τ) .tc main_arg11) = W (Proc.devRef (τ := τ) .tc main_arg11) := by after_results_simp

theorem arg0_eq (V : Valuation τ sig (Elt Ideal)) :
    after ops V (Proc.devRef (τ := τ) .tc main_arg0) = V (Proc.devRef (τ := τ) .tc main_arg0) := by
  rw [ops_flat, after_append, after_append, arg0_C, arg0_B, arg0_A]
theorem arg1_eq (V : Valuation τ sig (Elt Ideal)) :
    after ops V (Proc.devRef (τ := τ) .tc main_arg1) = V (Proc.devRef (τ := τ) .tc main_arg1) := by
  rw [ops_flat, after_append, after_append, arg1_C, arg1_B, arg1_A]
theorem arg2_eq (V : Valuation τ sig (Elt Ideal)) :
    after ops V (Proc.devRef (τ := τ) .tc main_arg2) = V (Proc.devRef (τ := τ) .tc main_arg2) := by
  rw [ops_flat, after_append, after_append, arg2_C, arg2_B, arg2_A]
theorem arg3_eq (V : Valuation τ sig (Elt Ideal)) :
    after ops V (Proc.devRef (τ := τ) .tc main_arg3) = V (Proc.devRef (τ := τ) .tc main_arg3) := by
  rw [ops_flat, after_append, after_append, arg3_C, arg3_B, arg3_A]
theorem arg4_eq (V : Valuation τ sig (Elt Ideal)) :
    after ops V (Proc.devRef (τ := τ) .tc main_arg4) = V (Proc.devRef (τ := τ) .tc main_arg4) := by
  rw [ops_flat, after_append, after_append, arg4_C, arg4_B, arg4_A]
theorem arg5_eq (V : Valuation τ sig (Elt Ideal)) :
    after ops V (Proc.devRef (τ := τ) .tc main_arg5) = V (Proc.devRef (τ := τ) .tc main_arg5) := by
  rw [ops_flat, after_append, after_append, arg5_C, arg5_B, arg5_A]
theorem arg6_eq (V : Valuation τ sig (Elt Ideal)) :
    after ops V (Proc.devRef (τ := τ) .tc main_arg6) = V (Proc.devRef (τ := τ) .tc main_arg6) := by
  rw [ops_flat, after_append, after_append, arg6_C, arg6_B, arg6_A]
theorem arg7_eq (V : Valuation τ sig (Elt Ideal)) :
    after ops V (Proc.devRef (τ := τ) .tc main_arg7) = V (Proc.devRef (τ := τ) .tc main_arg7) := by
  rw [ops_flat, after_append, after_append, arg7_C, arg7_B, arg7_A]
theorem arg8_eq (V : Valuation τ sig (Elt Ideal)) :
    after ops V (Proc.devRef (τ := τ) .tc main_arg8) = V (Proc.devRef (τ := τ) .tc main_arg8) := by
  rw [ops_flat, after_append, after_append, arg8_C, arg8_B, arg8_A]
theorem arg9_eq (V : Valuation τ sig (Elt Ideal)) :
    after ops V (Proc.devRef (τ := τ) .tc main_arg9) = V (Proc.devRef (τ := τ) .tc main_arg9) := by
  rw [ops_flat, after_append, after_append, arg9_C, arg9_B, arg9_A]
theorem arg10_eq (V : Valuation τ sig (Elt Ideal)) :
    after ops V (Proc.devRef (τ := τ) .tc main_arg10) = V (Proc.devRef (τ := τ) .tc main_arg10) := by
  rw [ops_flat, after_append, after_append, arg10_C, arg10_B, arg10_A]
theorem arg11_eq (V : Valuation τ sig (Elt Ideal)) :
    after ops V (Proc.devRef (τ := τ) .tc main_arg11) = V (Proc.devRef (τ := τ) .tc main_arg11) := by
  rw [ops_flat, after_append, after_append, arg11_C, arg11_B, arg11_A]

/-! ## The first piece: the query and the context -/

set_option maxRecDepth 8192 in
set_option maxHeartbeats 1000000 in
/-- The query: the input through the first projection, plus its bias. -/
theorem v3_A (V : Valuation τ sig (Elt Ideal)) :
    after opsA V (Proc.devRef (τ := τ) .tc main_v3) = st_v3 (V (Proc.devRef (τ := τ) .tc main_arg0)) (V (Proc.devRef (τ := τ) .tc main_arg2)) (V (Proc.devRef (τ := τ) .tc main_arg3)) := by
  after_results_simp
  simp only [st_v0, st_v1, st_v2, st_v3]

set_option maxRecDepth 8192 in
set_option maxHeartbeats 1000000 in
/-- The context: the softmax weights of the clipped scores against the cache. -/
theorem v19_A (V : Valuation τ sig (Elt Ideal)) :
    after opsA V (Proc.devRef (τ := τ) .tc main_v19) = st_v19 (V (Proc.devRef (τ := τ) .tc main_arg0)) (V (Proc.devRef (τ := τ) .tc main_arg1)) (V (Proc.devRef (τ := τ) .tc main_arg2)) (V (Proc.devRef (τ := τ) .tc main_arg3)) := by
  after_results_simp
  simp only [st_v0, st_v1, st_v2, st_v3, st_v4, st_cst, st_v5, st_v6, st_cst_0, st_cst_1,
    st_call0_v0, st_call0_v1, st_call0_v2, st_call0_v3, st_call0_v4, st_v7, st_cst_2, st_v8, st_cst_3, st_v9,
    st_v10, st_v11, st_v12, st_v13, st_v14, st_cst_4, st_v15, st_v16, st_v17, st_v18,
    st_v19]

/-! ## The second piece: from the query and the context to the hidden layer -/

/-- The second piece does not write the context's buffer. -/
theorem v19_B (W : Valuation τ sig (Elt Ideal)) :
    after opsB W (Proc.devRef (τ := τ) .tc main_v19) = W (Proc.devRef (τ := τ) .tc main_v19) := by after_results_simp

set_option maxRecDepth 8192 in
set_option maxHeartbeats 1000000 in
/-- From any contents holding the query, the context and the four arguments it reads, the second piece leaves
    the hidden layer (before its activation). The two operands of the concatenation sit inside its list of
    shaped operands: they are rewritten there one at a time. -/
theorem v42_B (W : Valuation τ sig (Elt Ideal))
    (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (a6 : FVec Ideal S512x512 .f32)
    (a7 : FVec Ideal S512 .f32)
    (h3 : W (Proc.devRef (τ := τ) .tc main_v3) = st_v3 a0 a2 a3)
    (h19 : W (Proc.devRef (τ := τ) .tc main_v19) = st_v19 a0 a1 a2 a3)
    (h4 : W (Proc.devRef (τ := τ) .tc main_arg4) = a4) (h5 : W (Proc.devRef (τ := τ) .tc main_arg5) = a5)
    (h6 : W (Proc.devRef (τ := τ) .tc main_arg6) = a6) (h7 : W (Proc.devRef (τ := τ) .tc main_arg7) = a7) :
    after opsB W (Proc.devRef (τ := τ) .tc main_v42) = st_v42 a0 a1 a2 a3 a4 a5 a6 a7 := by
  after_results_simp
  rw [h3, h19, h4, h5, h6, h7]
  simp only [st_v20, st_cst_5, st_v21, st_v22, st_cst_6, st_v23, st_v24, st_c, st_call1_cst, st_call1_v0,
    st_call1_v1, st_call1_cst_0, st_call1_v2, st_call1_v3, st_call1_v4, st_call1_v5, st_call1_v6, st_call1_v7, st_call1_cst_1, st_call1_v8,
    st_call1_cst_2, st_call1_v9, st_call1_v10, st_call1_v11, st_call1_v12, st_call1_cst_3, st_call1_v13, st_call1_cst_4, st_call1_call0_v0, st_call1_call0_v1,
    st_v25, st_v26, st_v27, st_v28, st_v29, st_v30, st_cst_7, st_v31, st_v32, st_v33,
    st_v34, st_v35, st_v36, st_v37, st_v38, st_v39, st_v40, st_v41, st_v42]

/-! ## The third piece: from the hidden layer and the context to the result -/

set_option maxRecDepth 8192 in
set_option maxHeartbeats 1000000 in
/-- From any contents holding the hidden layer, the context and the five arguments it reads, the third piece
    leaves the program's value in the result buffer. -/
theorem v69_C (W : Valuation τ sig (Elt Ideal))
    (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (a6 : FVec Ideal S512x512 .f32)
    (a7 : FVec Ideal S512 .f32)
    (a8 : FVec Ideal S512x1 .f32) (a9 : FVec Ideal S1 .f32) (a10 : FVec Ideal S256x1024 .f32)
    (a11 : FVec Ideal S1024 .f32)
    (h19 : W (Proc.devRef (τ := τ) .tc main_v19) = st_v19 a0 a1 a2 a3)
    (h42 : W (Proc.devRef (τ := τ) .tc main_v42) = st_v42 a0 a1 a2 a3 a4 a5 a6 a7)
    (h0 : W (Proc.devRef (τ := τ) .tc main_arg0) = a0) (h8 : W (Proc.devRef (τ := τ) .tc main_arg8) = a8) (h9 : W (Proc.devRef (τ := τ) .tc main_arg9) = a9)
    (h10 : W (Proc.devRef (τ := τ) .tc main_arg10) = a10) (h11 : W (Proc.devRef (τ := τ) .tc main_arg11) = a11) :
    after opsC W (Proc.devRef (τ := τ) .tc main_v69) = refOut a0 a1 a2 a3 a4 a5 a6 a7 a8 a9 a10 a11 := by
  after_results_simp
  rw [h19, h42, h0, h8, h9, h10, h11]
  simp only [refOut, st_v43, st_v44, st_cst_8, st_v45, st_v46, st_cst_9, st_v47, st_v48, st_v49, st_v50,
    st_v51, st_v52, st_v53, st_v54, st_v55, st_cst_10, st_v56, st_v57, st_cst_11, st_v58,
    st_v59, st_cst_12, st_v60, st_v61, st_v62, st_v63, st_v64, st_v65, st_v66, st_v67,
    st_v68, st_v69]

/-- The result buffer after the whole line: the program's value of the argument buffers' contents. -/
theorem out_eq (V : Valuation τ sig (Elt Ideal)) :
    after ops V (Proc.devRef (τ := τ) .tc main_v69) = refOut (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) := by
  rw [ops_flat, after_append, after_append]
  exact v69_C _ _ _ _ _ _ _ _ _ _ _ _ _
    ((v19_B _).trans (v19_A V))
    (v42_B _ _ _ _ _ _ _ _ _ (v3_A V) (v19_A V) (arg4_A V) (arg5_A V) (arg6_A V) (arg7_A V))
    ((arg0_B _).trans (arg0_A V)) ((arg8_B _).trans (arg8_A V)) ((arg9_B _).trans (arg9_A V))
    ((arg10_B _).trans (arg10_A V)) ((arg11_B _).trans (arg11_A V))

/-! ## The run -/

/-- On every device, from any memory with zero counters: every weakly fair execution of @main terminates with the
    result at the operations' composed value of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v69)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v69).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ (fun _ => fresh))

end Cert.ReferenceIdeal.RefValue

end
-- ==== Proof.RefReadIdx.lean ====
/-
  The shape facts the reference's value is read through: the two one-axis reductions' inserted index, the operand
  indices of the six products, each at an output index and a contraction coordinate given by literal-typed coordinates,
  and the program's broadcasts (a vector laid along every row, a per-row scalar laid along the row) read at an index.
-/
import proofs.«150437_g8143257993987_cont_9to1c4b_560_12_alg».proof.Proof.RefTerm
import Idealize.ShloMosaic.PureOps.Ideal.Laws
import Idealize.ShloMosaic.Lib.ValueIdx
import Idealize.ShloMosaic.Lib.Pipeline.Value

noncomputable section
open scoped BigOperators
namespace Cert.ReferenceIdeal.RefRead
open Idealize.ShloMosaic Idealize.ShloMosaic.ValueIdx Cert.ReferenceIdeal Cert.ReferenceIdeal.RefValue
variable [Facts]
open Facts₀ Facts

/-! ## The shape facts of the two reductions, with the inserted index read by coordinates -/

theorem red4096 : S64x8x4096.Reduces [2] S64x8 := by decide
theorem red512 : S64x8x512.Reduces [2] S64x8 := by decide

theorem red4096_lift (b : Fin 64) (s : Fin 8) (m : Fin 4096) : red4096.lift (ix2 b s) m = ix3 b s m := by
  funext a
  apply Fin.ext
  match a with
  | ⟨0, _⟩ => rfl
  | ⟨1, _⟩ => rfl
  | ⟨2, _⟩ => rfl

theorem red512_lift (b : Fin 64) (s : Fin 8) (j : Fin 512) : red512.lift (ix2 b s) j = ix3 b s j := by
  funext a
  apply Fin.ext
  match a with
  | ⟨0, _⟩ => rfl
  | ⟨1, _⟩ => rfl
  | ⟨2, _⟩ => rfl

/-! ## The operand indices of the six products, at an output index and a contraction coordinate -/

theorem dot1_lhs (b : Fin 64) (s : Fin 8) (c : Fin 256) (d : Fin 1024) :
    dot_S64x8x1024_S1024x256_S64x8x256_2_0_01_1_n_n.lhsIdx (ix3 b s c)
      ((contrEquiv1 dot_S64x8x1024_S1024x256_S64x8x256_2_0_01_1_n_n 1024 rfl rfl).symm d) = ix3 b s d := by
  funext a
  apply Fin.ext
  match a with
  | ⟨0, _⟩ => simp [DotDims.lhsIdx, dot_S64x8x1024_S1024x256_S64x8x256_2_0_01_1_n_n]; rfl
  | ⟨1, _⟩ => simp [DotDims.lhsIdx, dot_S64x8x1024_S1024x256_S64x8x256_2_0_01_1_n_n]; rfl
  | ⟨2, _⟩ => simp [DotDims.lhsIdx, dot_S64x8x1024_S1024x256_S64x8x256_2_0_01_1_n_n, contrEquiv1]; rfl

theorem dot1_rhs (b : Fin 64) (s : Fin 8) (c : Fin 256) (d : Fin 1024) :
    dot_S64x8x1024_S1024x256_S64x8x256_2_0_01_1_n_n.rhsIdx (ix3 b s c)
      ((contrEquiv1 dot_S64x8x1024_S1024x256_S64x8x256_2_0_01_1_n_n 1024 rfl rfl).symm d) = ix2 d c := by
  funext a
  apply Fin.ext
  match a with
  | ⟨0, _⟩ => simp [DotDims.rhsIdx, dot_S64x8x1024_S1024x256_S64x8x256_2_0_01_1_n_n, contrEquiv1]; rfl
  | ⟨1, _⟩ => simp [DotDims.rhsIdx, dot_S64x8x1024_S1024x256_S64x8x256_2_0_01_1_n_n]; rfl

theorem dot2_lhs (b : Fin 64) (s : Fin 8) (m : Fin 4096) (c : Fin 256) :
    dot_S64x8x256_S64x4096x256_S64x8x4096_2_2_1_1_0_0.lhsIdx (ix3 b s m)
      ((contrEquiv1 dot_S64x8x256_S64x4096x256_S64x8x4096_2_2_1_1_0_0 256 rfl rfl).symm c) = ix3 b s c := by
  funext a
  apply Fin.ext
  match a with
  | ⟨0, _⟩ => simp [DotDims.lhsIdx, dot_S64x8x256_S64x4096x256_S64x8x4096_2_2_1_1_0_0]; rfl
  | ⟨1, _⟩ => simp [DotDims.lhsIdx, dot_S64x8x256_S64x4096x256_S64x8x4096_2_2_1_1_0_0]; rfl
  | ⟨2, _⟩ => simp [DotDims.lhsIdx, dot_S64x8x256_S64x4096x256_S64x8x4096_2_2_1_1_0_0, contrEquiv1]; rfl

theorem dot2_rhs (b : Fin 64) (s : Fin 8) (m : Fin 4096) (c : Fin 256) :
    dot_S64x8x256_S64x4096x256_S64x8x4096_2_2_1_1_0_0.rhsIdx (ix3 b s m)
      ((contrEquiv1 dot_S64x8x256_S64x4096x256_S64x8x4096_2_2_1_1_0_0 256 rfl rfl).symm c) = ix3 b m c := by
  funext a
  apply Fin.ext
  match a with
  | ⟨0, _⟩ => simp [DotDims.rhsIdx, dot_S64x8x256_S64x4096x256_S64x8x4096_2_2_1_1_0_0]; rfl
  | ⟨1, _⟩ => simp [DotDims.rhsIdx, dot_S64x8x256_S64x4096x256_S64x8x4096_2_2_1_1_0_0]; rfl
  | ⟨2, _⟩ => simp [DotDims.rhsIdx, dot_S64x8x256_S64x4096x256_S64x8x4096_2_2_1_1_0_0, contrEquiv1]; rfl

theorem dot3_lhs (b : Fin 64) (s : Fin 8) (c : Fin 256) (m : Fin 4096) :
    dot_S64x8x4096_S64x4096x256_S64x8x256_2_1_1_2_0_0.lhsIdx (ix3 b s c)
      ((contrEquiv1 dot_S64x8x4096_S64x4096x256_S64x8x256_2_1_1_2_0_0 4096 rfl rfl).symm m) = ix3 b s m := by
  funext a
  apply Fin.ext
  match a with
  | ⟨0, _⟩ => simp [DotDims.lhsIdx, dot_S64x8x4096_S64x4096x256_S64x8x256_2_1_1_2_0_0]; rfl
  | ⟨1, _⟩ => simp [DotDims.lhsIdx, dot_S64x8x4096_S64x4096x256_S64x8x256_2_1_1_2_0_0]; rfl
  | ⟨2, _⟩ => simp [DotDims.lhsIdx, dot_S64x8x4096_S64x4096x256_S64x8x256_2_1_1_2_0_0, contrEquiv1]; rfl

theorem dot3_rhs (b : Fin 64) (s : Fin 8) (c : Fin 256) (m : Fin 4096) :
    dot_S64x8x4096_S64x4096x256_S64x8x256_2_1_1_2_0_0.rhsIdx (ix3 b s c)
      ((contrEquiv1 dot_S64x8x4096_S64x4096x256_S64x8x256_2_1_1_2_0_0 4096 rfl rfl).symm m) = ix3 b m c := by
  funext a
  apply Fin.ext
  match a with
  | ⟨0, _⟩ => simp [DotDims.rhsIdx, dot_S64x8x4096_S64x4096x256_S64x8x256_2_1_1_2_0_0]; rfl
  | ⟨1, _⟩ => simp [DotDims.rhsIdx, dot_S64x8x4096_S64x4096x256_S64x8x256_2_1_1_2_0_0, contrEquiv1]; rfl
  | ⟨2, _⟩ => simp [DotDims.rhsIdx, dot_S64x8x4096_S64x4096x256_S64x8x256_2_1_1_2_0_0]; rfl

theorem dot4_lhs (b : Fin 64) (s : Fin 8) (k : Fin 512) (j : Fin 512) :
    dot_S64x8x512_S512x512_S64x8x512_2_0_01_1_n_n.lhsIdx (ix3 b s k)
      ((contrEquiv1 dot_S64x8x512_S512x512_S64x8x512_2_0_01_1_n_n 512 rfl rfl).symm j) = ix3 b s j := by
  funext a
  apply Fin.ext
  match a with
  | ⟨0, _⟩ => simp [DotDims.lhsIdx, dot_S64x8x512_S512x512_S64x8x512_2_0_01_1_n_n]; rfl
  | ⟨1, _⟩ => simp [DotDims.lhsIdx, dot_S64x8x512_S512x512_S64x8x512_2_0_01_1_n_n]; rfl
  | ⟨2, _⟩ => simp [DotDims.lhsIdx, dot_S64x8x512_S512x512_S64x8x512_2_0_01_1_n_n, contrEquiv1]; rfl

theorem dot4_rhs (b : Fin 64) (s : Fin 8) (k : Fin 512) (j : Fin 512) :
    dot_S64x8x512_S512x512_S64x8x512_2_0_01_1_n_n.rhsIdx (ix3 b s k)
      ((contrEquiv1 dot_S64x8x512_S512x512_S64x8x512_2_0_01_1_n_n 512 rfl rfl).symm j) = ix2 j k := by
  funext a
  apply Fin.ext
  match a with
  | ⟨0, _⟩ => simp [DotDims.rhsIdx, dot_S64x8x512_S512x512_S64x8x512_2_0_01_1_n_n, contrEquiv1]; rfl
  | ⟨1, _⟩ => simp [DotDims.rhsIdx, dot_S64x8x512_S512x512_S64x8x512_2_0_01_1_n_n]; rfl

theorem dot5_lhs (b : Fin 64) (s : Fin 8) (o : Fin 1) (k : Fin 512) :
    dot_S64x8x512_S512x1_S64x8x1_2_0_01_1_n_n.lhsIdx (ix3 b s o)
      ((contrEquiv1 dot_S64x8x512_S512x1_S64x8x1_2_0_01_1_n_n 512 rfl rfl).symm k) = ix3 b s k := by
  funext a
  apply Fin.ext
  match a with
  | ⟨0, _⟩ => simp [DotDims.lhsIdx, dot_S64x8x512_S512x1_S64x8x1_2_0_01_1_n_n]; rfl
  | ⟨1, _⟩ => simp [DotDims.lhsIdx, dot_S64x8x512_S512x1_S64x8x1_2_0_01_1_n_n]; rfl
  | ⟨2, _⟩ => simp [DotDims.lhsIdx, dot_S64x8x512_S512x1_S64x8x1_2_0_01_1_n_n, contrEquiv1]; rfl

theorem dot5_rhs (b : Fin 64) (s : Fin 8) (o : Fin 1) (k : Fin 512) :
    dot_S64x8x512_S512x1_S64x8x1_2_0_01_1_n_n.rhsIdx (ix3 b s o)
      ((contrEquiv1 dot_S64x8x512_S512x1_S64x8x1_2_0_01_1_n_n 512 rfl rfl).symm k) = ix2 k o := by
  funext a
  apply Fin.ext
  match a with
  | ⟨0, _⟩ => simp [DotDims.rhsIdx, dot_S64x8x512_S512x1_S64x8x1_2_0_01_1_n_n, contrEquiv1]; rfl
  | ⟨1, _⟩ => simp [DotDims.rhsIdx, dot_S64x8x512_S512x1_S64x8x1_2_0_01_1_n_n]

theorem dot6_lhs (b : Fin 64) (s : Fin 8) (d : Fin 1024) (c : Fin 256) :
    dot_S64x8x256_S256x1024_S64x8x1024_2_0_01_1_n_n.lhsIdx (ix3 b s d)
      ((contrEquiv1 dot_S64x8x256_S256x1024_S64x8x1024_2_0_01_1_n_n 256 rfl rfl).symm c) = ix3 b s c := by
  funext a
  apply Fin.ext
  match a with
  | ⟨0, _⟩ => simp [DotDims.lhsIdx, dot_S64x8x256_S256x1024_S64x8x1024_2_0_01_1_n_n]; rfl
  | ⟨1, _⟩ => simp [DotDims.lhsIdx, dot_S64x8x256_S256x1024_S64x8x1024_2_0_01_1_n_n]; rfl
  | ⟨2, _⟩ => simp [DotDims.lhsIdx, dot_S64x8x256_S256x1024_S64x8x1024_2_0_01_1_n_n, contrEquiv1]; rfl

theorem dot6_rhs (b : Fin 64) (s : Fin 8) (d : Fin 1024) (c : Fin 256) :
    dot_S64x8x256_S256x1024_S64x8x1024_2_0_01_1_n_n.rhsIdx (ix3 b s d)
      ((contrEquiv1 dot_S64x8x256_S256x1024_S64x8x1024_2_0_01_1_n_n 256 rfl rfl).symm c) = ix2 c d := by
  funext a
  apply Fin.ext
  match a with
  | ⟨0, _⟩ => simp [DotDims.rhsIdx, dot_S64x8x256_S256x1024_S64x8x1024_2_0_01_1_n_n, contrEquiv1]; rfl
  | ⟨1, _⟩ => simp [DotDims.rhsIdx, dot_S64x8x256_S256x1024_S64x8x1024_2_0_01_1_n_n]; rfl

/-! ## The broadcasts, read at an index -/

section Broadcasts
variable {α : Type}

/-- A per-row value given a unit last axis, at (b, s, 0), is the value of row (b, s). -/
theorem bcast_row_unit (x : S64x8.Idx → α) (b : Fin 64) (s : Fin 8) (o : Fin 1) :
    broadcastInDim S64x8x1 ![0, 1] bcast_S64x8_S64x8x1_0_1 x (ix3 b s o) = x (ix2 b s) := by
  refine broadcastInDim_apply _ _ x (ix3 b s o) (ix2 b s) ?_
  intro a
  match a with
  | ⟨0, _⟩ => rfl
  | ⟨1, _⟩ => rfl

/-- A unit last axis laid along 4096 columns. -/
theorem bcast_col_4096 (x : S64x8x1.Idx → α) (b : Fin 64) (s : Fin 8) (m : Fin 4096) :
    broadcastInDim S64x8x4096 ![0, 1, 2] bcast_S64x8x1_S64x8x4096_0_1_2 x (ix3 b s m) = x (ix3 b s (0 : Fin 1)) := by
  refine broadcastInDim_apply _ _ x (ix3 b s m) (ix3 b s (0 : Fin 1)) ?_
  intro a
  match a with
  | ⟨0, _⟩ => rfl
  | ⟨1, _⟩ => rfl
  | ⟨2, _⟩ => rfl

/-- A unit last axis laid along 512 columns. -/
theorem bcast_col_512 (x : S64x8x1.Idx → α) (b : Fin 64) (s : Fin 8) (j : Fin 512) :
    broadcastInDim S64x8x512 ![0, 1, 2] bcast_S64x8x1_S64x8x512_0_1_2 x (ix3 b s j) = x (ix3 b s (0 : Fin 1)) := by
  refine broadcastInDim_apply _ _ x (ix3 b s j) (ix3 b s (0 : Fin 1)) ?_
  intro a
  match a with
  | ⟨0, _⟩ => rfl
  | ⟨1, _⟩ => rfl
  | ⟨2, _⟩ => rfl

/-- A unit last axis laid along 1024 columns. -/
theorem bcast_col_1024 (x : S64x8x1.Idx → α) (b : Fin 64) (s : Fin 8) (d : Fin 1024) :
    broadcastInDim S64x8x1024 ![0, 1, 2] bcast_S64x8x1_S64x8x1024_0_1_2 x (ix3 b s d) = x (ix3 b s (0 : Fin 1)) := by
  refine broadcastInDim_apply _ _ x (ix3 b s d) (ix3 b s (0 : Fin 1)) ?_
  intro a
  match a with
  | ⟨0, _⟩ => rfl
  | ⟨1, _⟩ => rfl
  | ⟨2, _⟩ => rfl

/-- A vector of 256 entries laid along every row. -/
theorem bcast_vec_256 (x : S256.Idx → α) (b : Fin 64) (s : Fin 8) (c : Fin 256) :
    broadcastInDim S64x8x256 ![0, 1, 2] bcast_S1x1x256_S64x8x256_0_1_2
      (broadcastInDim S1x1x256 ![2] bcast_S256_S1x1x256_2 x) (ix3 b s c) = x (ix1 c) := by
  refine (broadcastInDim_apply _ _ _ (ix3 b s c) (ix3 (0 : Fin 1) (0 : Fin 1) c) ?_).trans ?_
  · intro a
    match a with
    | ⟨0, _⟩ => rfl
    | ⟨1, _⟩ => rfl
    | ⟨2, _⟩ => rfl
  · refine broadcastInDim_apply _ _ x (ix3 (0 : Fin 1) (0 : Fin 1) c) (ix1 c) ?_
    intro a
    match a with
    | ⟨0, _⟩ => rfl

/-- A vector of 512 entries laid along every row. -/
theorem bcast_vec_512 (x : S512.Idx → α) (b : Fin 64) (s : Fin 8) (j : Fin 512) :
    broadcastInDim S64x8x512 ![0, 1, 2] bcast_S1x1x512_S64x8x512_0_1_2
      (broadcastInDim S1x1x512 ![2] bcast_S512_S1x1x512_2 x) (ix3 b s j) = x (ix1 j) := by
  refine (broadcastInDim_apply _ _ _ (ix3 b s j) (ix3 (0 : Fin 1) (0 : Fin 1) j) ?_).trans ?_
  · intro a
    match a with
    | ⟨0, _⟩ => rfl
    | ⟨1, _⟩ => rfl
    | ⟨2, _⟩ => rfl
  · refine broadcastInDim_apply _ _ x (ix3 (0 : Fin 1) (0 : Fin 1) j) (ix1 j) ?_
    intro a
    match a with
    | ⟨0, _⟩ => rfl

/-- A vector of 1024 entries laid along every row. -/
theorem bcast_vec_1024 (x : S1024.Idx → α) (b : Fin 64) (s : Fin 8) (d : Fin 1024) :
    broadcastInDim S64x8x1024 ![0, 1, 2] bcast_S1x1x1024_S64x8x1024_0_1_2
      (broadcastInDim S1x1x1024 ![2] bcast_S1024_S1x1x1024_2 x) (ix3 b s d) = x (ix1 d) := by
  refine (broadcastInDim_apply _ _ _ (ix3 b s d) (ix3 (0 : Fin 1) (0 : Fin 1) d) ?_).trans ?_
  · intro a
    match a with
    | ⟨0, _⟩ => rfl
    | ⟨1, _⟩ => rfl
    | ⟨2, _⟩ => rfl
  · refine broadcastInDim_apply _ _ x (ix3 (0 : Fin 1) (0 : Fin 1) d) (ix1 d) ?_
    intro a
    match a with
    | ⟨0, _⟩ => rfl

/-- A one-entry vector laid along every row. -/
theorem bcast_vec_1 (x : S1.Idx → α) (b : Fin 64) (s : Fin 8) (o : Fin 1) :
    broadcastInDim S64x8x1 ![0, 1, 2] bcast_S1x1x1_S64x8x1_0_1_2
      (broadcastInDim S1x1x1 ![2] bcast_S1_S1x1x1_2 x) (ix3 b s o) = x (ix1 (0 : Fin 1)) := by
  refine (broadcastInDim_apply _ _ _ (ix3 b s o) (ix3 (0 : Fin 1) (0 : Fin 1) (0 : Fin 1)) ?_).trans ?_
  · intro a
    match a with
    | ⟨0, _⟩ => rfl
    | ⟨1, _⟩ => rfl
    | ⟨2, _⟩ => rfl
  · refine broadcastInDim_apply _ _ x (ix3 (0 : Fin 1) (0 : Fin 1) (0 : Fin 1)) (ix1 (0 : Fin 1)) ?_
    intro a
    match a with
    | ⟨0, _⟩ => rfl

end Broadcasts

end Cert.ReferenceIdeal.RefRead
end
-- ==== Proof.RefRead1.lean ====
/-
  The reference's value read at an index, first half: the query, the scores, the softmax over the memories and the
  context, each stage of the printed program equal at (b, s, ·) to the row-level function of Spec on row (b, s) of `x`
  and batch b of the cache.
-/
import proofs.«150437_g8143257993987_cont_9to1c4b_560_12_alg».proof.Proof.RefReadIdx
import proofs.«150437_g8143257993987_cont_9to1c4b_560_12_alg».proof.Proof.Spec

noncomputable section
open scoped BigOperators
namespace Cert.ReferenceIdeal.RefRead
open Idealize.ShloMosaic Idealize.ShloMosaic.ValueIdx Cert.ReferenceIdeal Cert.ReferenceIdeal.RefValue
variable [Facts]
open Facts₀ Facts

/-! ## The host's elementwise operations at an index -/

section HostOps
variable {sh : Shape} {φ : FTy}

/-- A host quotient at an index is the ideal division of the elements. -/
theorem hostDivf_apply (x y : FVec Ideal sh φ) (i : sh.Idx) : Host.divf x y i = Ideal.div (x i) (y i) := rfl
/-- A host exponential at an index is the exponential of the element. -/
theorem hostExp_apply (x : FVec Ideal sh φ) (i : sh.Idx) : Host.exp x i = Ideal.exp (x i) := rfl
/-- A host square root at an index is the square root of the element. -/
theorem hostSqrt_apply (x : FVec Ideal sh φ) (i : sh.Idx) : Host.sqrt x i = Ideal.sqrt (x i) := rfl
/-- A host negation at an index is the negation of the element. -/
theorem hostNegf_apply (x : FVec Ideal sh φ) (i : sh.Idx) : Host.negf x i = -(x i) := rfl

end HostOps

/-! ## Row (b, s) of the arguments, and the row-level values built on it -/

/-- The query of row (b, s). -/
abbrev rQ (a0 : FVec Ideal S64x8x1024 .f32) (a2 : FVec Ideal S1024x256 .f32) (a3 : FVec Ideal S256 .f32)
    (b : Fin 64) (s : Fin 8) : Fin 256 → EReal :=
  Cert.Router.proj (fun d => a0 (ix3 b s d)) (fun d c => a2 (ix2 d c)) (fun c => a3 (ix1 c))

/-- Batch b of the cache. -/
abbrev rCb (a1 : FVec Ideal S64x4096x256 .f32) (b : Fin 64) : Fin 4096 → Fin 256 → EReal := fun m c => a1 (ix3 b m c)

/-- The raw scores of row (b, s). -/
abbrev rSc (a0 : FVec Ideal S64x8x1024 .f32) (a1 : FVec Ideal S64x4096x256 .f32) (a2 : FVec Ideal S1024x256 .f32)
    (a3 : FVec Ideal S256 .f32) (b : Fin 64) (s : Fin 8) : Fin 4096 → EReal :=
  Cert.Router.score (rQ a0 a2 a3 b s) (rCb a1 b)

/-- The context of row (b, s). -/
abbrev rCtx (a0 : FVec Ideal S64x8x1024 .f32) (a1 : FVec Ideal S64x4096x256 .f32) (a2 : FVec Ideal S1024x256 .f32)
    (a3 : FVec Ideal S256 .f32) (b : Fin 64) (s : Fin 8) : Fin 256 → EReal :=
  Cert.Router.ctxR (rSc a0 a1 a2 a3 b s) (rCb a1 b)

section
variable (a0 : FVec Ideal S64x8x1024 .f32) (a1 : FVec Ideal S64x4096x256 .f32) (a2 : FVec Ideal S1024x256 .f32)
  (a3 : FVec Ideal S256 .f32) (b : Fin 64) (s : Fin 8)

/-! ## The query -/

theorem st_v0_apply (c : Fin 256) : st_v0 a0 a2 (ix3 b s c) = ∑ d : Fin 1024, a0 (ix3 b s d) * a2 (ix2 d c) := by
  unfold st_v0
  refine (Ideal.dotGeneral_apply _ none _ a0 a2 (ix3 b s c)).trans ?_
  rw [← Equiv.sum_comp (contrEquiv1 dot_S64x8x1024_S1024x256_S64x8x256_2_0_01_1_n_n 1024 rfl rfl).symm]
  refine Finset.sum_congr rfl fun d _ => ?_
  rw [dot1_lhs, dot1_rhs]

theorem st_v3_apply (c : Fin 256) : st_v3 a0 a2 a3 (ix3 b s c) = rQ a0 a2 a3 b s c := by
  show st_v0 a0 a2 (ix3 b s c) + st_v2 a3 (ix3 b s c) = _
  rw [st_v0_apply]
  unfold st_v2 st_v1
  rw [bcast_vec_256]
  rfl

/-! ## The scores, divided by 16 and clipped -/

theorem st_v4_apply (m : Fin 4096) : st_v4 a0 a1 a2 a3 (ix3 b s m) = rSc a0 a1 a2 a3 b s m := by
  unfold st_v4
  refine (Ideal.dotGeneral_apply _ none _ (st_v3 a0 a2 a3) a1 (ix3 b s m)).trans ?_
  rw [← Equiv.sum_comp (contrEquiv1 dot_S64x8x256_S64x4096x256_S64x8x4096_2_2_1_1_0_0 256 rfl rfl).symm]
  show _ = ∑ c : Fin 256, rQ a0 a2 a3 b s c * a1 (ix3 b m c)
  refine Finset.sum_congr rfl fun c _ => ?_
  rw [dot2_lhs, dot2_rhs, st_v3_apply]

theorem st_v7_apply (m : Fin 4096) : st_v7 a0 a1 a2 a3 (ix3 b s m) = Cert.Router.aR (rSc a0 a1 a2 a3 b s) m := by
  show min (Ideal.ofBits .f32 0x41A00000#32) (max (Ideal.ofBits .f32 0xC1A00000#32)
    (Ideal.div (st_v4 a0 a1 a2 a3 (ix3 b s m)) (Ideal.ofBits .f32 0x41800000#32))) = _
  rw [st_v4_apply]
  rfl

/-! ## The row maximum -/

theorem st_v8_apply : st_v8 a0 a1 a2 a3 (ix2 b s)
    = (Finset.univ : Finset (Fin 4096)).fold max Cert.Router.kNegInf (Cert.Router.aR (rSc a0 a1 a2 a3 b s)) := by
  unfold st_v8
  refine (Host.reduce_eq_fold_single FloatOps.maximumf (st_v7 a0 a1 a2 a3) st_cst_2 reducesTo_S64x8x4096_S64x8_d2 red4096
    h_S_ (ix2 b s)).trans ?_
  have hf : (st_v7 a0 a1 a2 a3 ∘ red4096.lift (ix2 b s)) = Cert.Router.aR (rSc a0 a1 a2 a3 b s) :=
    funext fun m => (congrArg (st_v7 a0 a1 a2 a3) (red4096_lift b s m)).trans (st_v7_apply a0 a1 a2 a3 b s m)
  exact congrArg (fun f => (Finset.univ : Finset (Fin 4096)).fold max Cert.Router.kNegInf f) hf

theorem st_v10_apply : st_v10 a0 a1 a2 a3 (ix2 b s) = Cert.Router.mxR (rSc a0 a1 a2 a3 b s) := by
  unfold st_v10
  refine (maximumf_apply st_v9 (st_v8 a0 a1 a2 a3) (ix2 b s)).trans ?_
  rw [st_v8_apply]
  rfl

theorem st_v12_apply (m : Fin 4096) : st_v12 a0 a1 a2 a3 (ix3 b s m) = Cert.Router.mxR (rSc a0 a1 a2 a3 b s) := by
  unfold st_v12 st_v11
  rw [bcast_col_4096, bcast_row_unit, st_v10_apply]

/-! ## The exponentials and their sum -/

theorem st_v14_apply (m : Fin 4096) : st_v14 a0 a1 a2 a3 (ix3 b s m) = Cert.Router.eR (rSc a0 a1 a2 a3 b s) m := by
  unfold st_v14 st_v13
  rw [hostExp_apply, subf_apply, st_v7_apply, st_v12_apply]
  rfl

theorem st_v15_apply : st_v15 a0 a1 a2 a3 (ix2 b s) = ∑ m : Fin 4096, Cert.Router.eR (rSc a0 a1 a2 a3 b s) m := by
  unfold st_v15
  refine (Ideal.hostReduceAdd_single reducesTo_S64x8x4096_S64x8_d2 red4096 (st_v14 a0 a1 a2 a3)
    (Ideal.ofBits .f32 0x00000000#32) (ix2 b s)).trans ?_
  rw [Ideal.ofBits_zero_f32, zero_add]
  exact Finset.sum_congr rfl fun m _ =>
    (congrArg (st_v14 a0 a1 a2 a3) (red4096_lift b s m)).trans (st_v14_apply a0 a1 a2 a3 b s m)

theorem st_v18_apply (m : Fin 4096) : st_v18 a0 a1 a2 a3 (ix3 b s m)
    = Ideal.div (Cert.Router.eR (rSc a0 a1 a2 a3 b s) m) (∑ m' : Fin 4096, Cert.Router.eR (rSc a0 a1 a2 a3 b s) m') := by
  unfold st_v18
  rw [hostDivf_apply, st_v14_apply]
  unfold st_v17 st_v16
  rw [bcast_col_4096, bcast_row_unit, st_v15_apply]

/-! ## The context -/

theorem st_v19_apply (c : Fin 256) : st_v19 a0 a1 a2 a3 (ix3 b s c) = rCtx a0 a1 a2 a3 b s c := by
  unfold st_v19
  refine (Ideal.dotGeneral_apply _ none _ (st_v18 a0 a1 a2 a3) a1 (ix3 b s c)).trans ?_
  rw [← Equiv.sum_comp (contrEquiv1 dot_S64x8x4096_S64x4096x256_S64x8x256_2_1_1_2_0_0 4096 rfl rfl).symm]
  show _ = ∑ m : Fin 4096, Ideal.div (Cert.Router.eR (rSc a0 a1 a2 a3 b s) m)
    (∑ m' : Fin 4096, Cert.Router.eR (rSc a0 a1 a2 a3 b s) m') * a1 (ix3 b m c)
  refine Finset.sum_congr rfl fun m _ => ?_
  rw [dot3_lhs, dot3_rhs, st_v18_apply]

end

end Cert.ReferenceIdeal.RefRead
end
-- ==== Proof.RefRead.lean ====
/-
  The reference's value read at an index, second half: the LayerNorm input, its mean and guarded variance, the
  LayerNorm, the hidden layer with its SiLU, the gate, and the output row; then the whole result at (b, s, d) as
  Spec's row function (the reference's spelling) of row (b, s).
-/
import proofs.«150437_g8143257993987_cont_9to1c4b_560_12_alg».proof.Proof.RefRead1

noncomputable section
open scoped BigOperators
namespace Cert.ReferenceIdeal.RefRead
open Idealize.ShloMosaic Idealize.ShloMosaic.ValueIdx Cert.ReferenceIdeal Cert.ReferenceIdeal.RefValue
variable [Facts]
open Facts₀ Facts

/-- An unsigned-integer-to-float conversion at an index converts the element. -/
theorem uitofp_apply {sh : Shape} {φ : FTy} {w : Nat} (x : IVec sh w) (i : sh.Idx) :
    (uitofp φ x : FVec Ideal sh φ) i = FloatOps.uitofp φ (x i) := rfl

/-! ## More row-level values of row (b, s) -/

/-- The LayerNorm input of row (b, s): the query followed by the context. -/
abbrev rComb (a0 : FVec Ideal S64x8x1024 .f32) (a1 : FVec Ideal S64x4096x256 .f32) (a2 : FVec Ideal S1024x256 .f32)
    (a3 : FVec Ideal S256 .f32) (b : Fin 64) (s : Fin 8) : Fin 512 → EReal :=
  Cert.Router.comb (rQ a0 a2 a3 b s) (rCtx a0 a1 a2 a3 b s)

/-- Its LayerNorm, with the guarded variance. -/
abbrev rLn (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (b : Fin 64) (s : Fin 8) :
    Fin 512 → EReal :=
  Cert.Router.lnormWith (Cert.Router.varR (rComb a0 a1 a2 a3 b s)) (rComb a0 a1 a2 a3 b s)
    (fun j => a4 (ix1 j)) (fun j => a5 (ix1 j))

/-- The hidden layer before its activation. -/
abbrev rHid (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (a6 : FVec Ideal S512x512 .f32)
    (a7 : FVec Ideal S512 .f32) (b : Fin 64) (s : Fin 8) : Fin 512 → EReal :=
  Cert.Router.hidden (rLn a0 a1 a2 a3 a4 a5 b s) (fun j k => a6 (ix2 j k)) (fun k => a7 (ix1 k))

/-- The gate's logit. -/
abbrev rLogit (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (a6 : FVec Ideal S512x512 .f32)
    (a7 : FVec Ideal S512 .f32) (a8 : FVec Ideal S512x1 .f32) (a9 : FVec Ideal S1 .f32) (b : Fin 64) (s : Fin 8) : EReal :=
  Cert.Router.logitWith Cert.Router.siluR (rHid a0 a1 a2 a3 a4 a5 a6 a7 b s) (fun k => a8 (ix2 k (0 : Fin 1)))
    (a9 (ix1 (0 : Fin 1)))

section
variable (a0 : FVec Ideal S64x8x1024 .f32) (a1 : FVec Ideal S64x4096x256 .f32) (a2 : FVec Ideal S1024x256 .f32)
  (a3 : FVec Ideal S256 .f32) (a4 : FVec Ideal S512 .f32) (a5 : FVec Ideal S512 .f32) (a6 : FVec Ideal S512x512 .f32)
  (a7 : FVec Ideal S512 .f32) (a8 : FVec Ideal S512x1 .f32) (a9 : FVec Ideal S1 .f32) (a10 : FVec Ideal S256x1024 .f32)
  (a11 : FVec Ideal S1024 .f32) (b : Fin 64) (s : Fin 8)

/-! ## The LayerNorm input -/

theorem st_v20_apply (j : Fin 512) : st_v20 a0 a1 a2 a3 (ix3 b s j) = rComb a0 a1 a2 a3 b s j := by
  unfold st_v20
  by_cases hj : j.val < 256
  · refine (concatenate_pair_apply_left _ (st_v3 a0 a2 a3) (st_v19 a0 a1 a2 a3)
      concatenates_S64x8x256_S64x8x256_S64x8x512_d2 (ix3 b s j) rfl (ix3 b s (⟨j.val, hj⟩ : Fin 256)) ?_).trans ?_
    · intro a
      match a with
      | ⟨0, _⟩ => rfl
      | ⟨1, _⟩ => rfl
      | ⟨2, _⟩ => rfl
    · rw [st_v3_apply]
      show _ = Cert.Router.comb _ _ j
      unfold Cert.Router.comb
      rw [dif_pos hj]
  · have hlt : j.val - 256 < 256 := by have := j.isLt; omega
    refine (concatenate_pair_apply_right _ (st_v3 a0 a2 a3) (st_v19 a0 a1 a2 a3)
      concatenates_S64x8x256_S64x8x256_S64x8x512_d2 (ix3 b s j) rfl rfl (ix3 b s (⟨j.val - 256, hlt⟩ : Fin 256)) ?_ ?_).trans ?_
    · intro a ha
      match a with
      | ⟨0, _⟩ => rfl
      | ⟨1, _⟩ => rfl
      | ⟨2, _⟩ => exact absurd rfl ha
    · show (j.val - 256) + 256 = j.val
      omega
    · rw [st_v19_apply]
      show _ = Cert.Router.comb _ _ j
      unfold Cert.Router.comb
      rw [dif_neg hj]

/-! ## The mean -/

theorem st_v21_apply : st_v21 a0 a1 a2 a3 (ix2 b s) = ∑ j : Fin 512, rComb a0 a1 a2 a3 b s j := by
  unfold st_v21
  refine (Ideal.hostReduceAdd_single reducesTo_S64x8x512_S64x8_d2 red512 (st_v20 a0 a1 a2 a3)
    (Ideal.ofBits .f32 0x00000000#32) (ix2 b s)).trans ?_
  rw [Ideal.ofBits_zero_f32, zero_add]
  exact Finset.sum_congr rfl fun j _ =>
    (congrArg (st_v20 a0 a1 a2 a3) (red512_lift b s j)).trans (st_v20_apply a0 a1 a2 a3 b s j)

theorem st_v24_apply (o : Fin 1) : st_v24 a0 a1 a2 a3 (ix3 b s o) = Cert.Router.mean (rComb a0 a1 a2 a3 b s) := by
  unfold st_v24
  rw [hostDivf_apply]
  unfold st_v22
  rw [bcast_row_unit, st_v21_apply]
  rfl

/-! ## The variance: the called body's own mean, the squared deviations' sum, the guarded division -/

theorem st_call1_v0_apply : st_call1_v0 a0 a1 a2 a3 (ix2 b s) = ∑ j : Fin 512, rComb a0 a1 a2 a3 b s j := by
  unfold st_call1_v0
  refine (Ideal.hostReduceAdd_single reducesTo_S64x8x512_S64x8_d2 red512 (st_v20 a0 a1 a2 a3)
    (Ideal.ofBits .f32 0x00000000#32) (ix2 b s)).trans ?_
  rw [Ideal.ofBits_zero_f32, zero_add]
  exact Finset.sum_congr rfl fun j _ =>
    (congrArg (st_v20 a0 a1 a2 a3) (red512_lift b s j)).trans (st_v20_apply a0 a1 a2 a3 b s j)

theorem st_call1_v3_apply (o : Fin 1) :
    st_call1_v3 a0 a1 a2 a3 (ix3 b s o) = Cert.Router.mean (rComb a0 a1 a2 a3 b s) := by
  unfold st_call1_v3
  rw [hostDivf_apply]
  unfold st_call1_v1
  rw [bcast_row_unit, st_call1_v0_apply]
  rfl

theorem st_call1_v5_apply (j : Fin 512) : st_call1_v5 a0 a1 a2 a3 (ix3 b s j)
    = rComb a0 a1 a2 a3 b s j - Cert.Router.mean (rComb a0 a1 a2 a3 b s) := by
  unfold st_call1_v5
  rw [subf_apply, st_v20_apply]
  unfold st_call1_v4
  rw [bcast_col_512, st_call1_v3_apply]

theorem st_call1_v9_apply : st_call1_v9 a0 a1 a2 a3 (ix2 b s)
    = ∑ j : Fin 512, (rComb a0 a1 a2 a3 b s j - Cert.Router.mean (rComb a0 a1 a2 a3 b s))
        * (rComb a0 a1 a2 a3 b s j - Cert.Router.mean (rComb a0 a1 a2 a3 b s)) := by
  unfold st_call1_v9
  refine (Ideal.hostReduceAdd_single reducesTo_S64x8x512_S64x8_d2 red512 (st_call1_v6 a0 a1 a2 a3)
    (Ideal.ofBits .f32 0x00000000#32) (ix2 b s)).trans ?_
  rw [Ideal.ofBits_zero_f32, zero_add]
  refine Finset.sum_congr rfl fun (j : Fin 512) _ => ?_
  refine (congrArg (st_call1_v6 a0 a1 a2 a3) (red512_lift b s j)).trans ?_
  unfold st_call1_v6
  rw [mulf_apply, st_call1_v5_apply]

theorem st_v25_apply (o : Fin 1) : st_v25 a0 a1 a2 a3 (ix3 b s o) = Cert.Router.varR (rComb a0 a1 a2 a3 b s) := by
  unfold st_v25
  rw [select_apply]
  unfold st_call1_v12
  rw [hostDivf_apply]
  unfold st_call1_v10
  rw [bcast_row_unit, st_call1_v9_apply]
  rfl

/-! ## The LayerNorm -/

theorem st_v38_apply (j : Fin 512) : st_v38 a0 a1 a2 a3 a4 a5 (ix3 b s j) = rLn a0 a1 a2 a3 a4 a5 b s j := by
  have e29 : st_v29 a4 (ix3 b s j) = a4 (ix1 j) := by unfold st_v29 st_v28; rw [bcast_vec_512]
  have e37 : st_v37 a5 (ix3 b s j) = a5 (ix1 j) := by unfold st_v37 st_v36; rw [bcast_vec_512]
  have e26 : st_v26 a0 a1 a2 a3 (ix3 b s j) = Cert.Router.mean (rComb a0 a1 a2 a3 b s) := by
    unfold st_v26; rw [bcast_col_512, st_v24_apply]
  have e34 : st_v34 a0 a1 a2 a3 (ix3 b s j)
      = Ideal.sqrt (Cert.Router.varR (rComb a0 a1 a2 a3 b s) + Cert.Router.kEps) := by
    unfold st_v34
    rw [bcast_col_512]
    unfold st_v33
    rw [hostSqrt_apply]
    unfold st_v32
    rw [addf_apply, st_v25_apply]
    rfl
  unfold st_v38
  rw [addf_apply]
  unfold st_v35
  rw [hostDivf_apply]
  unfold st_v30
  rw [mulf_apply]
  unfold st_v27
  rw [subf_apply, st_v20_apply, e29, e37, e26, e34]
  rfl

/-! ## The hidden layer and its SiLU -/

theorem st_v42_apply (k : Fin 512) :
    st_v42 a0 a1 a2 a3 a4 a5 a6 a7 (ix3 b s k) = rHid a0 a1 a2 a3 a4 a5 a6 a7 b s k := by
  have e41 : st_v41 a7 (ix3 b s k) = a7 (ix1 k) := by unfold st_v41 st_v40; rw [bcast_vec_512]
  have e39 : st_v39 a0 a1 a2 a3 a4 a5 a6 (ix3 b s k)
      = ∑ j : Fin 512, rLn a0 a1 a2 a3 a4 a5 b s j * a6 (ix2 j k) := by
    unfold st_v39
    refine (Ideal.dotGeneral_apply _ none _ (st_v38 a0 a1 a2 a3 a4 a5) a6 (ix3 b s k)).trans ?_
    rw [← Equiv.sum_comp (contrEquiv1 dot_S64x8x512_S512x512_S64x8x512_2_0_01_1_n_n 512 rfl rfl).symm]
    refine Finset.sum_congr rfl fun j _ => ?_
    rw [dot4_lhs, dot4_rhs, st_v38_apply]
  unfold st_v42
  rw [addf_apply, e39, e41]
  rfl

theorem st_v49_apply (k : Fin 512) : st_v49 a0 a1 a2 a3 a4 a5 a6 a7 (ix3 b s k)
    = Cert.Router.siluR (rHid a0 a1 a2 a3 a4 a5 a6 a7 b s k) := by
  unfold st_v49
  rw [mulf_apply]
  unfold st_v48
  rw [hostDivf_apply]
  unfold st_v46
  rw [addf_apply]
  unfold st_v44
  rw [hostExp_apply]
  unfold st_v43
  rw [hostNegf_apply, st_v42_apply]
  rfl

/-! ## The gate -/

theorem st_v53_apply : st_v53 a0 a1 a2 a3 a4 a5 a6 a7 a8 a9 (ix3 b s (0 : Fin 1))
    = rLogit a0 a1 a2 a3 a4 a5 a6 a7 a8 a9 b s := by
  have e52 : st_v52 a9 (ix3 b s (0 : Fin 1)) = a9 (ix1 (0 : Fin 1)) := by unfold st_v52 st_v51; rw [bcast_vec_1]
  have e50 : st_v50 a0 a1 a2 a3 a4 a5 a6 a7 a8 (ix3 b s (0 : Fin 1))
      = ∑ k : Fin 512, Cert.Router.siluR (rHid a0 a1 a2 a3 a4 a5 a6 a7 b s k) * a8 (ix2 k (0 : Fin 1)) := by
    unfold st_v50
    refine (Ideal.dotGeneral_apply _ none _ (st_v49 a0 a1 a2 a3 a4 a5 a6 a7) a8 (ix3 b s (0 : Fin 1))).trans ?_
    rw [← Equiv.sum_comp (contrEquiv1 dot_S64x8x512_S512x1_S64x8x1_2_0_01_1_n_n 512 rfl rfl).symm]
    refine Finset.sum_congr rfl fun k _ => ?_
    rw [dot5_lhs, dot5_rhs, st_v49_apply]
  unfold st_v53
  rw [addf_apply, e50, e52]
  rfl

theorem st_v62_apply : st_v62 a0 a1 a2 a3 a4 a5 a6 a7 a8 a9 (ix3 b s (0 : Fin 1))
    = Cert.Router.gateR (rLogit a0 a1 a2 a3 a4 a5 a6 a7 a8 a9 b s) := by
  unfold st_v62
  rw [uitofp_apply]
  unfold st_v61
  rw [cmpf_apply]
  unfold st_v59
  rw [hostDivf_apply]
  unfold st_v57
  rw [addf_apply]
  unfold st_v55
  rw [hostExp_apply]
  unfold st_v54
  rw [hostNegf_apply, st_v53_apply]
  rfl

/-! ## The output row -/

theorem st_v66_apply (d : Fin 1024) : st_v66 a0 a1 a2 a3 a10 a11 (ix3 b s d)
    = (∑ c : Fin 256, rCtx a0 a1 a2 a3 b s c * a10 (ix2 c d)) + a11 (ix1 d) := by
  have e65 : st_v65 a11 (ix3 b s d) = a11 (ix1 d) := by unfold st_v65 st_v64; rw [bcast_vec_1024]
  have e63 : st_v63 a0 a1 a2 a3 a10 (ix3 b s d) = ∑ c : Fin 256, rCtx a0 a1 a2 a3 b s c * a10 (ix2 c d) := by
    unfold st_v63
    refine (Ideal.dotGeneral_apply _ none _ (st_v19 a0 a1 a2 a3) a10 (ix3 b s d)).trans ?_
    rw [← Equiv.sum_comp (contrEquiv1 dot_S64x8x256_S256x1024_S64x8x1024_2_0_01_1_n_n 256 rfl rfl).symm]
    refine Finset.sum_congr rfl fun c _ => ?_
    rw [dot6_lhs, dot6_rhs, st_v19_apply]
  unfold st_v66
  rw [addf_apply, e63, e65]

theorem st_v69_apply (d : Fin 1024) : st_v69 a0 a1 a2 a3 a4 a5 a6 a7 a8 a9 a10 a11 (ix3 b s d)
    = Cert.Router.outRow (fun d => a0 (ix3 b s d)) (rCtx a0 a1 a2 a3 b s)
        (Cert.Router.gateR (rLogit a0 a1 a2 a3 a4 a5 a6 a7 a8 a9 b s)) (fun c d => a10 (ix2 c d)) (fun d => a11 (ix1 d)) d := by
  have e67 : st_v67 a0 a1 a2 a3 a4 a5 a6 a7 a8 a9 (ix3 b s d)
      = Cert.Router.gateR (rLogit a0 a1 a2 a3 a4 a5 a6 a7 a8 a9 b s) := by
    unfold st_v67; rw [bcast_col_1024, st_v62_apply]
  unfold st_v69
  rw [addf_apply]
  unfold st_v68
  rw [mulf_apply, e67, st_v66_apply]
  rfl

end

/-! ## The whole result -/

/-- The reference's result at (b, s, d) is the row function, in the reference's spelling, of row (b, s) of `x` and
    batch b of the cache, at d. -/
theorem refOut_apply (a0 : FVec Ideal S64x8x1024 .f32) (a1 : FVec Ideal S64x4096x256 .f32) (a2 : FVec Ideal S1024x256 .f32)
    (a3 : FVec Ideal S256 .f32) (a4 : FVec Ideal S512 .f32) (a5 : FVec Ideal S512 .f32) (a6 : FVec Ideal S512x512 .f32)
    (a7 : FVec Ideal S512 .f32) (a8 : FVec Ideal S512x1 .f32) (a9 : FVec Ideal S1 .f32) (a10 : FVec Ideal S256x1024 .f32)
    (a11 : FVec Ideal S1024 .f32) (b : Fin 64) (s : Fin 8) (d : Fin 1024) :
    Cert.ReferenceIdeal.RefValue.refOut a0 a1 a2 a3 a4 a5 a6 a7 a8 a9 a10 a11 (ValueIdx.ix3 b s d)
      = Cert.Router.rowR (fun d => a0 (ValueIdx.ix3 b s d)) (fun m c => a1 (ValueIdx.ix3 b m c))
          (fun d c => a2 (ValueIdx.ix2 d c)) (fun c => a3 (ValueIdx.ix1 c))
          (fun j => a4 (ValueIdx.ix1 j)) (fun j => a5 (ValueIdx.ix1 j)) (fun j k => a6 (ValueIdx.ix2 j k))
          (fun k => a7 (ValueIdx.ix1 k))
          (fun k => a8 (ValueIdx.ix2 k (0 : Fin 1))) (a9 (ValueIdx.ix1 (0 : Fin 1))) (fun c d => a10 (ValueIdx.ix2 c d))
          (fun d => a11 (ValueIdx.ix1 d)) d :=
  st_v69_apply a0 a1 a2 a3 a4 a5 a6 a7 a8 a9 a10 a11 b s d

end Cert.ReferenceIdeal.RefRead
end
-- ==== Proof.lean ====
/-
  The memory router's READ step: the Pallas kernel against its jnp reference, over the extended reals.

  For every batch b and position s both programs compute
    out[b, s, ·] = x[b, s, ·] + gate · (ctx · W_from + b_from),
  where q = x[b, s, ·] · W_to + b_to, the scores are q against the 4096 memories of batch b scaled by 1/16 and clipped to
  [−20, 20], ctx is the softmax-weighted sum of the memories, and the gate is the hard threshold of a small network
  (LayerNorm of q ++ ctx, a hidden layer, SiLU, a linear read-out).
  The kernel walks the batches four at a time; it exponentiates the clipped scores directly and divides the weighted sum
  by the weight total afterwards, and it opens the gate when the logit is positive. The reference subtracts the row
  maximum inside the exponential, normalises each weight before the weighted sum, and opens the gate when the logistic of
  the logit exceeds one half. On the extended reals these are one function: the clipped scores are reals, so the common
  factor e^(−max) cancels in the quotient; a nonnegative real factor distributes over any finite sum of extended reals,
  so the normalisation may be taken after the sum whatever the cache holds; x / 16 is x · (1/16); and 1 / (1 + e^(−l))
  exceeds 1/2 exactly when l is positive (also at ±∞). No finiteness of the inputs is used.

  The kernel's frames are the generated ones; its value is read off the generated blockwise run (every grid point's block
  is the restriction of one whole-array function, and the blocks tile the output). The reference's run is written by hand
  through its three called functions, and its result term is read index by index.
-/
import proofs.«150437_g8143257993987_cont_9to1c4b_560_12_alg».proof.Defs
import proofs.«150437_g8143257993987_cont_9to1c4b_560_12_alg».proof.Proof.Gen.Kernel
import proofs.«150437_g8143257993987_cont_9to1c4b_560_12_alg».proof.Proof.Gen.Kernel.Skeleton
import proofs.«150437_g8143257993987_cont_9to1c4b_560_12_alg».proof.Proof.Gen.Kernel.Launch
import proofs.«150437_g8143257993987_cont_9to1c4b_560_12_alg».proof.Proof.Gen.Kernel.Points
import proofs.«150437_g8143257993987_cont_9to1c4b_560_12_alg».proof.Proof.Gen.Kernel.Frame
import proofs.«150437_g8143257993987_cont_9to1c4b_560_12_alg».proof.Proof.Gen.KernelIdeal
import proofs.«150437_g8143257993987_cont_9to1c4b_560_12_alg».proof.Proof.Gen.KernelIdeal.Skeleton
import proofs.«150437_g8143257993987_cont_9to1c4b_560_12_alg».proof.Proof.Gen.KernelIdeal.Launch
import proofs.«150437_g8143257993987_cont_9to1c4b_560_12_alg».proof.Proof.Gen.KernelIdeal.Points
import proofs.«150437_g8143257993987_cont_9to1c4b_560_12_alg».proof.Proof.Gen.KernelIdeal.Frame
import proofs.«150437_g8143257993987_cont_9to1c4b_560_12_alg».proof.Proof.Gen.ReferenceIdeal
import proofs.«150437_g8143257993987_cont_9to1c4b_560_12_alg».proof.Proof.Gen.Pre_finite_inputs
import proofs.«150437_g8143257993987_cont_9to1c4b_560_12_alg».proof.Proof.Gen.KernelIdeal.Value
import proofs.«150437_g8143257993987_cont_9to1c4b_560_12_alg».proof.Proof.Spec
import proofs.«150437_g8143257993987_cont_9to1c4b_560_12_alg».proof.Proof.SpecLaws
import proofs.«150437_g8143257993987_cont_9to1c4b_560_12_alg».proof.Proof.KerBlocks
import proofs.«150437_g8143257993987_cont_9to1c4b_560_12_alg».proof.Proof.RefRun
import proofs.«150437_g8143257993987_cont_9to1c4b_560_12_alg».proof.Proof.RefRead
import Idealize.ShloMosaic.Adequacy
import Idealize.ShloMosaic.Init

noncomputable section

namespace Cert.Proof

open Idealize.ShloMosaic Idealize.ShloMosaic.ValueIdx Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- The reference's result term, on the argument arrays, is the kernel's whole-array function: row by row the two
    spellings of the step agree. -/
theorem result_eq (a0 : FVec Ideal Cert.ReferenceIdeal.S64x8x1024 .f32) (a1 : FVec Ideal Cert.ReferenceIdeal.S64x4096x256 .f32)
    (a2 : FVec Ideal Cert.ReferenceIdeal.S1024x256 .f32) (a3 : FVec Ideal Cert.ReferenceIdeal.S256 .f32)
    (a4 a5 : FVec Ideal Cert.ReferenceIdeal.S512 .f32) (a6 : FVec Ideal Cert.ReferenceIdeal.S512x512 .f32)
    (a7 : FVec Ideal Cert.ReferenceIdeal.S512 .f32) (a8 : FVec Ideal Cert.ReferenceIdeal.S512x1 .f32)
    (a9 : FVec Ideal Cert.ReferenceIdeal.S1 .f32) (a10 : FVec Ideal Cert.ReferenceIdeal.S256x1024 .f32)
    (a11 : FVec Ideal Cert.ReferenceIdeal.S1024 .f32) :
    Cert.ReferenceIdeal.RefValue.refOut a0 a1 a2 a3 a4 a5 a6 a7 a8 a9 a10 a11
      = Cert.Router.G a0 a1 a2 a3 a4 a5 a6 a7 a8 a9 a10 a11 := by
  refine funext fun (j : Cert.ReferenceIdeal.S64x8x1024.Idx) => ?_
  obtain ⟨b, s, d, rfl⟩ : ∃ (b : Fin 64) (s : Fin 8) (d : Fin 1024), j = ix3 b s d := ⟨j 0, j 1, j 2, eq_ix3 j⟩
  rw [Cert.ReferenceIdeal.RefRead.refOut_apply, Cert.Router.G_apply, Cert.Router.rowR_eq_rowK]

theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11⟩ := hagree c
  rw [h0, h1, h2, h3, h4, h5, h6, h7, h8, h9, h10, h11]
  exact result_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
